-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x28x28x30 : Shape := ⟨4, ![4096, 28, 28, 30]⟩
abbrev S4096x28x28x24 : Shape := ⟨4, ![4096, 28, 28, 24]⟩
abbrev S_ : Shape := ⟨0, ![]⟩

class Facts : Prop where
  bcast_S_S4096x28x28x30 : S_.BroadcastsInDim S4096x28x28x30 (![] : Fin 0 → Fin S4096x28x28x30.rank)
  reducesTo_S4096x28x28x30_S_d0_1_2_3 : S4096x28x28x30.ReducesTo [0, 1, 2, 3] S_
  h_S_ : 0 < S_.numel
  bcast_S_S4096x28x28x24 : S_.BroadcastsInDim S4096x28x28x24 (![] : Fin 0 → Fin S4096x28x28x24.rank)
  reducesTo_S4096x28x28x24_S_d0_1_2_3 : S4096x28x28x24.ReducesTo [0, 1, 2, 3] S_

variable [Facts]

def fn {F : FTy → Type} [FloatOps F] (main_arg0 : FVec F S4096x28x28x30 .f32) (main_arg1 : FVec F S4096x28x28x24 .f32) : IVec S_ 1 :=
  let main_v0 : FVec F S4096x28x28x30 .f32 := Host.absf main_arg0
  let main_cst : FVec F S_ .f32 := constant S_ .f32 0x7F800000#32
  let main_v1 : FVec F S4096x28x28x30 .f32 := broadcastInDim S4096x28x28x30 ![] bcast_S_S4096x28x28x30 main_cst
  let main_v2 : IVec S4096x28x28x30 1 := cmpf .olt main_v0 main_v1
  let main_c : IVec S_ 1 := constantI S_ 1 1#1
  let main_v3 : IVec S_ 1 := (fun x v => Host.reduce IntOp.andi x v reducesTo_S4096x28x28x30_S_d0_1_2_3 h_S_) main_v2 main_c
  let main_v4 : FVec F S4096x28x28x24 .f32 := Host.absf main_arg1
  let main_cst_0 : FVec F S_ .f32 := constant S_ .f32 0x7F800000#32
  let main_v5 : FVec F S4096x28x28x24 .f32 := broadcastInDim S4096x28x28x24 ![] bcast_S_S4096x28x28x24 main_cst_0
  let main_v6 : IVec S4096x28x28x24 1 := cmpf .olt main_v4 main_v5
  let main_c_1 : IVec S_ 1 := constantI S_ 1 1#1
  let main_v7 : IVec S_ 1 := (fun x v => Host.reduce IntOp.andi x v reducesTo_S4096x28x28x24_S_d0_1_2_3 h_S_) main_v6 main_c_1
  let main_v8 : IVec S_ 1 := andi main_v3 main_v7
  main_v8
-- ==== Kernel.lean ====
abbrev S4096x28x28x30 : Shape := ⟨4, ![4096, 28, 28, 30]⟩
abbrev S4096x28x28x24 : Shape := ⟨4, ![4096, 28, 28, 24]⟩
abbrev S4096x784x30 : Shape := ⟨3, ![4096, 784, 30]⟩
abbrev S4096x784x24 : Shape := ⟨3, ![4096, 784, 24]⟩
abbrev S4096x1 : Shape := ⟨2, ![4096, 1]⟩
abbrev S16x784x30 : Shape := ⟨3, ![16, 784, 30]⟩
abbrev S16x784x24 : Shape := ⟨3, ![16, 784, 24]⟩
abbrev S16x1 : Shape := ⟨2, ![16, 1]⟩
abbrev S16x784x1 : Shape := ⟨3, ![16, 784, 1]⟩
abbrev S16x784 : Shape := ⟨2, ![16, 784]⟩
abbrev S16 : Shape := ⟨1, ![16]⟩
abbrev S4096 : Shape := ⟨1, ![4096]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S4096x28x28x30, .f32⟩
  | .hbm, ⟨1, _⟩ => ⟨S4096x28x28x24, .f32⟩
  | .hbm, ⟨2, _⟩ => ⟨S4096x784x30, .f32⟩
  | .hbm, ⟨3, _⟩ => ⟨S4096x784x24, .f32⟩
  | .hbm, ⟨4, _⟩ => ⟨S4096x1, .f32⟩
  | .hbm, ⟨5, _⟩ => ⟨S4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S16x784x30, .f32⟩
  | .local _ .vmem, ⟨1, _⟩ => ⟨S16x784x30, .f32⟩
  | .local _ .vmem, ⟨2, _⟩ => ⟨S16x784x24, .f32⟩
  | .local _ .vmem, ⟨3, _⟩ => ⟨S16x784x24, .f32⟩
  | .local _ .vmem, ⟨4, _⟩ => ⟨S16x1, .f32⟩
  | .local _ .vmem, ⟨5, _⟩ => ⟨S16x1, .f32⟩
  | _, _ => ⟨S4096x28x28x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x784x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x784x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x28x28x30_S4096x784x30 : S4096x28x28x30.ShapeCasts S4096x784x30
  shapeCasts_S4096x28x28x24_S4096x784x24 : S4096x28x28x24.ShapeCasts S4096x784x24
  inb_S16x784x30_S16x784x30_0_0_0 : ∀ a, (![0, 0, 0] : Fin 3 → Nat) a + S16x784x30.size a ≤ S16x784x30.size a
  h_S16x784x30 : 0 < S16x784x30.numel
  shapeCasts_S16x784x30_S16x784x30 : S16x784x30.ShapeCasts S16x784x30
  inb_S16x784x24_S16x784x24_0_0_0 : ∀ a, (![0, 0, 0] : Fin 3 → Nat) a + S16x784x24.size a ≤ S16x784x24.size a
  h_S16x784x24 : 0 < S16x784x24.numel
  shapeCasts_S16x784x24_S16x784x24 : S16x784x24.ShapeCasts S16x784x24
  slices_S16x784x24_o0_0_0_S16x784x1 : S16x784x24.Slices ![0, 0, 0] S16x784x1
  shapeCasts_S16x784x1_S16x784 : S16x784x1.ShapeCasts S16x784
  slices_S16x784x24_o0_0_1_S16x784x1 : S16x784x24.Slices ![0, 0, 1] S16x784x1
  slices_S16x784x24_o0_0_2_S16x784x1 : S16x784x24.Slices ![0, 0, 2] S16x784x1
  slices_S16x784x24_o0_0_3_S16x784x1 : S16x784x24.Slices ![0, 0, 3] S16x784x1
  slices_S16x784x30_o0_0_0_S16x784x1 : S16x784x30.Slices ![0, 0, 0] S16x784x1
  slices_S16x784x30_o0_0_1_S16x784x1 : S16x784x30.Slices ![0, 0, 1] S16x784x1
  slices_S16x784x30_o0_0_2_S16x784x1 : S16x784x30.Slices ![0, 0, 2] S16x784x1
  slices_S16x784x30_o0_0_3_S16x784x1 : S16x784x30.Slices ![0, 0, 3] S16x784x1
  slices_S16x784x30_o0_0_4_S16x784x1 : S16x784x30.Slices ![0, 0, 4] S16x784x1
  slices_S16x784x30_o0_0_5_S16x784x1 : S16x784x30.Slices ![0, 0, 5] S16x784x1
  slices_S16x784x30_o0_0_6_S16x784x1 : S16x784x30.Slices ![0, 0, 6] S16x784x1
  slices_S16x784x30_o0_0_7_S16x784x1 : S16x784x30.Slices ![0, 0, 7] S16x784x1
  slices_S16x784x30_o0_0_8_S16x784x1 : S16x784x30.Slices ![0, 0, 8] S16x784x1
  slices_S16x784x30_o0_0_9_S16x784x1 : S16x784x30.Slices ![0, 0, 9] S16x784x1
  slices_S16x784x24_o0_0_4_S16x784x1 : S16x784x24.Slices ![0, 0, 4] S16x784x1
  slices_S16x784x30_o0_0_10_S16x784x1 : S16x784x30.Slices ![0, 0, 10] S16x784x1
  natLt_1_32 : 1 < 32
  slices_S16x784x24_o0_0_5_S16x784x1 : S16x784x24.Slices ![0, 0, 5] S16x784x1
  slices_S16x784x30_o0_0_11_S16x784x1 : S16x784x30.Slices ![0, 0, 11] S16x784x1
  slices_S16x784x24_o0_0_6_S16x784x1 : S16x784x24.Slices ![0, 0, 6] S16x784x1
  slices_S16x784x30_o0_0_12_S16x784x1 : S16x784x30.Slices ![0, 0, 12] S16x784x1
  slices_S16x784x24_o0_0_7_S16x784x1 : S16x784x24.Slices ![0, 0, 7] S16x784x1
  slices_S16x784x30_o0_0_13_S16x784x1 : S16x784x30.Slices ![0, 0, 13] S16x784x1
  slices_S16x784x24_o0_0_8_S16x784x1 : S16x784x24.Slices ![0, 0, 8] S16x784x1
  slices_S16x784x30_o0_0_14_S16x784x1 : S16x784x30.Slices ![0, 0, 14] S16x784x1
  slices_S16x784x24_o0_0_9_S16x784x1 : S16x784x24.Slices ![0, 0, 9] S16x784x1
  slices_S16x784x30_o0_0_15_S16x784x1 : S16x784x30.Slices ![0, 0, 15] S16x784x1
  slices_S16x784x24_o0_0_10_S16x784x1 : S16x784x24.Slices ![0, 0, 10] S16x784x1
  slices_S16x784x30_o0_0_16_S16x784x1 : S16x784x30.Slices ![0, 0, 16] S16x784x1
  slices_S16x784x24_o0_0_11_S16x784x1 : S16x784x24.Slices ![0, 0, 11] S16x784x1
  slices_S16x784x30_o0_0_17_S16x784x1 : S16x784x30.Slices ![0, 0, 17] S16x784x1
  slices_S16x784x24_o0_0_12_S16x784x1 : S16x784x24.Slices ![0, 0, 12] S16x784x1
  slices_S16x784x30_o0_0_18_S16x784x1 : S16x784x30.Slices ![0, 0, 18] S16x784x1
  slices_S16x784x24_o0_0_13_S16x784x1 : S16x784x24.Slices ![0, 0, 13] S16x784x1
  slices_S16x784x30_o0_0_19_S16x784x1 : S16x784x30.Slices ![0, 0, 19] S16x784x1
  slices_S16x784x24_o0_0_14_S16x784x1 : S16x784x24.Slices ![0, 0, 14] S16x784x1
  slices_S16x784x30_o0_0_20_S16x784x1 : S16x784x30.Slices ![0, 0, 20] S16x784x1
  slices_S16x784x24_o0_0_15_S16x784x1 : S16x784x24.Slices ![0, 0, 15] S16x784x1
  slices_S16x784x30_o0_0_21_S16x784x1 : S16x784x30.Slices ![0, 0, 21] S16x784x1
  slices_S16x784x24_o0_0_16_S16x784x1 : S16x784x24.Slices ![0, 0, 16] S16x784x1
  slices_S16x784x30_o0_0_22_S16x784x1 : S16x784x30.Slices ![0, 0, 22] S16x784x1
  slices_S16x784x24_o0_0_17_S16x784x1 : S16x784x24.Slices ![0, 0, 17] S16x784x1
  slices_S16x784x30_o0_0_23_S16x784x1 : S16x784x30.Slices ![0, 0, 23] S16x784x1
  slices_S16x784x24_o0_0_18_S16x784x1 : S16x784x24.Slices ![0, 0, 18] S16x784x1
  slices_S16x784x30_o0_0_24_S16x784x1 : S16x784x30.Slices ![0, 0, 24] S16x784x1
  slices_S16x784x24_o0_0_19_S16x784x1 : S16x784x24.Slices ![0, 0, 19] S16x784x1
  slices_S16x784x30_o0_0_25_S16x784x1 : S16x784x30.Slices ![0, 0, 25] S16x784x1
  slices_S16x784x24_o0_0_20_S16x784x1 : S16x784x24.Slices ![0, 0, 20] S16x784x1
  slices_S16x784x30_o0_0_26_S16x784x1 : S16x784x30.Slices ![0, 0, 26] S16x784x1
  slices_S16x784x24_o0_0_21_S16x784x1 : S16x784x24.Slices ![0, 0, 21] S16x784x1
  slices_S16x784x30_o0_0_27_S16x784x1 : S16x784x30.Slices ![0, 0, 27] S16x784x1
  slices_S16x784x24_o0_0_22_S16x784x1 : S16x784x24.Slices ![0, 0, 22] S16x784x1
  slices_S16x784x30_o0_0_28_S16x784x1 : S16x784x30.Slices ![0, 0, 28] S16x784x1
  slices_S16x784x24_o0_0_23_S16x784x1 : S16x784x24.Slices ![0, 0, 23] S16x784x1
  slices_S16x784x30_o0_0_29_S16x784x1 : S16x784x30.Slices ![0, 0, 29] S16x784x1
  reduces_S16x784_S16 : S16x784.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S4096x1_S4096 : S4096x1.ShapeCasts S4096
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x784x30.size a ≤ S4096x784x30.size a
  hwx0_0 : ∀ i : grid0.Coords, EltTy.bits .f32 = 32 ∨ (Rect.block (s := S4096x784x30) S16x784x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x784x24.size a ≤ S4096x784x24.size a
  hwx0_1 : ∀ i : grid0.Coords, EltTy.bits .f32 = 32 ∨ (Rect.block (s := S4096x784x24) S16x784x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S4096x1.size a
  hwx0_2 : ∀ i : grid0.Coords, EltTy.bits .f32 = 32 ∨ (Rect.block (s := S4096x1) S16x1.size (cc0_transform_2 i) (hinb0_2 i)).WholeWords (EltTy.packing .f32)

variable [Facts₀]

abbrev win0_0 : Pipeline.Window sig grid0 :=
  Pipeline.Window.ofSpec (Memref.whole main_v0) S16x784x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x784x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x28x28x30 : Shape := ⟨4, ![4096, 28, 28, 30]⟩
abbrev S4096x28x28x24 : Shape := ⟨4, ![4096, 28, 28, 24]⟩
abbrev S4096x28x28x4 : Shape := ⟨4, ![4096, 28, 28, 4]⟩
abbrev S4096x28x28x1 : Shape := ⟨4, ![4096, 28, 28, 1]⟩
abbrev S4096x28x28 : Shape := ⟨3, ![4096, 28, 28]⟩
abbrev S_ : Shape := ⟨0, ![]⟩
abbrev S4096x28x28x5 : Shape := ⟨4, ![4096, 28, 28, 5]⟩
abbrev S4096x28x28x20 : Shape := ⟨4, ![4096, 28, 28, 20]⟩
abbrev S4096 : Shape := ⟨1, ![4096]⟩

abbrev nBuf : Space → Nat
  | .hbm => 289
  | .vmem => 0
  | .smem => 0
  | _ => 0

abbrev hbmTy0_0 (i : Nat) : BufTy := match i % 128 with
  | 0 => ⟨S4096x28x28x30, .f32⟩
  | 1 => ⟨S4096x28x28x24, .f32⟩
  | 2 => ⟨S4096x28x28x4, .f32⟩
  | 3 => ⟨S4096x28x28x4, .f32⟩
  | 4 => ⟨S4096x28x28x1, .f32⟩
  | 5 => ⟨S4096x28x28, .f32⟩
  | 6 => ⟨S4096x28x28x1, .f32⟩
  | 7 => ⟨S4096x28x28, .f32⟩
  | 8 => ⟨S4096x28x28x1, .f32⟩
  | 9 => ⟨S4096x28x28, .f32⟩
  | 10 => ⟨S4096x28x28x1, .f32⟩
  | 11 => ⟨S4096x28x28, .f32⟩
  | 12 => ⟨S_, .f32⟩
  | 13 => ⟨S4096x28x28, .f32⟩
  | 14 => ⟨S4096x28x28, .f32⟩
  | 15 => ⟨S4096x28x28, .f32⟩
  | 16 => ⟨S_, .f32⟩
  | 17 => ⟨S4096x28x28, .f32⟩
  | 18 => ⟨S4096x28x28, .f32⟩
  | 19 => ⟨S4096x28x28, .f32⟩
  | 20 => ⟨S_, .f32⟩
  | 21 => ⟨S4096x28x28, .f32⟩
  | 22 => ⟨S4096x28x28, .f32⟩
  | 23 => ⟨S4096x28x28, .f32⟩
  | 24 => ⟨S_, .f32⟩
  | 25 => ⟨S4096x28x28, .f32⟩
  | 26 => ⟨S4096x28x28, .f32⟩
  | 27 => ⟨S4096x28x28, .f32⟩
  | 28 => ⟨S4096x28x28x1, .f32⟩
  | 29 => ⟨S4096x28x28, .f32⟩
  | 30 => ⟨S4096x28x28x1, .f32⟩
  | 31 => ⟨S4096x28x28, .f32⟩
  | 32 => ⟨S4096x28x28x1, .f32⟩
  | 33 => ⟨S4096x28x28, .f32⟩
  | 34 => ⟨S4096x28x28x1, .f32⟩
  | 35 => ⟨S4096x28x28, .f32⟩
  | 36 => ⟨S_, .f32⟩
  | 37 => ⟨S4096x28x28, .f32⟩
  | 38 => ⟨S4096x28x28, .f32⟩
  | 39 => ⟨S4096x28x28, .f32⟩
  | 40 => ⟨S_, .f32⟩
  | 41 => ⟨S4096x28x28, .f32⟩
  | 42 => ⟨S4096x28x28, .f32⟩
  | 43 => ⟨S4096x28x28, .f32⟩
  | 44 => ⟨S_, .f32⟩
  | 45 => ⟨S4096x28x28, .f32⟩
  | 46 => ⟨S4096x28x28, .f32⟩
  | 47 => ⟨S4096x28x28, .f32⟩
  | 48 => ⟨S_, .f32⟩
  | 49 => ⟨S4096x28x28, .f32⟩
  | 50 => ⟨S4096x28x28, .f32⟩
  | 51 => ⟨S4096x28x28, .f32⟩
  | 52 => ⟨S4096x28x28, .f32⟩
  | 53 => ⟨S4096x28x28, .f32⟩
  | 54 => ⟨S4096x28x28, .f32⟩
  | 55 => ⟨S4096x28x28, .f32⟩
  | 56 => ⟨S4096x28x28, .f32⟩
  | 57 => ⟨S4096x28x28, .f32⟩
  | 58 => ⟨S4096x28x28, .f32⟩
  | 59 => ⟨S4096x28x28, .f32⟩
  | 60 => ⟨S4096x28x28, .f32⟩
  | 61 => ⟨S4096x28x28, .f32⟩
  | 62 => ⟨S4096x28x28, .f32⟩
  | 63 => ⟨S4096x28x28, .f32⟩
  | 64 => ⟨S4096x28x28, .f32⟩
  | 65 => ⟨S4096x28x28, .f32⟩
  | 66 => ⟨S4096x28x28, .f32⟩
  | 67 => ⟨S4096x28x28, .f32⟩
  | 68 => ⟨S4096x28x28, .f32⟩
  | 69 => ⟨S_, .f32⟩
  | 70 => ⟨S4096x28x28, .f32⟩
  | 71 => ⟨S4096x28x28, .i1⟩
  | 72 => ⟨S_, .f32⟩
  | 73 => ⟨S_, .f32⟩
  | 74 => ⟨S4096x28x28, .f32⟩
  | 75 => ⟨S4096x28x28, .f32⟩
  | 76 => ⟨S_, .f32⟩
  | 77 => ⟨S4096x28x28, .f32⟩
  | 78 => ⟨S4096x28x28, .i1⟩
  | 79 => ⟨S_, .f32⟩
  | 80 => ⟨S4096x28x28, .f32⟩
  | 81 => ⟨S4096x28x28, .i1⟩
  | 82 => ⟨S4096x28x28, .i1⟩
  | 83 => ⟨S_, .f32⟩
  | 84 => ⟨S4096x28x28, .f32⟩
  | 85 => ⟨S4096x28x28, .i1⟩
  | 86 => ⟨S4096x28x28, .i1⟩
  | 87 => ⟨S_, .f32⟩
  | 88 => ⟨S4096x28x28, .f32⟩
  | 89 => ⟨S4096x28x28, .i1⟩
  | 90 => ⟨S4096x28x28, .i1⟩
  | 91 => ⟨S_, .f32⟩
  | 92 => ⟨S4096x28x28, .f32⟩
  | 93 => ⟨S4096x28x28, .i1⟩
  | 94 => ⟨S4096x28x28, .i1⟩
  | 95 => ⟨S_, .f32⟩
  | 96 => ⟨S4096x28x28, .f32⟩
  | 97 => ⟨S4096x28x28, .i1⟩
  | 98 => ⟨S4096x28x28, .i1⟩
  | 99 => ⟨S4096x28x28, .f32⟩
  | 100 => ⟨S_, .f32⟩
  | 101 => ⟨S_, .f32⟩
  | 102 => ⟨S4096x28x28, .f32⟩
  | 103 => ⟨S4096x28x28, .f32⟩
  | 104 => ⟨S4096x28x28x4, .f32⟩
  | 105 => ⟨S4096x28x28x1, .f32⟩
  | 106 => ⟨S4096x28x28, .f32⟩
  | 107 => ⟨S4096x28x28x1, .f32⟩
  | 108 => ⟨S4096x28x28, .f32⟩
  | 109 => ⟨S4096x28x28x1, .f32⟩
  | 110 => ⟨S4096x28x28, .f32⟩
  | 111 => ⟨S4096x28x28x1, .f32⟩
  | 112 => ⟨S4096x28x28, .f32⟩
  | 113 => ⟨S_, .f32⟩
  | 114 => ⟨S4096x28x28, .f32⟩
  | 115 => ⟨S4096x28x28, .f32⟩
  | 116 => ⟨S4096x28x28, .f32⟩
  | 117 => ⟨S_, .f32⟩
  | 118 => ⟨S4096x28x28, .f32⟩
  | 119 => ⟨S4096x28x28, .f32⟩
  | 120 => ⟨S4096x28x28, .f32⟩
  | 121 => ⟨S_, .f32⟩
  | 122 => ⟨S4096x28x28, .f32⟩
  | 123 => ⟨S4096x28x28, .f32⟩
  | 124 => ⟨S4096x28x28, .f32⟩
  | 125 => ⟨S_, .f32⟩
  | 126 => ⟨S4096x28x28, .f32⟩
  | 127 => ⟨S4096x28x28, .f32⟩
  | _ => ⟨S4096x28x28x30, .f32⟩

abbrev hbmTy0_1 (i : Nat) : BufTy := match i % 128 with
  | 0 => ⟨S4096x28x28, .f32⟩
  | 1 => ⟨S4096x28x28x1, .f32⟩
  | 2 => ⟨S4096x28x28, .f32⟩
  | 3 => ⟨S4096x28x28x1, .f32⟩
  | 4 => ⟨S4096x28x28, .f32⟩
  | 5 => ⟨S4096x28x28x1, .f32⟩
  | 6 => ⟨S4096x28x28, .f32⟩
  | 7 => ⟨S4096x28x28x1, .f32⟩
  | 8 => ⟨S4096x28x28, .f32⟩
  | 9 => ⟨S_, .f32⟩
  | 10 => ⟨S4096x28x28, .f32⟩
  | 11 => ⟨S4096x28x28, .f32⟩
  | 12 => ⟨S4096x28x28, .f32⟩
  | 13 => ⟨S_, .f32⟩
  | 14 => ⟨S4096x28x28, .f32⟩
  | 15 => ⟨S4096x28x28, .f32⟩
  | 16 => ⟨S4096x28x28, .f32⟩
  | 17 => ⟨S_, .f32⟩
  | 18 => ⟨S4096x28x28, .f32⟩
  | 19 => ⟨S4096x28x28, .f32⟩
  | 20 => ⟨S4096x28x28, .f32⟩
  | 21 => ⟨S_, .f32⟩
  | 22 => ⟨S4096x28x28, .f32⟩
  | 23 => ⟨S4096x28x28, .f32⟩
  | 24 => ⟨S4096x28x28, .f32⟩
  | 25 => ⟨S4096x28x28, .f32⟩
  | 26 => ⟨S4096x28x28, .f32⟩
  | 27 => ⟨S4096x28x28, .f32⟩
  | 28 => ⟨S4096x28x28, .f32⟩
  | 29 => ⟨S4096x28x28, .f32⟩
  | 30 => ⟨S4096x28x28, .f32⟩
  | 31 => ⟨S4096x28x28, .f32⟩
  | 32 => ⟨S4096x28x28, .f32⟩
  | 33 => ⟨S4096x28x28, .f32⟩
  | 34 => ⟨S4096x28x28, .f32⟩
  | 35 => ⟨S4096x28x28, .f32⟩
  | 36 => ⟨S4096x28x28, .f32⟩
  | 37 => ⟨S4096x28x28, .f32⟩
  | 38 => ⟨S4096x28x28, .f32⟩
  | 39 => ⟨S4096x28x28, .f32⟩
  | 40 => ⟨S4096x28x28, .f32⟩
  | 41 => ⟨S4096x28x28, .f32⟩
  | 42 => ⟨S_, .f32⟩
  | 43 => ⟨S4096x28x28, .f32⟩
  | 44 => ⟨S4096x28x28, .i1⟩
  | 45 => ⟨S_, .f32⟩
  | 46 => ⟨S_, .f32⟩
  | 47 => ⟨S4096x28x28, .f32⟩
  | 48 => ⟨S4096x28x28, .f32⟩
  | 49 => ⟨S_, .f32⟩
  | 50 => ⟨S4096x28x28, .f32⟩
  | 51 => ⟨S4096x28x28, .i1⟩
  | 52 => ⟨S_, .f32⟩
  | 53 => ⟨S4096x28x28, .f32⟩
  | 54 => ⟨S4096x28x28, .i1⟩
  | 55 => ⟨S4096x28x28, .i1⟩
  | 56 => ⟨S_, .f32⟩
  | 57 => ⟨S4096x28x28, .f32⟩
  | 58 => ⟨S4096x28x28, .i1⟩
  | 59 => ⟨S4096x28x28, .i1⟩
  | 60 => ⟨S_, .f32⟩
  | 61 => ⟨S4096x28x28, .f32⟩
  | 62 => ⟨S4096x28x28, .i1⟩
  | 63 => ⟨S4096x28x28, .i1⟩
  | 64 => ⟨S_, .f32⟩
  | 65 => ⟨S4096x28x28, .f32⟩
  | 66 => ⟨S4096x28x28, .i1⟩
  | 67 => ⟨S4096x28x28, .i1⟩
  | 68 => ⟨S_, .f32⟩
  | 69 => ⟨S4096x28x28, .f32⟩
  | 70 => ⟨S4096x28x28, .i1⟩
  | 71 => ⟨S4096x28x28, .i1⟩
  | 72 => ⟨S4096x28x28, .f32⟩
  | 73 => ⟨S_, .f32⟩
  | 74 => ⟨S_, .f32⟩
  | 75 => ⟨S4096x28x28, .f32⟩
  | 76 => ⟨S4096x28x28, .f32⟩
  | 77 => ⟨S4096x28x28, .i1⟩
  | 78 => ⟨S4096x28x28x1, .i1⟩
  | 79 => ⟨S4096x28x28x5, .f32⟩
  | 80 => ⟨S4096x28x28x5, .f32⟩
  | 81 => ⟨S4096x28x28x5, .i1⟩
  | 82 => ⟨S4096x28x28x5, .f32⟩
  | 83 => ⟨S4096x28x28x20, .f32⟩
  | 84 => ⟨S4096x28x28x1, .f32⟩
  | 85 => ⟨S4096x28x28, .f32⟩
  | 86 => ⟨S4096x28x28x1, .f32⟩
  | 87 => ⟨S4096x28x28, .f32⟩
  | 88 => ⟨S4096x28x28, .f32⟩
  | 89 => ⟨S4096x28x28, .f32⟩
  | 90 => ⟨S4096x28x28x1, .f32⟩
  | 91 => ⟨S4096x28x28, .f32⟩
  | 92 => ⟨S4096x28x28x1, .f32⟩
  | 93 => ⟨S4096x28x28, .f32⟩
  | 94 => ⟨S4096x28x28, .f32⟩
  | 95 => ⟨S4096x28x28, .f32⟩
  | 96 => ⟨S4096x28x28, .f32⟩
  | 97 => ⟨S_, .f32⟩
  | 98 => ⟨S4096x28x28, .f32⟩
  | 99 => ⟨S4096x28x28, .f32⟩
  | 100 => ⟨S4096x28x28x1, .f32⟩
  | 101 => ⟨S4096x28x28, .f32⟩
  | 102 => ⟨S4096x28x28, .f32⟩
  | 103 => ⟨S4096x28x28x1, .f32⟩
  | 104 => ⟨S4096x28x28, .f32⟩
  | 105 => ⟨S4096x28x28, .f32⟩
  | 106 => ⟨S4096x28x28, .f32⟩
  | 107 => ⟨S4096x28x28, .f32⟩
  | 108 => ⟨S4096x28x28x1, .f32⟩
  | 109 => ⟨S4096x28x28, .f32⟩
  | 110 => ⟨S4096x28x28, .f32⟩
  | 111 => ⟨S4096x28x28x1, .f32⟩
  | 112 => ⟨S4096x28x28, .f32⟩
  | 113 => ⟨S4096x28x28, .f32⟩
  | 114 => ⟨S4096x28x28, .f32⟩
  | 115 => ⟨S4096x28x28, .f32⟩
  | 116 => ⟨S4096x28x28, .f32⟩
  | 117 => ⟨S_, .f32⟩
  | 118 => ⟨S4096x28x28, .f32⟩
  | 119 => ⟨S4096x28x28, .f32⟩
  | 120 => ⟨S4096x28x28, .f32⟩
  | 121 => ⟨S4096x28x28x1, .f32⟩
  | 122 => ⟨S4096x28x28, .f32⟩
  | 123 => ⟨S_, .f32⟩
  | 124 => ⟨S4096x28x28, .f32⟩
  | 125 => ⟨S4096x28x28, .f32⟩
  | 126 => ⟨S4096x28x28, .f32⟩
  | 127 => ⟨S4096x28x28, .f32⟩
  | _ => ⟨S4096x28x28x30, .f32⟩

abbrev hbmTy0_2 (i : Nat) : BufTy := match i % 128 with
  | 0 => ⟨S4096x28x28x20, .f32⟩
  | 1 => ⟨S_, .f32⟩
  | 2 => ⟨S4096x28x28x20, .f32⟩
  | 3 => ⟨S4096x28x28x20, .i1⟩
  | 4 => ⟨S4096x28x28x20, .f32⟩
  | 5 => ⟨S4096x28x28x20, .f32⟩
  | 6 => ⟨S4096x28x28x20, .f32⟩
  | 7 => ⟨S_, .f32⟩
  | 8 => ⟨S4096x28x28, .f32⟩
  | 9 => ⟨S4096x28x28, .f32⟩
  | 10 => ⟨S4096x28x28x1, .f32⟩
  | 11 => ⟨S4096x28x28, .f32⟩
  | 12 => ⟨S4096x28x28, .f32⟩
  | 13 => ⟨S4096x28x28x1, .f32⟩
  | 14 => ⟨S4096x28x28, .f32⟩
  | 15 => ⟨S4096x28x28, .f32⟩
  | 16 => ⟨S4096x28x28, .f32⟩
  | 17 => ⟨S_, .f32⟩
  | 18 => ⟨S4096x28x28, .f32⟩
  | 19 => ⟨S4096x28x28, .f32⟩
  | 20 => ⟨S4096x28x28x20, .f32⟩
  | 21 => ⟨S_, .f32⟩
  | 22 => ⟨S4096x28x28x20, .f32⟩
  | 23 => ⟨S4096x28x28x20, .i1⟩
  | 24 => ⟨S_, .i1⟩
  | 25 => ⟨S4096x28x28, .i1⟩
  | 26 => ⟨S4096x28x28, .f32⟩
  | 27 => ⟨S_, .f32⟩
  | 28 => ⟨S4096, .f32⟩
  | 29 => ⟨S_, .f32⟩
  | 30 => ⟨S_, .f32⟩
  | 31 => ⟨S_, .f32⟩
  | 32 => ⟨S_, .f32⟩
  | _ => ⟨S4096x28x28x30, .f32⟩

abbrev hbmTy (i : Nat) : BufTy := match i / 128 with
  | 0 => hbmTy0_0 i
  | 1 => hbmTy0_1 i
  | 2 => hbmTy0_2 i
  | _ => ⟨S4096x28x28x30, .f32⟩

abbrev bufTy : (tb : Table) → Fin (tcTables nBuf tb) → BufTy
  | .hbm, ⟨i, _⟩ => hbmTy i
  | _, _ => ⟨S4096x28x28x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_7 : Ref sig .tc := ⟨.hbm, 69, rfl⟩
abbrev main_v59 : Ref sig .tc := ⟨.hbm, 70, rfl⟩
abbrev main_v60 : Ref sig .tc := ⟨.hbm, 71, rfl⟩
abbrev main_cst_8 : Ref sig .tc := ⟨.hbm, 72, rfl⟩
abbrev main_call0_v0 : Ref sig .tc := ⟨.hbm, 73, rfl⟩
abbrev main_call0_v1 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_11 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_15 : Ref sig .tc := ⟨.hbm, 100, rfl⟩
abbrev main_call1_v0 : Ref sig .tc := ⟨.hbm, 101, rfl⟩
abbrev main_call1_v1 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_16 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_17 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_19 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_20 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_21 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_22 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_23 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_24 : Ref sig .tc := ⟨.hbm, 170, rfl⟩
abbrev main_v139 : Ref sig .tc := ⟨.hbm, 171, rfl⟩
abbrev main_v140 : Ref sig .tc := ⟨.hbm, 172, rfl⟩
abbrev main_cst_25 : Ref sig .tc := ⟨.hbm, 173, rfl⟩
abbrev main_call2_v0 : Ref sig .tc := ⟨.hbm, 174, rfl⟩
abbrev main_call2_v1 : Ref sig .tc := ⟨.hbm, 175, rfl⟩
abbrev main_v141 : Ref sig .tc := ⟨.hbm, 176, rfl⟩
abbrev main_cst_26 : Ref sig .tc := ⟨.hbm, 177, rfl⟩
abbrev main_v142 : Ref sig .tc := ⟨.hbm, 178, rfl⟩
abbrev main_v143 : Ref sig .tc := ⟨.hbm, 179, rfl⟩
abbrev main_cst_27 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_28 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_29 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_30 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_31 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_32 : Ref sig .tc := ⟨.hbm, 201, rfl⟩
abbrev main_call3_v0 : Ref sig .tc := ⟨.hbm, 202, rfl⟩
abbrev main_call3_v1 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_call4_v0 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_33 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_cst_34 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_cst_35 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_36 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_cst_37 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_cst_38 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_cst_39 : Ref sig .tc := ⟨.hbm, 277, rfl⟩
abbrev main_v226 : Ref sig .tc := ⟨.hbm, 278, rfl⟩
abbrev main_v227 : Ref sig .tc := ⟨.hbm, 279, rfl⟩
abbrev main_c : Ref sig .tc := ⟨.hbm, 280, rfl⟩
abbrev main_v228 : Ref sig .tc := ⟨.hbm, 281, rfl⟩
abbrev main_v229 : Ref sig .tc := ⟨.hbm, 282, rfl⟩
abbrev main_cst_40 : Ref sig .tc := ⟨.hbm, 283, rfl⟩
abbrev main_v230 : Ref sig .tc := ⟨.hbm, 284, rfl⟩
abbrev main_cst_41 : Ref sig .tc := ⟨.hbm, 285, rfl⟩
abbrev main_v231 : Ref sig .tc := ⟨.hbm, 286, rfl⟩
abbrev main_cst_42 : Ref sig .tc := ⟨.hbm, 287, rfl⟩
abbrev main_v232 : Ref sig .tc := ⟨.hbm, 288, rfl⟩

abbrev nD : Nat := 1
abbrev τ : Topo := Topo.v7x

variable {F : FTy → Type} [FloatOps F]

class Facts₀ : Prop where
  slices_S4096x28x28x24_S4096x28x28x4_0_0_0_0 : S4096x28x28x24.Slices ![0, 0, 0, 0] S4096x28x28x4
  slices_S4096x28x28x30_S4096x28x28x4_0_0_0_0 : S4096x28x28x30.Slices ![0, 0, 0, 0] S4096x28x28x4
  slices_S4096x28x28x4_S4096x28x28x1_0_0_0_0 : S4096x28x28x4.Slices ![0, 0, 0, 0] S4096x28x28x1
  shapeCasts_S4096x28x28x1_S4096x28x28 : S4096x28x28x1.ShapeCasts S4096x28x28
  slices_S4096x28x28x4_S4096x28x28x1_0_0_0_1 : S4096x28x28x4.Slices ![0, 0, 0, 1] S4096x28x28x1
  slices_S4096x28x28x4_S4096x28x28x1_0_0_0_2 : S4096x28x28x4.Slices ![0, 0, 0, 2] S4096x28x28x1
  slices_S4096x28x28x4_S4096x28x28x1_0_0_0_3 : S4096x28x28x4.Slices ![0, 0, 0, 3] S4096x28x28x1
  bcast_S_S4096x28x28 : S_.BroadcastsInDim S4096x28x28 (![] : Fin 0 → Fin S4096x28x28.rank)
  slices_S4096x28x28x30_S4096x28x28x4_0_0_0_5 : S4096x28x28x30.Slices ![0, 0, 0, 5] S4096x28x28x4
  bcast_S4096x28x28_S4096x28x28x1_0_1_2 : S4096x28x28.BroadcastsInDim S4096x28x28x1 (![0, 1, 2] : Fin 3 → Fin S4096x28x28x1.rank)
  slices_S4096x28x28x30_S4096x28x28x5_0_0_0_0 : S4096x28x28x30.Slices ![0, 0, 0, 0] S4096x28x28x5
  slices_S4096x28x28x30_S4096x28x28x5_0_0_0_5 : S4096x28x28x30.Slices ![0, 0, 0, 5] S4096x28x28x5
  bcast_S4096x28x28x1_S4096x28x28x5_0_1_2_3 : S4096x28x28x1.BroadcastsInDim S4096x28x28x5 (![0, 1, 2, 3] : Fin 4 → Fin S4096x28x28x5.rank)
  slices_S4096x28x28x30_S4096x28x28x20_0_0_0_10 : S4096x28x28x30.Slices ![0, 0, 0, 10] S4096x28x28x20
  slices_S4096x28x28x24_S4096x28x28x1_0_0_0_0 : S4096x28x28x24.Slices ![0, 0, 0, 0] S4096x28x28x1
  slices_S4096x28x28x5_S4096x28x28x1_0_0_0_0 : S4096x28x28x5.Slices ![0, 0, 0, 0] S4096x28x28x1
  slices_S4096x28x28x24_S4096x28x28x1_0_0_0_1 : S4096x28x28x24.Slices ![0, 0, 0, 1] S4096x28x28x1
  slices_S4096x28x28x5_S4096x28x28x1_0_0_0_1 : S4096x28x28x5.Slices ![0, 0, 0, 1] S4096x28x28x1
  slices_S4096x28x28x24_S4096x28x28x1_0_0_0_2 : S4096x28x28x24.Slices ![0, 0, 0, 2] S4096x28x28x1
  slices_S4096x28x28x5_S4096x28x28x1_0_0_0_2 : S4096x28x28x5.Slices ![0, 0, 0, 2] S4096x28x28x1
  slices_S4096x28x28x24_S4096x28x28x1_0_0_0_3 : S4096x28x28x24.Slices ![0, 0, 0, 3] S4096x28x28x1
  slices_S4096x28x28x5_S4096x28x28x1_0_0_0_3 : S4096x28x28x5.Slices ![0, 0, 0, 3] S4096x28x28x1
  slices_S4096x28x28x5_S4096x28x28x1_0_0_0_4 : S4096x28x28x5.Slices ![0, 0, 0, 4] S4096x28x28x1
  slices_S4096x28x28x24_S4096x28x28x20_0_0_0_4 : S4096x28x28x24.Slices ![0, 0, 0, 4] S4096x28x28x20
  bcast_S_S4096x28x28x20 : S_.BroadcastsInDim S4096x28x28x20 (![] : Fin 0 → Fin S4096x28x28x20.rank)
  reducesTo_S4096x28x28x20_S4096x28x28_d3 : S4096x28x28x20.ReducesTo [3] S4096x28x28
  h_S_ : 0 < S_.numel
  slices_S4096x28x28x30_S4096x28x28x1_0_0_0_4 : S4096x28x28x30.Slices ![0, 0, 0, 4] S4096x28x28x1
  slices_S4096x28x28x30_S4096x28x28x1_0_0_0_9 : S4096x28x28x30.Slices ![0, 0, 0, 9] S4096x28x28x1
  reducesTo_S4096x28x28_S4096_d1_2 : S4096x28x28.ReducesTo [1, 2] S4096
  reducesTo_S4096_S_d0 : S4096.ReducesTo [0] S_

variable [Facts₀]

class Facts : Prop extends Facts₀ where

variable [Facts]
-- ==== Proof.CellLoss.lean ====
/-
  The loss of one grid cell, as a function of the cell's 30 predicted and 24 ground-truth numbers.

  A cell's ground truth is a box (x, y, w, h) = g 0 … g 3 and twenty class indicators g 4 … g 23. Its prediction is
  two boxes with a confidence each, (x, y, w, h, c) = p 0 … p 4 and p 5 … p 9, and twenty class scores p 10 … p 29.
  A box's corners are (x - w/2, y - h/2) and (x + w/2, y + h/2). The overlap of a predicted box with the ground-truth
  box is the product of the two side lengths of the intersection; the overlap ratio is overlap / (area + area -
  overlap), with the divisor replaced by one when it vanishes, and is counted as zero unless the overlap is
  non-negative, the predicted area non-zero and the four predicted corner coordinates non-negative. The predicted
  box with the larger ratio (the first on a tie) is the responsible one. A cell that holds an object (some class
  indicator non-zero) pays five times the squared position error, five times the squared error of the square roots
  of the sides, the squared distance of the confidence from one, and the squared class errors against the
  indicators' exact test for one; a cell without an object pays half the two squared confidences.

  Everything is over the extended reals, where each operation is the exact one; the halves are products with the
  exact dyadic 1/2.
-/
import Idealize.ShloMosaic.PureOps.Ideal
import Idealize.ShloMosaic.Lib.ValueIdx

noncomputable section

namespace Cert.YoloCell

open Idealize.ShloMosaic

/-- The numbers 0, 1/2, 1 and 5, as the extended reals their single-precision words denote. -/
abbrev zero : EReal := Ideal.ofBits .f32 0x00000000#32
abbrev half : EReal := Ideal.ofBits .f32 0x3F000000#32
abbrev one : EReal := Ideal.ofBits .f32 0x3F800000#32
abbrev five : EReal := Ideal.ofBits .f32 0x40A00000#32

/-- The absolute value on the extended reals, as the float operation reads there. -/
abbrev abs' (x : EReal) : EReal := FloatOps.absf (F := Ideal) (φ := .f32) x

/-- The area of the box with corners (ax, ay) and (bx, by). -/
def boxArea (ax ay bx by' : EReal) : EReal := abs' ((bx - ax) * (by' - ay))

/-- The overlap ratio of the predicted box (px, py, pw, ph) with the ground-truth box of corners (gax, gay),
    (gbx, gby) and area garea. -/
def iou (gax gay gbx gby garea px py pw ph : EReal) : EReal :=
  let pax := px - pw * half
  let pay := py - ph * half
  let pbx := px + pw * half
  let pby := py + ph * half
  let inter := (min gbx pbx - max gax pax) * (min gby pby - max gay pay)
  let parea := boxArea pax pay pbx pby
  let union := garea + parea - inter
  let usafe := Scalar.select (Ideal.cmp .oeq union zero) one union
  let valid := IntOp.andi (IntOp.andi (IntOp.andi (IntOp.andi (IntOp.andi (Ideal.cmp .oge inter zero)
    (Ideal.cmp .one parea zero)) (Ideal.cmp .oge pax zero)) (Ideal.cmp .oge pay zero)) (Ideal.cmp .oge pbx zero))
    (Ideal.cmp .oge pby zero)
  Scalar.select valid (Ideal.div inter usafe) zero

/-- One class's squared error: the indicator's exact test for one, as a number, against the score. -/
def clsErr (g p : EReal) : EReal :=
  (FloatOps.sitofp (F := Ideal) .f32 ((Ideal.cmp .oeq g one).setWidth 32) - p)
    * (FloatOps.sitofp (F := Ideal) .f32 ((Ideal.cmp .oeq g one).setWidth 32) - p)

/-- The twenty squared class errors, added one after the other from zero. -/
def clsSum (p : Fin 30 → EReal) (g : Fin 24 → EReal) : EReal :=
  ((((((((((((((((((((zero + clsErr (g 4) (p 10)) + clsErr (g 5) (p 11)) + clsErr (g 6) (p 12)) + clsErr (g 7) (p 13)) + clsErr (g 8) (p 14)) + clsErr (g 9) (p 15)) + clsErr (g 10) (p 16)) + clsErr (g 11) (p 17)) + clsErr (g 12) (p 18)) + clsErr (g 13) (p 19)) + clsErr (g 14) (p 20)) + clsErr (g 15) (p 21)) + clsErr (g 16) (p 22)) + clsErr (g 17) (p 23)) + clsErr (g 18) (p 24)) + clsErr (g 19) (p 25)) + clsErr (g 20) (p 26)) + clsErr (g 21) (p 27)) + clsErr (g 22) (p 28)) + clsErr (g 23) (p 29))

/-- Whether some class indicator is non-zero: the twenty tests joined one after the other from false. -/
def hasObj (g : Fin 24 → EReal) : BitVec 1 :=
  (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (0#1 : BitVec 1) (Ideal.cmp .one (g 4) zero)) (Ideal.cmp .one (g 5) zero)) (Ideal.cmp .one (g 6) zero)) (Ideal.cmp .one (g 7) zero)) (Ideal.cmp .one (g 8) zero)) (Ideal.cmp .one (g 9) zero)) (Ideal.cmp .one (g 10) zero)) (Ideal.cmp .one (g 11) zero)) (Ideal.cmp .one (g 12) zero)) (Ideal.cmp .one (g 13) zero)) (Ideal.cmp .one (g 14) zero)) (Ideal.cmp .one (g 15) zero)) (Ideal.cmp .one (g 16) zero)) (Ideal.cmp .one (g 17) zero)) (Ideal.cmp .one (g 18) zero)) (Ideal.cmp .one (g 19) zero)) (Ideal.cmp .one (g 20) zero)) (Ideal.cmp .one (g 21) zero)) (Ideal.cmp .one (g 22) zero)) (Ideal.cmp .one (g 23) zero))

/-- The loss of a cell with prediction `p` and ground truth `g`. -/
def cell (p : Fin 30 → EReal) (g : Fin 24 → EReal) : EReal :=
  let gax := g 0 - g 2 * half
  let gay := g 1 - g 3 * half
  let gbx := g 0 + g 2 * half
  let gby := g 1 + g 3 * half
  let garea := boxArea gax gay gbx gby
  let first := Ideal.cmp .oge (iou gax gay gbx gby garea (p 0) (p 1) (p 2) (p 3)) (iou gax gay gbx gby garea (p 5) (p 6) (p 7) (p 8))
  let px := Scalar.select first (p 0) (p 5)
  let py := Scalar.select first (p 1) (p 6)
  let pw := Scalar.select first (p 2) (p 7)
  let ph := Scalar.select first (p 3) (p 8)
  let pc := Scalar.select first (p 4) (p 9)
  let pos := five * ((g 0 - px) * (g 0 - px) + (g 1 - py) * (g 1 - py))
  let side := five * ((Ideal.sqrt (g 2) - Ideal.sqrt pw) * (Ideal.sqrt (g 2) - Ideal.sqrt pw)
    + (Ideal.sqrt (g 3) - Ideal.sqrt ph) * (Ideal.sqrt (g 3) - Ideal.sqrt ph))
  let conf := (one - pc) * (one - pc)
  let noObj := half * (p 4 * p 4 + p 9 * p 9)
  Scalar.select (hasObj g) (pos + side + conf + clsSum p g) noObj

end Cert.YoloCell

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«178040_j67577015435959_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.KernelRow.lean ====
/-
  The kernel's output block, row by row.

  The kernel body reads a block of 16 images: the predictions `x0` of shape [16, 784, 30] and the ground truth `x1`
  of shape [16, 784, 24], one row of 30 resp. 24 numbers for each of an image's 784 grid cells. It cuts every one of
  the 30 + 24 columns out of the two arrays as a [16, 784] array, computes on these arrays pointwise, sums the result
  along the cells and stores the 16 sums as a column [16, 1].

  Read at image `r`, the stored column is therefore the sum over the cells `c` of a function of the cell's own
  30 + 24 numbers `x0 (r, c, ·)`, `x1 (r, c, ·)`, and that function is the cell loss `Cert.YoloCell.cell`
  (`out_row`). Three facts carry the proof:
  • a column `k` of an [a, b, n] array, cut out as [a, b, 1] and cast to [a, b], is the function
    `(i, j) ↦ X (i, j, k)` (`col_eq`): the cast keeps the row-major position `(i * b + j) * 1 + 0 = i * b + j`, the
    cut shifts the last coordinate by `k`;
  • a vector of 16 sums cast to a column reads entry `r` at `(r, ·)`, and the sum of a [16, 784] array along its
    second axis is, over the extended reals where addition is exact, the plain sum over the row;
  • every other operation of the body is pointwise, and over the extended reals a pointwise operation read at an
    index is by definition the scalar operation on the operands read there; the cell loss applies the same scalar
    operations in the same order, so after the columns are rewritten the two sides agree by unfolding definitions.
-/
import proofs.«178040_j67577015435959_2_alg».proof.Proof.Gen.KernelIdeal.Frame
import proofs.«178040_j67577015435959_2_alg».proof.Proof.CellLoss
import proofs.«178040_j67577015435959_2_alg».proof.Proof.LibRowSum

set_option maxRecDepth 16384

noncomputable section

namespace Cert.KernelIdeal.RowValue

open Idealize.ShloMosaic Idealize.ShloMosaic.ValueIdx
open Cert.KernelIdeal Cert.KernelIdeal.Gen

variable {α : Type}

/-! ## One column of a rank-3 array -/

/-- A block [a, b, 1] that fits into an [a, b, n] array at last-axis offset `k` has `k < n`. -/
theorem slice_last_lt {a b n k : ℕ}
    (hs : (⟨3, ![a, b, n]⟩ : Shape).Slices ![0, 0, k] ⟨3, ![a, b, 1]⟩) : k < n := by
  obtain ⟨h, h2⟩ := hs
  have h4 : k + 1 ≤ n := h2 (2 : Fin 3)
  omega

/-- Column `k` of an [a, b, n] array, cut out as an [a, b, 1] block and cast to [a, b], is the function
    `(i, j) ↦ X (i, j, k)`. The cast reads the block at the index of equal row-major position,
    `(i * b + j) * 1 + 0 = i * b + j`, that is at `(i, j, 0)`; the cut reads the array there shifted by the offsets
    `(0, 0, k)`. -/
theorem col_eq {a b n : ℕ} (k : ℕ) (X : (⟨3, ![a, b, n]⟩ : Shape).Idx → α)
    (hs : (⟨3, ![a, b, n]⟩ : Shape).Slices ![0, 0, k] ⟨3, ![a, b, 1]⟩)
    (hc : (⟨3, ![a, b, 1]⟩ : Shape).ShapeCasts ⟨2, ![a, b]⟩) :
    shapeCast ⟨2, ![a, b]⟩ (extractStridedSlice ⟨3, ![a, b, 1]⟩ ![0, 0, k] X hs) hc
      = fun i => X (ix3 (n0 := a) (n1 := b) (i 0) (i 1) ⟨k, slice_last_lt hs⟩) := by
  funext i
  obtain ⟨r, c, rfl⟩ : ∃ r c, i = ix2 r c := ⟨i 0, i 1, eq_ix2 i⟩
  refine (shapeCast_apply _ hc (ix2 r c) (ix3 r c (0 : Fin 1)) ?_).trans ?_
  · rw [Shape.rowMajor_val_three, Shape.rowMajor_val_two]
    show (r.val * b + c.val) * 1 + 0 = r.val * b + c.val
    omega
  · exact extractStridedSlice_apply _ _ _ _ _ (fun ax => by
      match ax with
      | ⟨0, _⟩ => exact (Nat.zero_add _).symm
      | ⟨1, _⟩ => exact (Nat.zero_add _).symm
      | ⟨2, _⟩ => rfl)

/-! ## The whole-block accesses -/

/-- The offsets (0, 0) are zero on every axis. -/
theorem hz2 : (![0, 0] : Fin 2 → Nat) = fun _ => 0 := funext fun a => by fin_cases a <;> rfl
/-- The offsets (0, 0, 0) are zero on every axis. -/
theorem hz3 : (![0, 0, 0] : Fin 3 → Nat) = fun _ => 0 := funext fun a => by fin_cases a <;> rfl

/-! ## The output block at an image -/

set_option maxHeartbeats 2000000 in
/-- The output block read at image `r`: the sum over the image's 784 cells of the cell loss of the cell's 30
    predicted and 24 ground-truth numbers.

    The one store covers the block and both loads read whole blocks, so the block is the stored value. That value
    is a vector of 16 row sums cast to a column; at `(r, ·)` it is the sum over `c` of the summed array at `(r, c)`.
    There every column of the inputs is, by `col_eq`, the input read at `(r, c, k)`; what remains on the left is a
    composition of pointwise operations read at `(r, c)`, which unfolds to the same scalar expression as the cell
    loss. -/
theorem out_row (x0 : Vec Ideal S16x784x30 .f32) (x1 : Vec Ideal S16x784x24 .f32) (r : Fin 16) (u : Fin 1) :
    out0_2 (F := Ideal) x0 x1 (ix2 r u)
      = ∑ c : Fin 784, Cert.YoloCell.cell (fun k => x0 (ix3 r c k)) (fun k => x1 (ix3 r c k)) := by
  unfold out0_2
  rw [View.canon_unit_zero hz2]
  simp only [View.ld_unit_zero (S := S16x784x30) hz3, View.ld_unit_zero (S := S16x784x24) hz3]
  unfold k0_pay1
  refine (Cert.Columns.shapeCast_a_a1_apply _ _ r u).trans ?_
  refine (Cert.RowSum.multiReduction_add_row _ _ _ _ _ r).trans ?_
  refine Finset.sum_congr rfl (fun c _ => ?_)
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, shapeCast_self, col_eq]
  rfl

end Cert.KernelIdeal.RowValue

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.MeanLoss.lean ====
/-
  The loss of an image and the mean over the images.

  An image's loss is the sum of the losses of its 28 × 28 cells (`imageLoss`); the result of both programs is the mean
  of the 4096 image losses, taken as a sum from zero divided by 4096 (`meanOf`).

  One program keeps an image's cells on two axes of 28, the other on one axis of 784 = 28 · 28, cell (i, j) at position
  28 i + j (the row-major position, so the re-laid array holds the same numbers: `reshape_cell`). A sum over the 784
  positions is the double sum over i and j of the entries at 28 i + j (`LibSumSplit`'s regrouping by tiles), so a sum
  of cell losses over the one long axis is the image's loss (`sum_row_cells`). Addition of extended reals is
  commutative and associative, so nothing about the entries is needed.
-/
import proofs.«178040_j67577015435959_2_alg».proof.Proof.CellLoss
import proofs.«178040_j67577015435959_2_alg».proof.Proof.LibSumSplit
import Idealize.ShloMosaic.Lib.Pipeline.Value

noncomputable section

namespace Cert.YoloCell

open Idealize.ShloMosaic Idealize.ShloMosaic.ValueIdx Cert.PointDist

/-- Cell (i, j) of the 28 × 28 grid as a position on the one axis of 784. -/
abbrev cellPos (i j : Fin 28) : Fin 784 := tileIdx (by norm_num : 28 * 28 = 784) i j

/-- The loss of image `n 0`: the sum over its 28 × 28 cells of the cell's loss. -/
def imageLoss (X0 : (⟨4, ![4096, 28, 28, 30]⟩ : Shape).Idx → EReal) (X1 : (⟨4, ![4096, 28, 28, 24]⟩ : Shape).Idx → EReal) :
    (⟨1, ![4096]⟩ : Shape).Idx → EReal :=
  fun n => ∑ i : Fin 28, ∑ j : Fin 28, cell (fun k => X0 (ix4 (n 0) i j k)) (fun k => X1 (ix4 (n 0) i j k))

/-- The mean of 4096 numbers as both programs take it: their sum from zero, divided by 4096. -/
def meanOf (h : (⟨1, ![4096]⟩ : Shape).ReducesTo [0] (⟨0, ![]⟩ : Shape)) (hu : 0 < (⟨0, ![]⟩ : Shape).numel)
    (v : (⟨1, ![4096]⟩ : Shape).Idx → EReal) : (⟨0, ![]⟩ : Shape).Idx → EReal :=
  Host.divf (F := Ideal) (φ := .f32)
    (Host.reduceAdd (F := Ideal) (φ := .f32) v (constant (F := Ideal) (⟨0, ![]⟩ : Shape) .f32 0x00000000#32) h hu)
    (constant (F := Ideal) (⟨0, ![]⟩ : Shape) .f32 0x45800000#32)

/-- An array of cells on two axes of 28, re-laid on one axis of 784, holds at position 28 i + j what it held at
    (i, j): the two indices have the same row-major position. -/
theorem reshape_cell {α : Type} {d : ℕ} (X : (⟨4, ![4096, 28, 28, d]⟩ : Shape).Idx → α)
    (h : (⟨4, ![4096, 28, 28, d]⟩ : Shape).ShapeCasts ⟨3, ![4096, 784, d]⟩) (n : Fin 4096) (i j : Fin 28) (k : Fin d) :
    shapeCast ⟨3, ![4096, 784, d]⟩ X h (ix3 n (cellPos i j) k) = X (ix4 n i j k) :=
  shapeCast_apply X h _ _ (by
    rw [Shape.rowMajor_val_four, Shape.rowMajor_val_three]
    show ((n.val * 28 + i.val) * 28 + j.val) * d + k.val = (n.val * 784 + (i.val * 28 + j.val)) * d + k.val
    have e : (n.val * 28 + i.val) * 28 + j.val = n.val * 784 + (i.val * 28 + j.val) := by omega
    rw [e])

/-- A sum of cell losses over the one axis of 784 positions of image `n`, of arrays that hold at position 28 i + j
    what `X0`, `X1` hold at (i, j), is the image's loss. -/
theorem sum_row_cells (A0 : (⟨3, ![4096, 784, 30]⟩ : Shape).Idx → EReal) (A1 : (⟨3, ![4096, 784, 24]⟩ : Shape).Idx → EReal)
    (X0 : (⟨4, ![4096, 28, 28, 30]⟩ : Shape).Idx → EReal) (X1 : (⟨4, ![4096, 28, 28, 24]⟩ : Shape).Idx → EReal) (n : Fin 4096)
    (h0 : ∀ i j k, A0 (ix3 n (cellPos i j) k) = X0 (ix4 n i j k))
    (h1 : ∀ i j k, A1 (ix3 n (cellPos i j) k) = X1 (ix4 n i j k)) :
    ∑ c : Fin 784, cell (fun k => A0 (ix3 n c k)) (fun k => A1 (ix3 n c k)) = imageLoss X0 X1 (ix1 n) := by
  rw [sum_tiles (by norm_num : 28 * 28 = 784)]
  unfold imageLoss
  refine Finset.sum_congr rfl fun i _ => Finset.sum_congr rfl fun j _ => ?_
  simp only [h0, h1]

end Cert.YoloCell

end
-- ==== Proof.KernelArray.lean ====
/-
  What the kernel's run leaves in its result: the mean of the image losses.

  The region's grid has 256 points; point t moves images 16 t … 16 t + 15 whole (all 784 cell positions, all 30 or 24
  numbers of a cell) and writes back one number per image, the sum of that image's 784 cell losses (`KernelRow`'s
  `out_row`). So what point t writes back is block t of one column array `rowLoss` of the two re-laid argument arrays
  (`flushed_eq`: a block's coordinate is the block index times the block size plus the coordinate inside the block, and
  the block indices are decided once over the grid), the 256 blocks of 16 rows cover the 4096 rows (`cover`: row n is
  in block n / 16), and therefore the column array after the region is `rowLoss` (`final`). The arrays the region finds
  are the arguments re-laid from 28 × 28 cells to 784 positions (`V_v0`, `V_v1`), so a row's sum is the image's loss
  (`MeanLoss`'s `sum_row_cells`). The lines after the region cast the column to a vector, add it up from zero and
  divide by 4096: the mean (`result_eq`), and the run ends with that in the result buffer and the arguments as they
  were (`run`).
-/
import proofs.«178040_j67577015435959_2_alg».proof.Proof.Gen.KernelIdeal.Frame
import proofs.«178040_j67577015435959_2_alg».proof.Proof.KernelRow
import proofs.«178040_j67577015435959_2_alg».proof.Proof.MeanLoss
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.YoloCell

variable (m : (ℓ : Loc nD τ sig) → Buf (Elt Ideal) ℓ) (ρ : Dev nD → PrngReg)

/-- The image losses as a column: entry (n, ·) is the sum over the 784 positions of image n of the cell losses of the
    re-laid arrays. -/
def rowLoss (A0 : S4096x784x30.Idx → EReal) (A1 : S4096x784x24.Idx → EReal) : S4096x1.Idx → EReal :=
  fun i => ∑ c : Fin 784, cell (fun k => A0 (ix3 (i 0) c k)) (fun k => A1 (ix3 (i 0) c k))

/-- The printed index maps over the grid: point t moves images 16 t … 16 t + 15, whole. -/
theorem idx_facts : ∀ t : Fin cfg0.N, win0_0.index t (0 : Fin 3) = win0_2.index t (0 : Fin 2)
    ∧ win0_0.index t (1 : Fin 3) = 0 ∧ win0_0.index t (2 : Fin 3) = 0
    ∧ win0_1.index t (0 : Fin 3) = win0_2.index t (0 : Fin 2)
    ∧ win0_1.index t (1 : Fin 3) = 0 ∧ win0_1.index t (2 : Fin 3) = 0
    ∧ win0_2.index t (1 : Fin 2) = 0 ∧ win0_2.index t (0 : Fin 2) = t.val :=
  (by decide +kernel : ∀ t : Fin grid0.N, _)

/-- What point t writes back is block t of `rowLoss` of the arrays the region finds. -/
theorem flushed_eq (c : Dev nD) (t : Fin cfg0.N) :
    (dats m 0 c).flushed 2 t = ((cfg0.win 2).blk t).view.read (Elt Ideal) (rowLoss (V m c main_v0) (V m c main_v1)) := by
  show (cfg0.win 2).cut (grid0.coords t) ((dats m 0 c).after 2 t) = _
  rw [after0_2]
  funext j
  show out0_2 (iblk m c 0 t) (iblk m c 1 t) j = rowLoss (V m c main_v0) (V m c main_v1) (((cfg0.win 2).blk t).view.emb j)
  refine ((congrArg (out0_2 (iblk m c 0 t) (iblk m c 1 t)) (eq_ix2 j)).trans
    (Cert.KernelIdeal.RowValue.out_row (iblk m c 0 t) (iblk m c 1 t) (j 0) (j 1))).trans ?_
  unfold rowLoss
  obtain ⟨e0, e1, e2, e3, e4, e5, e6, e7⟩ := idx_facts t
  refine Finset.sum_congr rfl fun cc _ => ?_
  have hA : ∀ k : Fin 30, iblk m c 0 t (ix3 (j 0) cc k) = V m c main_v0 (ix3 ((((cfg0.win 2).blk t).view.emb j) 0) cc k) := by
    intro k
    show V m c main_v0 (((cfg0.win 0).blk t).view.emb (ix3 (j 0) cc k)) = _
    refine congrArg (V m c main_v0) (funext fun a => Fin.ext ?_)
    match a with
    | ⟨0, _⟩ => show win0_0.index t (0 : Fin 3) * 16 + 1 * (j 0).val = win0_2.index t (0 : Fin 2) * 16 + 1 * (j 0).val; omega
    | ⟨1, _⟩ => show win0_0.index t (1 : Fin 3) * 784 + 1 * cc.val = cc.val; omega
    | ⟨2, _⟩ => show win0_0.index t (2 : Fin 3) * 30 + 1 * k.val = k.val; omega
  have hB : ∀ k : Fin 24, iblk m c 1 t (ix3 (j 0) cc k) = V m c main_v1 (ix3 ((((cfg0.win 2).blk t).view.emb j) 0) cc k) := by
    intro k
    show V m c main_v1 (((cfg0.win 1).blk t).view.emb (ix3 (j 0) cc k)) = _
    refine congrArg (V m c main_v1) (funext fun a => Fin.ext ?_)
    match a with
    | ⟨0, _⟩ => show win0_1.index t (0 : Fin 3) * 16 + 1 * (j 0).val = win0_2.index t (0 : Fin 2) * 16 + 1 * (j 0).val; omega
    | ⟨1, _⟩ => show win0_1.index t (1 : Fin 3) * 784 + 1 * cc.val = cc.val; omega
    | ⟨2, _⟩ => show win0_1.index t (2 : Fin 3) * 24 + 1 * k.val = k.val; omega
  simp only [hA, hB]

/-- A row of the column array is in point t's block iff each coordinate is in the block's range on its axis. -/
theorem mem_blk (t : Fin cfg0.N) (i : S4096x1.Idx) :
    i ∈ ((cfg0.win 2).blk t).view.set ↔ ∀ a : Fin 2, win0_2.index t a * S16x1.size a ≤ (i a).val ∧ (i a).val < win0_2.index t a * S16x1.size a + S16x1.size a := by
  show i ∈ ((View.whole main_v2).slice (win0_2.rect t)).set ↔ _
  rw [View.set_slice_whole, Rect.mem_set_unit]
  exact Iff.rfl

/-- Every row is in some point's block: row n in block n / 16. -/
theorem cover (i : S4096x1.Idx) : ∃ t : Fin cfg0.N, (cfg0.win 2).flush t = true ∧ i ∈ ((cfg0.win 2).blk t).view.set := by
  have h0 : (i 0).val < 4096 := (i 0).isLt
  have h1 : (i 1).val < 1 := (i 1).isLt
  have hN : cfg0.N = 256 := N_0
  have ht : (i 0).val / 16 < cfg0.N := by rw [hN]; omega
  obtain ⟨-, -, -, -, -, -, e6, e7⟩ := idx_facts ⟨(i 0).val / 16, ht⟩
  refine ⟨⟨(i 0).val / 16, ht⟩, flush0_2 _, ?_⟩
  rw [mem_blk]
  intro a
  match a with
  | ⟨0, _⟩ =>
    show win0_2.index ⟨(i 0).val / 16, ht⟩ (0 : Fin 2) * 16 ≤ (i 0).val ∧ (i 0).val < win0_2.index ⟨(i 0).val / 16, ht⟩ (0 : Fin 2) * 16 + 16
    rw [e7]; show (i 0).val / 16 * 16 ≤ (i 0).val ∧ (i 0).val < (i 0).val / 16 * 16 + 16; omega
  | ⟨1, _⟩ =>
    show win0_2.index ⟨(i 0).val / 16, ht⟩ (1 : Fin 2) * 1 ≤ (i 1).val ∧ (i 1).val < win0_2.index ⟨(i 0).val / 16, ht⟩ (1 : Fin 2) * 1 + 1
    rw [e6]; omega

/-- So the column array after the region is `rowLoss`. -/
theorem final (c : Dev nD) : (dats m 0 c).arrAt 2 cfg0.N = rowLoss (V m c main_v0) (V m c main_v1) :=
  (dats m 0 c).arrAt_eq_of_cover 2 _ (fun t _ => flushed_eq m c t) cover

/-- The arrays the region finds are the arguments re-laid by the two lines before it. -/
theorem V_v0 (c : Dev nD) : (V m c main_v0 : S4096x784x30.Idx → EReal)
    = shapeCast S4096x784x30 (m ((c : Thread nD τ).loc main_arg0)) shapeCasts_S4096x28x28x30_S4096x784x30 := by
  show StableHlo.after hostOps0 (fun b => m (c, b)) (Proc.devRef .tc main_v0) = _
  after_results
  rfl

theorem V_v1 (c : Dev nD) : (V m c main_v1 : S4096x784x24.Idx → EReal)
    = shapeCast S4096x784x24 (m ((c : Thread nD τ).loc main_arg1)) shapeCasts_S4096x28x28x24_S4096x784x24 := by
  show StableHlo.after hostOps0 (fun b => m (c, b)) (Proc.devRef .tc main_v1) = _
  after_results
  rfl

/-- The column array cast to a vector is the vector of image losses of the arguments. -/
theorem column_eq (c : Dev nD) :
    (shapeCast S4096 (Pipeline.withArrays (cfgs 0).spec c (V0 m c) (fun w => (dats m 0 c).arrAt w (cfgs 0).N)
        (Proc.devRef .tc main_v2) : S4096x1.Idx → EReal) shapeCasts_S4096x1_S4096 : S4096.Idx → EReal)
      = imageLoss (m ((c : Thread nD τ).loc main_arg0)) (m ((c : Thread nD τ).loc main_arg1)) := by
  have hw : (Pipeline.withArrays (cfgs 0).spec c (V0 m c) (fun w => (dats m 0 c).arrAt w (cfgs 0).N)
      (Proc.devRef .tc main_v2) : S4096x1.Idx → EReal) = rowLoss (V m c main_v0) (V m c main_v1) :=
    (Pipeline.withArrays_arr spec0 launch0.win.arr_inj c (V0 m c) (fun w => (dats m 0 c).arrAt w cfg0.N) 2).trans (final m c)
  rw [hw]
  funext n
  obtain ⟨a, rfl⟩ : ∃ a : Fin 4096, n = ix1 a := ⟨n 0, eq_ix1 n⟩
  rw [shapeCast_apply (rowLoss (V m c main_v0) (V m c main_v1)) shapeCasts_S4096x1_S4096 (ix1 a) (ix2 a (0 : Fin 1))
    (by rw [Shape.rowMajor_val_two, Shape.rowMajor_val_one]; show a.val * 1 + 0 = a.val; omega)]
  show ∑ cc : Fin 784, cell (fun k => V m c main_v0 (ix3 a cc k)) (fun k => V m c main_v1 (ix3 a cc k)) = _
  refine sum_row_cells _ _ _ _ a (fun i j k => ?_) (fun i j k => ?_)
  · rw [V_v0]; exact reshape_cell _ _ a i j k
  · rw [V_v1]; exact reshape_cell _ _ a i j k

/-- The result buffer after the lines that follow the region: the mean of the image losses. -/
theorem result_eq (c : Dev nD) :
    (Pipeline.afterTail₀ cfgs (dats m) 0 (V0 m) [hostOps1] c main_v5 : S_.Idx → EReal)
      = meanOf reducesTo_S4096_S_d0 h_S_ (imageLoss (m ((c : Thread nD τ).loc main_arg0)) (m ((c : Thread nD τ).loc main_arg1))) := by
  unfold Pipeline.afterTail₀
  show StableHlo.after hostOps1 _ (Proc.devRef .tc main_v5) = _
  after_results
  rw [← column_eq m c]
  rfl

/-- The kernel's run, read: the result buffer at the mean of the image losses, the arguments unchanged. -/
theorem run : θ_run defs (onTc (τ := τ) (main (F := Ideal))) ⟨m, fun _ => 0, ρ⟩ fun r => ∀ c : Dev nD,
      r.2.mem ((c : Thread nD τ).loc main_v5)
        = meanOf reducesTo_S4096_S_d0 h_S_ (imageLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v5 (Pipeline.mem_restRefs_of main_v5 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ArrayValue

end
-- ==== Proof.RefCell.lean ====
/-
  The reference's loss of one grid cell.

  The reference computes, for all 4096 * 28 * 28 cells at once, the loss array whose mean over images of per-image sums
  is its result. Read at cell (n, i, j) that array is a function of the cell's 30 predicted and 24 ground-truth numbers
  only: every slice and reshape on the way picks entries of the same cell, every other operation acts entry by entry,
  and the two reductions (the sum of the twenty squared class errors, the or of the twenty class tests) run over the
  cell's own twenty entries. This file proves that the function is the specification `Cert.YoloCell.cell`.

  Where the reference's arithmetic is written differently from the specification's, the two agree on every extended
  real: a division by two is the product with one half; a one-bit test converted as an unsigned number is the test
  widened to 32 bits and converted as a signed number (both are 0 or 1); the unordered and the ordered "not equal" are
  one test there; a sum over twenty terms from zero is the terms added one after the other, and likewise the or.
-/
import proofs.«178040_j67577015435959_2_alg».proof.Proof.RefReadPatched
import proofs.«178040_j67577015435959_2_alg».proof.Proof.CellLoss
import Idealize.ShloMosaic.Lib.Pipeline.Value
import Idealize.ShloMosaic.PureOps.Ideal.Laws
import Idealize.ShloMosaic.PureOps.Reduce

noncomputable section

namespace Cert.ReferenceIdeal.CellValue

open Cert.ReferenceIdeal Cert.ReferenceIdeal.Gen Cert.ReferenceIdeal.Read Idealize.ShloMosaic Idealize.ShloMosaic.ValueIdx
open scoped BigOperators

/-! ## Indices of a cell -/

/-- A rank-4 index whose first three coordinates are the row-major digits of cell (n, i, j) and whose last is k. -/
theorem idx4_cell {m : Nat} (n : Fin 4096) (i j : Fin 28) (k : Fin m) (p : (⟨4, ![4096, 28, 28, m]⟩ : Shape).Idx)
    (h0 : (p 0).val = ((n.val * 28 + i.val) * 28 + j.val) / 784)
    (h1 : (p 1).val = ((n.val * 28 + i.val) * 28 + j.val) / 28 % 28)
    (h2 : (p 2).val = ((n.val * 28 + i.val) * 28 + j.val) / 1 % 28)
    (h3 : (p 3).val = k.val) : p = ix4 n i j k := by
  have hn := n.isLt; have hi := i.isLt; have hj := j.isLt
  funext a; apply Fin.ext
  match a with
  | ⟨0, _⟩ => show (p 0).val = n.val; omega
  | ⟨1, _⟩ => show (p 1).val = i.val; omega
  | ⟨2, _⟩ => show (p 2).val = j.val; omega
  | ⟨3, _⟩ => exact h3

/-- A rank-4 index with coordinates n, i, j, k. -/
theorem idx4_direct {m : Nat} (n : Fin 4096) (i j : Fin 28) (k : Fin m) (p : (⟨4, ![4096, 28, 28, m]⟩ : Shape).Idx)
    (h0 : (p 0).val = n.val) (h1 : (p 1).val = i.val) (h2 : (p 2).val = j.val) (h3 : (p 3).val = k.val) :
    p = ix4 n i j k := by
  funext a; apply Fin.ext
  match a with
  | ⟨0, _⟩ => exact h0
  | ⟨1, _⟩ => exact h1
  | ⟨2, _⟩ => exact h2
  | ⟨3, _⟩ => exact h3

/-- A rank-3 index whose coordinates are the row-major digits of cell (n, i, j). -/
theorem idx3_cell (n : Fin 4096) (i j : Fin 28) (p : (⟨3, ![4096, 28, 28]⟩ : Shape).Idx)
    (h0 : (p 0).val = ((n.val * 28 + i.val) * 28 + j.val) / 784)
    (h1 : (p 1).val = ((n.val * 28 + i.val) * 28 + j.val) / 28 % 28)
    (h2 : (p 2).val = ((n.val * 28 + i.val) * 28 + j.val) / 1 % 28) : p = ix3 n i j := by
  have hn := n.isLt; have hi := i.isLt; have hj := j.isLt
  funext a; apply Fin.ext
  match a with
  | ⟨0, _⟩ => show (p 0).val = n.val; omega
  | ⟨1, _⟩ => show (p 1).val = i.val; omega
  | ⟨2, _⟩ => show (p 2).val = j.val; omega

/-! ## Constants and bits -/

/-- The word of 2.0 denotes the real 2. -/
theorem ofBits_two : Ideal.ofBits .f32 0x40000000#32 = ((2 : ℝ) : EReal) := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- Dividing by two is multiplying by one half, on every extended real. -/
theorem div_two (x : EReal) : Ideal.div x (Ideal.ofBits .f32 0x40000000#32) = x * Cert.YoloCell.half := by
  rw [ofBits_two, Ideal.div_coe (by norm_num : (2 : ℝ) ≠ 0)]
  show x * ((1 / 2 : ℝ) : EReal) = x * Ideal.ofBits .f32 0x3F000000#32
  rw [ofBits_half]

/-- A one-bit test read as an unsigned number is the test widened to 32 bits read as a signed number: 0 or 1. -/
theorem uitofp_bit (b : BitVec 1) :
    FloatOps.uitofp (F := Ideal) .f32 b = FloatOps.sitofp (F := Ideal) .f32 (b.setWidth 32) := by
  have h : ∀ c : BitVec 1, (c.setWidth 32).toInt = (c.toNat : Int) := by decide
  show (((b.toNat : ℝ)) : EReal) = ((((b.setWidth 32).toInt : ℝ)) : EReal)
  rw [h b]; simp

/-! ## Twenty terms, one after the other -/

/-- A sum over twenty terms is the terms added one after the other from zero. -/
theorem sum_fin20 (f : Fin 20 → EReal) :
    Cert.YoloCell.zero + ∑ k : Fin 20, f k = ((((((((((((((((((((Cert.YoloCell.zero + f 0) + f 1) + f 2) + f 3) + f 4) + f 5) + f 6) + f 7) + f 8) + f 9) + f 10) + f 11) + f 12) + f 13) + f 14) + f 15) + f 16) + f 17) + f 18) + f 19) := by
  simp only [Fin.sum_univ_succ, Fin.sum_univ_zero]
  show Cert.YoloCell.zero + (f 0 + (f 1 + (f 2 + (f 3 + (f 4 + (f 5 + (f 6 + (f 7 + (f 8 + (f 9 + (f 10 + (f 11 + (f 12 + (f 13 + (f 14 + (f 15 + (f 16 + (f 17 + (f 18 + (f 19 + 0)))))))))))))))))))) = _
  rw [add_zero]
  simp only [add_assoc]

/-- A fold of or over twenty bits from false is the bits or-ed one after the other from false. -/
theorem fold_or_fin20 (f : Fin 20 → BitVec 1) :
    (Finset.univ : Finset (Fin 20)).fold IntOp.ori (0#1 : BitVec 1) f = IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori (IntOp.ori ((0#1 : BitVec 1)) (f 0)) (f 1)) (f 2)) (f 3)) (f 4)) (f 5)) (f 6)) (f 7)) (f 8)) (f 9)) (f 10)) (f 11)) (f 12)) (f 13)) (f 14)) (f 15)) (f 16)) (f 17)) (f 18)) (f 19) := by
  simp only [Fin.univ_succ, Finset.fold_cons, Finset.fold_map, Finset.univ_unique, Finset.fold_singleton]
  show IntOp.ori (f 0) (IntOp.ori (f 1) (IntOp.ori (f 2) (IntOp.ori (f 3) (IntOp.ori (f 4) (IntOp.ori (f 5) (IntOp.ori (f 6) (IntOp.ori (f 7) (IntOp.ori (f 8) (IntOp.ori (f 9) (IntOp.ori (f 10) (IntOp.ori (f 11) (IntOp.ori (f 12) (IntOp.ori (f 13) (IntOp.ori (f 14) (IntOp.ori (f 15) (IntOp.ori (f 16) (IntOp.ori (f 17) (IntOp.ori (f 18) (IntOp.ori (f 19) (0#1 : BitVec 1)))))))))))))))))))) = _
  ac_rfl

/-! ## The entries of a cell, as the reference's slices and reshapes read them -/

variable (X0 : (⟨S4096x28x28x30, .f32⟩ : BufTy).Contents (Elt Ideal)) (X1 : (⟨S4096x28x28x24, .f32⟩ : BufTy).Contents (Elt Ideal)) (n : Fin 4096) (i j : Fin 28)

theorem leaf_v3 : val_main_v3 (F := Ideal) X1 (ix3 n i j) = X1 (ix4 n i j (0 : Fin 24)) := by
  rw [val_main_v3_apply, val_main_v2_apply, val_main_v0_apply]
  exact congrArg X1 (idx4_cell (m := 24) n i j 0 _ rfl rfl rfl rfl)

theorem leaf_v5 : val_main_v5 (F := Ideal) X1 (ix3 n i j) = X1 (ix4 n i j (1 : Fin 24)) := by
  rw [val_main_v5_apply, val_main_v4_apply, val_main_v0_apply]
  exact congrArg X1 (idx4_cell (m := 24) n i j 1 _ rfl rfl rfl rfl)

theorem leaf_v7 : val_main_v7 (F := Ideal) X1 (ix3 n i j) = X1 (ix4 n i j (2 : Fin 24)) := by
  rw [val_main_v7_apply, val_main_v6_apply, val_main_v0_apply]
  exact congrArg X1 (idx4_cell (m := 24) n i j 2 _ rfl rfl rfl rfl)

theorem leaf_v9 : val_main_v9 (F := Ideal) X1 (ix3 n i j) = X1 (ix4 n i j (3 : Fin 24)) := by
  rw [val_main_v9_apply, val_main_v8_apply, val_main_v0_apply]
  exact congrArg X1 (idx4_cell (m := 24) n i j 3 _ rfl rfl rfl rfl)

theorem leaf_v23 : val_main_v23 (F := Ideal) X0 (ix3 n i j) = X0 (ix4 n i j (0 : Fin 30)) := by
  rw [val_main_v23_apply, val_main_v22_apply, val_main_v1_apply]
  exact congrArg X0 (idx4_cell (m := 30) n i j 0 _ rfl rfl rfl rfl)

theorem leaf_v25 : val_main_v25 (F := Ideal) X0 (ix3 n i j) = X0 (ix4 n i j (1 : Fin 30)) := by
  rw [val_main_v25_apply, val_main_v24_apply, val_main_v1_apply]
  exact congrArg X0 (idx4_cell (m := 30) n i j 1 _ rfl rfl rfl rfl)

theorem leaf_v27 : val_main_v27 (F := Ideal) X0 (ix3 n i j) = X0 (ix4 n i j (2 : Fin 30)) := by
  rw [val_main_v27_apply, val_main_v26_apply, val_main_v1_apply]
  exact congrArg X0 (idx4_cell (m := 30) n i j 2 _ rfl rfl rfl rfl)

theorem leaf_v29 : val_main_v29 (F := Ideal) X0 (ix3 n i j) = X0 (ix4 n i j (3 : Fin 30)) := by
  rw [val_main_v29_apply, val_main_v28_apply, val_main_v1_apply]
  exact congrArg X0 (idx4_cell (m := 30) n i j 3 _ rfl rfl rfl rfl)

theorem leaf_v83 : val_main_v83 (F := Ideal) X1 (ix3 n i j) = X1 (ix4 n i j (0 : Fin 24)) := by
  rw [val_main_v83_apply, val_main_v82_apply, val_main_v0_apply]
  exact congrArg X1 (idx4_cell (m := 24) n i j 0 _ rfl rfl rfl rfl)

theorem leaf_v85 : val_main_v85 (F := Ideal) X1 (ix3 n i j) = X1 (ix4 n i j (1 : Fin 24)) := by
  rw [val_main_v85_apply, val_main_v84_apply, val_main_v0_apply]
  exact congrArg X1 (idx4_cell (m := 24) n i j 1 _ rfl rfl rfl rfl)

theorem leaf_v87 : val_main_v87 (F := Ideal) X1 (ix3 n i j) = X1 (ix4 n i j (2 : Fin 24)) := by
  rw [val_main_v87_apply, val_main_v86_apply, val_main_v0_apply]
  exact congrArg X1 (idx4_cell (m := 24) n i j 2 _ rfl rfl rfl rfl)

theorem leaf_v89 : val_main_v89 (F := Ideal) X1 (ix3 n i j) = X1 (ix4 n i j (3 : Fin 24)) := by
  rw [val_main_v89_apply, val_main_v88_apply, val_main_v0_apply]
  exact congrArg X1 (idx4_cell (m := 24) n i j 3 _ rfl rfl rfl rfl)

theorem leaf_v103 : val_main_v103 (F := Ideal) X0 (ix3 n i j) = X0 (ix4 n i j (5 : Fin 30)) := by
  rw [val_main_v103_apply, val_main_v102_apply, val_main_v81_apply]
  exact congrArg X0 (idx4_cell (m := 30) n i j 5 _ rfl rfl rfl rfl)

theorem leaf_v105 : val_main_v105 (F := Ideal) X0 (ix3 n i j) = X0 (ix4 n i j (6 : Fin 30)) := by
  rw [val_main_v105_apply, val_main_v104_apply, val_main_v81_apply]
  exact congrArg X0 (idx4_cell (m := 30) n i j 6 _ rfl rfl rfl rfl)

theorem leaf_v107 : val_main_v107 (F := Ideal) X0 (ix3 n i j) = X0 (ix4 n i j (7 : Fin 30)) := by
  rw [val_main_v107_apply, val_main_v106_apply, val_main_v81_apply]
  exact congrArg X0 (idx4_cell (m := 30) n i j 7 _ rfl rfl rfl rfl)

theorem leaf_v109 : val_main_v109 (F := Ideal) X0 (ix3 n i j) = X0 (ix4 n i j (8 : Fin 30)) := by
  rw [val_main_v109_apply, val_main_v108_apply, val_main_v81_apply]
  exact congrArg X0 (idx4_cell (m := 30) n i j 8 _ rfl rfl rfl rfl)

theorem leaf_v168 : val_main_v168 (F := Ideal) X1 (ix3 n i j) = X1 (ix4 n i j (0 : Fin 24)) := by
  rw [val_main_v168_apply, val_main_v167_apply]
  exact congrArg X1 (idx4_cell (m := 24) n i j 0 _ rfl rfl rfl rfl)

theorem leaf_v174 : val_main_v174 (F := Ideal) X1 (ix3 n i j) = X1 (ix4 n i j (1 : Fin 24)) := by
  rw [val_main_v174_apply, val_main_v173_apply]
  exact congrArg X1 (idx4_cell (m := 24) n i j 1 _ rfl rfl rfl rfl)

theorem leaf_v183 : val_main_v183 (F := Ideal) X1 (ix3 n i j) = X1 (ix4 n i j (2 : Fin 24)) := by
  rw [val_main_v183_apply, val_main_v182_apply]
  exact congrArg X1 (idx4_cell (m := 24) n i j 2 _ rfl rfl rfl rfl)

theorem leaf_v191 : val_main_v191 (F := Ideal) X1 (ix3 n i j) = X1 (ix4 n i j (3 : Fin 24)) := by
  rw [val_main_v191_apply, val_main_v190_apply]
  exact congrArg X1 (idx4_cell (m := 24) n i j 3 _ rfl rfl rfl rfl)

theorem leaf_v217 : val_main_v217 (F := Ideal) X0 (ix3 n i j) = X0 (ix4 n i j (4 : Fin 30)) := by
  rw [val_main_v217_apply, val_main_v216_apply]
  exact congrArg X0 (idx4_cell (m := 30) n i j 4 _ rfl rfl rfl rfl)

theorem leaf_v220 : val_main_v220 (F := Ideal) X0 (ix3 n i j) = X0 (ix4 n i j (9 : Fin 30)) := by
  rw [val_main_v220_apply, val_main_v219_apply]
  exact congrArg X0 (idx4_cell (m := 30) n i j 9 _ rfl rfl rfl rfl)

/-! ## Dividing by the broadcast two -/

/-- The reference's division by the constant two, as the product with one half. -/
theorem hostDivf_two (x : EReal) :
    FloatOps.hostDivf (F := Ideal) (φ := .f32) x (FloatOps.ofBits (F := Ideal) .f32 0x40000000#32) = x * Cert.YoloCell.half := div_two x

/-! ## The overlap ratios of the two predicted boxes -/

/-- The reference's overlap ratio of the first predicted box with the ground-truth box, at a cell. -/
theorem iou_first : val_main_v80 (F := Ideal) X0 X1 (ix3 n i j) = (Cert.YoloCell.iou (X1 (ix4 n i j (0 : Fin 24)) - X1 (ix4 n i j (2 : Fin 24)) * Cert.YoloCell.half) (X1 (ix4 n i j (1 : Fin 24)) - X1 (ix4 n i j (3 : Fin 24)) * Cert.YoloCell.half) (X1 (ix4 n i j (0 : Fin 24)) + X1 (ix4 n i j (2 : Fin 24)) * Cert.YoloCell.half) (X1 (ix4 n i j (1 : Fin 24)) + X1 (ix4 n i j (3 : Fin 24)) * Cert.YoloCell.half) (Cert.YoloCell.boxArea (X1 (ix4 n i j (0 : Fin 24)) - X1 (ix4 n i j (2 : Fin 24)) * Cert.YoloCell.half) (X1 (ix4 n i j (1 : Fin 24)) - X1 (ix4 n i j (3 : Fin 24)) * Cert.YoloCell.half) (X1 (ix4 n i j (0 : Fin 24)) + X1 (ix4 n i j (2 : Fin 24)) * Cert.YoloCell.half) (X1 (ix4 n i j (1 : Fin 24)) + X1 (ix4 n i j (3 : Fin 24)) * Cert.YoloCell.half)) (X0 (ix4 n i j (0 : Fin 30))) (X0 (ix4 n i j (1 : Fin 30))) (X0 (ix4 n i j (2 : Fin 30))) (X0 (ix4 n i j (3 : Fin 30)))) := by
  simp only [val_main_cst_apply, val_main_v10_apply, val_main_v11_apply, val_main_v12_apply, val_main_cst_0_apply, val_main_v13_apply, val_main_v14_apply, val_main_v15_apply, val_main_cst_1_apply, val_main_v16_apply, val_main_v17_apply, val_main_v18_apply, val_main_cst_2_apply, val_main_v19_apply, val_main_v20_apply, val_main_v21_apply, val_main_cst_3_apply, val_main_v30_apply, val_main_v31_apply, val_main_v32_apply, val_main_cst_4_apply, val_main_v33_apply, val_main_v34_apply, val_main_v35_apply, val_main_cst_5_apply, val_main_v36_apply, val_main_v37_apply, val_main_v38_apply, val_main_cst_6_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_cst_7_apply, val_main_v59_apply, val_main_v60_apply, val_main_cst_8_apply, val_main_call0_v0_apply, val_main_call0_v1_apply, val_main_v61_apply, val_main_cst_9_apply, val_main_v62_apply, val_main_v63_apply, val_main_cst_10_apply, val_main_v64_apply, val_main_v65_apply, val_main_v66_apply, val_main_cst_11_apply, val_main_v67_apply, val_main_v68_apply, val_main_v69_apply, val_main_cst_12_apply, val_main_v70_apply, val_main_v71_apply, val_main_v72_apply, val_main_cst_13_apply, val_main_v73_apply, val_main_v74_apply, val_main_v75_apply, val_main_cst_14_apply, val_main_v76_apply, val_main_v77_apply, val_main_v78_apply, val_main_v79_apply, val_main_cst_15_apply, val_main_call1_v0_apply, val_main_call1_v1_apply, val_main_v80_apply, leaf_v3, leaf_v5, leaf_v7, leaf_v9, leaf_v23, leaf_v25, leaf_v27, leaf_v29, hostDivf_two]
  rfl

/-- The reference's overlap ratio of the second predicted box (entries 5 to 8) with the ground-truth box, at a cell. -/
theorem iou_second : val_main_v160 (F := Ideal) X0 X1 (ix3 n i j) = (Cert.YoloCell.iou (X1 (ix4 n i j (0 : Fin 24)) - X1 (ix4 n i j (2 : Fin 24)) * Cert.YoloCell.half) (X1 (ix4 n i j (1 : Fin 24)) - X1 (ix4 n i j (3 : Fin 24)) * Cert.YoloCell.half) (X1 (ix4 n i j (0 : Fin 24)) + X1 (ix4 n i j (2 : Fin 24)) * Cert.YoloCell.half) (X1 (ix4 n i j (1 : Fin 24)) + X1 (ix4 n i j (3 : Fin 24)) * Cert.YoloCell.half) (Cert.YoloCell.boxArea (X1 (ix4 n i j (0 : Fin 24)) - X1 (ix4 n i j (2 : Fin 24)) * Cert.YoloCell.half) (X1 (ix4 n i j (1 : Fin 24)) - X1 (ix4 n i j (3 : Fin 24)) * Cert.YoloCell.half) (X1 (ix4 n i j (0 : Fin 24)) + X1 (ix4 n i j (2 : Fin 24)) * Cert.YoloCell.half) (X1 (ix4 n i j (1 : Fin 24)) + X1 (ix4 n i j (3 : Fin 24)) * Cert.YoloCell.half)) (X0 (ix4 n i j (5 : Fin 30))) (X0 (ix4 n i j (6 : Fin 30))) (X0 (ix4 n i j (7 : Fin 30))) (X0 (ix4 n i j (8 : Fin 30)))) := by
  simp only [val_main_cst_16_apply, val_main_v90_apply, val_main_v91_apply, val_main_v92_apply, val_main_cst_17_apply, val_main_v93_apply, val_main_v94_apply, val_main_v95_apply, val_main_cst_18_apply, val_main_v96_apply, val_main_v97_apply, val_main_v98_apply, val_main_cst_19_apply, val_main_v99_apply, val_main_v100_apply, val_main_v101_apply, val_main_cst_20_apply, val_main_v110_apply, val_main_v111_apply, val_main_v112_apply, val_main_cst_21_apply, val_main_v113_apply, val_main_v114_apply, val_main_v115_apply, val_main_cst_22_apply, val_main_v116_apply, val_main_v117_apply, val_main_v118_apply, val_main_cst_23_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_cst_24_apply, val_main_v139_apply, val_main_v140_apply, val_main_cst_25_apply, val_main_call2_v0_apply, val_main_call2_v1_apply, val_main_v141_apply, val_main_cst_26_apply, val_main_v142_apply, val_main_v143_apply, val_main_cst_27_apply, val_main_v144_apply, val_main_v145_apply, val_main_v146_apply, val_main_cst_28_apply, val_main_v147_apply, val_main_v148_apply, val_main_v149_apply, val_main_cst_29_apply, val_main_v150_apply, val_main_v151_apply, val_main_v152_apply, val_main_cst_30_apply, val_main_v153_apply, val_main_v154_apply, val_main_v155_apply, val_main_cst_31_apply, val_main_v156_apply, val_main_v157_apply, val_main_v158_apply, val_main_v159_apply, val_main_cst_32_apply, val_main_call3_v0_apply, val_main_call3_v1_apply, val_main_v160_apply, leaf_v83, leaf_v85, leaf_v87, leaf_v89, leaf_v103, leaf_v105, leaf_v107, leaf_v109, hostDivf_two]
  rfl

/-- The first box is the responsible one when its ratio is at least the second's. -/
theorem choice : val_main_v161 (F := Ideal) X0 X1 (ix3 n i j) = (Ideal.cmp .oge (Cert.YoloCell.iou (X1 (ix4 n i j (0 : Fin 24)) - X1 (ix4 n i j (2 : Fin 24)) * Cert.YoloCell.half) (X1 (ix4 n i j (1 : Fin 24)) - X1 (ix4 n i j (3 : Fin 24)) * Cert.YoloCell.half) (X1 (ix4 n i j (0 : Fin 24)) + X1 (ix4 n i j (2 : Fin 24)) * Cert.YoloCell.half) (X1 (ix4 n i j (1 : Fin 24)) + X1 (ix4 n i j (3 : Fin 24)) * Cert.YoloCell.half) (Cert.YoloCell.boxArea (X1 (ix4 n i j (0 : Fin 24)) - X1 (ix4 n i j (2 : Fin 24)) * Cert.YoloCell.half) (X1 (ix4 n i j (1 : Fin 24)) - X1 (ix4 n i j (3 : Fin 24)) * Cert.YoloCell.half) (X1 (ix4 n i j (0 : Fin 24)) + X1 (ix4 n i j (2 : Fin 24)) * Cert.YoloCell.half) (X1 (ix4 n i j (1 : Fin 24)) + X1 (ix4 n i j (3 : Fin 24)) * Cert.YoloCell.half)) (X0 (ix4 n i j (0 : Fin 30))) (X0 (ix4 n i j (1 : Fin 30))) (X0 (ix4 n i j (2 : Fin 30))) (X0 (ix4 n i j (3 : Fin 30)))) (Cert.YoloCell.iou (X1 (ix4 n i j (0 : Fin 24)) - X1 (ix4 n i j (2 : Fin 24)) * Cert.YoloCell.half) (X1 (ix4 n i j (1 : Fin 24)) - X1 (ix4 n i j (3 : Fin 24)) * Cert.YoloCell.half) (X1 (ix4 n i j (0 : Fin 24)) + X1 (ix4 n i j (2 : Fin 24)) * Cert.YoloCell.half) (X1 (ix4 n i j (1 : Fin 24)) + X1 (ix4 n i j (3 : Fin 24)) * Cert.YoloCell.half) (Cert.YoloCell.boxArea (X1 (ix4 n i j (0 : Fin 24)) - X1 (ix4 n i j (2 : Fin 24)) * Cert.YoloCell.half) (X1 (ix4 n i j (1 : Fin 24)) - X1 (ix4 n i j (3 : Fin 24)) * Cert.YoloCell.half) (X1 (ix4 n i j (0 : Fin 24)) + X1 (ix4 n i j (2 : Fin 24)) * Cert.YoloCell.half) (X1 (ix4 n i j (1 : Fin 24)) + X1 (ix4 n i j (3 : Fin 24)) * Cert.YoloCell.half)) (X0 (ix4 n i j (5 : Fin 30))) (X0 (ix4 n i j (6 : Fin 30))) (X0 (ix4 n i j (7 : Fin 30))) (X0 (ix4 n i j (8 : Fin 30))))) := by
  rw [val_main_v161_apply, iou_first, iou_second]
  rfl

/-! ## The responsible box's five numbers -/

/-- Number 0 of the responsible box: entry 0 of the first box when the first is chosen, else entry 5. -/
theorem leaf_v170 : val_main_v170 (F := Ideal) X0 X1 (ix3 n i j) = (Scalar.select (val_main_v161 (F := Ideal) X0 X1 (ix3 n i j)) (X0 (ix4 n i j (0 : Fin 30))) (X0 (ix4 n i j (5 : Fin 30)))) := by
  rw [val_main_v170_apply, val_main_v169_apply, val_main_v165_apply, val_main_call4_v0_apply, val_main_v162_apply, val_main_v163_apply, val_main_v164_apply]
  rw [idx3_cell n i j (idx_main_v162 (idx_main_call4_v0 (idx_main_v169 (idx_main_v170 (ix3 n i j))))) rfl rfl rfl,
    idx4_cell (m := 30) n i j 0 (idx_main_v163 (idx_main_v169 (idx_main_v170 (ix3 n i j)))) rfl rfl rfl rfl,
    idx4_cell (m := 30) n i j 5 (idx_main_v164 (idx_main_v169 (idx_main_v170 (ix3 n i j)))) rfl rfl rfl rfl]

/-- Number 1 of the responsible box: entry 1 of the first box when the first is chosen, else entry 6. -/
theorem leaf_v176 : val_main_v176 (F := Ideal) X0 X1 (ix3 n i j) = (Scalar.select (val_main_v161 (F := Ideal) X0 X1 (ix3 n i j)) (X0 (ix4 n i j (1 : Fin 30))) (X0 (ix4 n i j (6 : Fin 30)))) := by
  rw [val_main_v176_apply, val_main_v175_apply, val_main_v165_apply, val_main_call4_v0_apply, val_main_v162_apply, val_main_v163_apply, val_main_v164_apply]
  rw [idx3_cell n i j (idx_main_v162 (idx_main_call4_v0 (idx_main_v175 (idx_main_v176 (ix3 n i j))))) rfl rfl rfl,
    idx4_cell (m := 30) n i j 1 (idx_main_v163 (idx_main_v175 (idx_main_v176 (ix3 n i j)))) rfl rfl rfl rfl,
    idx4_cell (m := 30) n i j 6 (idx_main_v164 (idx_main_v175 (idx_main_v176 (ix3 n i j)))) rfl rfl rfl rfl]

/-- Number 2 of the responsible box: entry 2 of the first box when the first is chosen, else entry 7. -/
theorem leaf_v186 : val_main_v186 (F := Ideal) X0 X1 (ix3 n i j) = (Scalar.select (val_main_v161 (F := Ideal) X0 X1 (ix3 n i j)) (X0 (ix4 n i j (2 : Fin 30))) (X0 (ix4 n i j (7 : Fin 30)))) := by
  rw [val_main_v186_apply, val_main_v185_apply, val_main_v165_apply, val_main_call4_v0_apply, val_main_v162_apply, val_main_v163_apply, val_main_v164_apply]
  rw [idx3_cell n i j (idx_main_v162 (idx_main_call4_v0 (idx_main_v185 (idx_main_v186 (ix3 n i j))))) rfl rfl rfl,
    idx4_cell (m := 30) n i j 2 (idx_main_v163 (idx_main_v185 (idx_main_v186 (ix3 n i j)))) rfl rfl rfl rfl,
    idx4_cell (m := 30) n i j 7 (idx_main_v164 (idx_main_v185 (idx_main_v186 (ix3 n i j)))) rfl rfl rfl rfl]

/-- Number 3 of the responsible box: entry 3 of the first box when the first is chosen, else entry 8. -/
theorem leaf_v194 : val_main_v194 (F := Ideal) X0 X1 (ix3 n i j) = (Scalar.select (val_main_v161 (F := Ideal) X0 X1 (ix3 n i j)) (X0 (ix4 n i j (3 : Fin 30))) (X0 (ix4 n i j (8 : Fin 30)))) := by
  rw [val_main_v194_apply, val_main_v193_apply, val_main_v165_apply, val_main_call4_v0_apply, val_main_v162_apply, val_main_v163_apply, val_main_v164_apply]
  rw [idx3_cell n i j (idx_main_v162 (idx_main_call4_v0 (idx_main_v193 (idx_main_v194 (ix3 n i j))))) rfl rfl rfl,
    idx4_cell (m := 30) n i j 3 (idx_main_v163 (idx_main_v193 (idx_main_v194 (ix3 n i j)))) rfl rfl rfl rfl,
    idx4_cell (m := 30) n i j 8 (idx_main_v164 (idx_main_v193 (idx_main_v194 (ix3 n i j)))) rfl rfl rfl rfl]

/-- Number 4 of the responsible box: entry 4 of the first box when the first is chosen, else entry 9. -/
theorem leaf_v203 : val_main_v203 (F := Ideal) X0 X1 (ix3 n i j) = (Scalar.select (val_main_v161 (F := Ideal) X0 X1 (ix3 n i j)) (X0 (ix4 n i j (4 : Fin 30))) (X0 (ix4 n i j (9 : Fin 30)))) := by
  rw [val_main_v203_apply, val_main_v202_apply, val_main_v165_apply, val_main_call4_v0_apply, val_main_v162_apply, val_main_v163_apply, val_main_v164_apply]
  rw [idx3_cell n i j (idx_main_v162 (idx_main_call4_v0 (idx_main_v202 (idx_main_v203 (ix3 n i j))))) rfl rfl rfl,
    idx4_cell (m := 30) n i j 4 (idx_main_v163 (idx_main_v202 (idx_main_v203 (ix3 n i j)))) rfl rfl rfl rfl,
    idx4_cell (m := 30) n i j 9 (idx_main_v164 (idx_main_v202 (idx_main_v203 (ix3 n i j)))) rfl rfl rfl rfl]

/-! ## The twenty class terms -/

/-- One class's squared error at a cell: class k reads ground-truth entry 4 + k and predicted entry 10 + k. -/
theorem cls_term (k : Fin 20) : val_main_v213 (F := Ideal) X0 X1 (idx_main_v214 (ix3 n i j) k)
    = Cert.YoloCell.clsErr (X1 (ix4 n i j (⟨4 + k.val, by have := k.isLt; omega⟩ : Fin 24))) (X0 (ix4 n i j (⟨10 + k.val, by have := k.isLt; omega⟩ : Fin 30))) := by
  rw [val_main_v213_apply, val_main_v212_apply, val_main_v211_apply, val_main_v210_apply, val_main_v208_apply, val_main_v209_apply,
    val_main_cst_36_apply, val_main_v166_apply, uitofp_bit]
  rw [idx4_direct (m := 24) n i j (⟨4 + k.val, by have := k.isLt; omega⟩ : Fin 24) (idx_main_v208 (idx_main_v214 (ix3 n i j) k)) rfl rfl rfl rfl,
    idx4_direct (m := 30) n i j (⟨10 + k.val, by have := k.isLt; omega⟩ : Fin 30) (idx_main_v166 (idx_main_v214 (ix3 n i j) k)) rfl rfl rfl rfl]
  rfl

/-- The sum of the twenty squared class errors at a cell. -/
theorem cls_sum : val_main_v214 (F := Ideal) X0 X1 (ix3 n i j) = Cert.YoloCell.clsSum (fun k => X0 (ix4 n i j k)) (fun k => X1 (ix4 n i j k)) := by
  rw [val_main_v214_apply, val_main_cst_37_apply]
  simp only [cls_term]
  exact (sum_fin20 (fun k : Fin 20 => Cert.YoloCell.clsErr (X1 (ix4 n i j (⟨4 + k.val, by have := k.isLt; omega⟩ : Fin 24))) (X0 (ix4 n i j (⟨10 + k.val, by have := k.isLt; omega⟩ : Fin 30))))).trans rfl

/-! ## The object loss -/

/-- The loss of a cell that holds an object: position, side, confidence and class terms, in the order the reference adds them. -/
theorem obj_loss : val_main_v215 (F := Ideal) X0 X1 (ix3 n i j)
    = Cert.YoloCell.five * ((X1 (ix4 n i j (0 : Fin 24)) - (Scalar.select (val_main_v161 (F := Ideal) X0 X1 (ix3 n i j)) (X0 (ix4 n i j (0 : Fin 30))) (X0 (ix4 n i j (5 : Fin 30))))) * (X1 (ix4 n i j (0 : Fin 24)) - (Scalar.select (val_main_v161 (F := Ideal) X0 X1 (ix3 n i j)) (X0 (ix4 n i j (0 : Fin 30))) (X0 (ix4 n i j (5 : Fin 30))))) + (X1 (ix4 n i j (1 : Fin 24)) - (Scalar.select (val_main_v161 (F := Ideal) X0 X1 (ix3 n i j)) (X0 (ix4 n i j (1 : Fin 30))) (X0 (ix4 n i j (6 : Fin 30))))) * (X1 (ix4 n i j (1 : Fin 24)) - (Scalar.select (val_main_v161 (F := Ideal) X0 X1 (ix3 n i j)) (X0 (ix4 n i j (1 : Fin 30))) (X0 (ix4 n i j (6 : Fin 30))))))
      + Cert.YoloCell.five * ((Ideal.sqrt (X1 (ix4 n i j (2 : Fin 24))) - Ideal.sqrt (Scalar.select (val_main_v161 (F := Ideal) X0 X1 (ix3 n i j)) (X0 (ix4 n i j (2 : Fin 30))) (X0 (ix4 n i j (7 : Fin 30))))) * (Ideal.sqrt (X1 (ix4 n i j (2 : Fin 24))) - Ideal.sqrt (Scalar.select (val_main_v161 (F := Ideal) X0 X1 (ix3 n i j)) (X0 (ix4 n i j (2 : Fin 30))) (X0 (ix4 n i j (7 : Fin 30)))))
        + (Ideal.sqrt (X1 (ix4 n i j (3 : Fin 24))) - Ideal.sqrt (Scalar.select (val_main_v161 (F := Ideal) X0 X1 (ix3 n i j)) (X0 (ix4 n i j (3 : Fin 30))) (X0 (ix4 n i j (8 : Fin 30))))) * (Ideal.sqrt (X1 (ix4 n i j (3 : Fin 24))) - Ideal.sqrt (Scalar.select (val_main_v161 (F := Ideal) X0 X1 (ix3 n i j)) (X0 (ix4 n i j (3 : Fin 30))) (X0 (ix4 n i j (8 : Fin 30))))))
      + (Cert.YoloCell.one - (Scalar.select (val_main_v161 (F := Ideal) X0 X1 (ix3 n i j)) (X0 (ix4 n i j (4 : Fin 30))) (X0 (ix4 n i j (9 : Fin 30))))) * (Cert.YoloCell.one - (Scalar.select (val_main_v161 (F := Ideal) X0 X1 (ix3 n i j)) (X0 (ix4 n i j (4 : Fin 30))) (X0 (ix4 n i j (9 : Fin 30)))))
      + Cert.YoloCell.clsSum (fun k => X0 (ix4 n i j k)) (fun k => X1 (ix4 n i j k)) := by
  simp only [val_main_v171_apply, val_main_v172_apply, val_main_v177_apply, val_main_v178_apply, val_main_v179_apply, val_main_cst_33_apply, val_main_v180_apply, val_main_v181_apply, val_main_v184_apply, val_main_v187_apply, val_main_v188_apply, val_main_v189_apply, val_main_v192_apply, val_main_v195_apply, val_main_v196_apply, val_main_v197_apply, val_main_v198_apply, val_main_cst_34_apply, val_main_v199_apply, val_main_v200_apply, val_main_v201_apply, val_main_cst_35_apply, val_main_v204_apply, val_main_v205_apply, val_main_v206_apply, val_main_v207_apply, val_main_v215_apply, leaf_v168, leaf_v174, leaf_v183, leaf_v191, leaf_v170, leaf_v176, leaf_v186, leaf_v194, leaf_v203, cls_sum]
  rfl

/-! ## The object mask -/

/-- The class axis is the last of the four. -/
theorem reduces_d3 : S4096x28x28x20.Reduces [3] S4096x28x28 := by decide

omit X0 X1 in
/-- Cell (n, i, j) with class coordinate k put back on the last axis is the index (n, i, j, k). -/
theorem lift_cell (h : S4096x28x28x20.Reduces [3] S4096x28x28) (k : Fin (S4096x28x28x20.size 3)) :
    h.lift (ix3 n i j) k = ix4 n i j (⟨k.val, k.isLt⟩ : Fin 20) := by
  funext c; apply Fin.ext
  fin_cases c <;> rfl

omit X0 X1 in
/-- An or-reduction over the twenty classes, read at a cell: the fold over the cell's twenty entries. -/
theorem hostReduce_or_cell (x : S4096x28x28x20.Idx → BitVec 1) (init : S_.Idx → BitVec 1) :
    Host.reduce IntOp.ori x init reducesTo_S4096x28x28x20_S4096x28x28_d3 h_S_ (ix3 n i j)
      = (Finset.univ : Finset (Fin 20)).fold IntOp.ori (init (Shape.Idx.first h_S_)) (fun k => x (ix4 n i j k)) := by
  rw [Host.reduce_eq_fold_single IntOp.ori x init _ reduces_d3 h_S_]
  exact congrArg (fun f => Finset.fold IntOp.ori (init (Shape.Idx.first h_S_)) f (Finset.univ : Finset (Fin 20)))
    (funext fun k => congrArg x (lift_cell n i j reduces_d3 k))

/-- One class's test at a cell: class k's ground-truth entry 4 + k is not zero. -/
theorem mask_term (k : Fin 20) : val_main_v227 (F := Ideal) X1 (ix4 n i j k) = Ideal.cmp .one (X1 (ix4 n i j (⟨4 + k.val, by have := k.isLt; omega⟩ : Fin 24))) Cert.YoloCell.zero := by
  rw [val_main_v227_apply, val_main_v225_apply, val_main_v226_apply, val_main_cst_39_apply]
  rw [idx4_direct (m := 24) n i j (⟨4 + k.val, by have := k.isLt; omega⟩ : Fin 24) (idx_main_v225 (ix4 n i j k)) rfl rfl rfl rfl]
  rfl

/-- Whether a cell holds an object: the or of the twenty class tests. -/
theorem obj_mask : val_main_v228 (F := Ideal) X1 (ix3 n i j) = Cert.YoloCell.hasObj (fun k => X1 (ix4 n i j k)) := by
  unfold val_main_v228
  refine (hostReduce_or_cell n i j (val_main_v227 (F := Ideal) X1) (val_main_c (F := Ideal))).trans ?_
  simp only [mask_term]
  exact (fold_or_fin20 (fun k : Fin 20 => Ideal.cmp .one (X1 (ix4 n i j (⟨4 + k.val, by have := k.isLt; omega⟩ : Fin 24))) Cert.YoloCell.zero)).trans rfl

/-! ## The no-object loss -/

/-- The loss of a cell without an object: half the two squared confidences. -/
theorem noobj_loss : val_main_v224 (F := Ideal) X0 (ix3 n i j) = Cert.YoloCell.half * (X0 (ix4 n i j (4 : Fin 30)) * X0 (ix4 n i j (4 : Fin 30)) + X0 (ix4 n i j (9 : Fin 30)) * X0 (ix4 n i j (9 : Fin 30))) := by
  simp only [val_main_v218_apply, val_main_v221_apply, val_main_v222_apply, val_main_cst_38_apply, val_main_v223_apply, val_main_v224_apply, leaf_v217, leaf_v220]
  rfl

/-! ## The cell -/

/-- The reference's per-cell loss array, read at cell (n, i, j), is the cell's loss of its 30 predicted and 24
    ground-truth numbers. -/
theorem ref_cell : val_main_v229 (F := Ideal) X0 X1 (ix3 n i j) = Cert.YoloCell.cell (fun k => X0 (ix4 n i j k)) (fun k => X1 (ix4 n i j k)) := by
  rw [val_main_v229_apply, obj_mask, obj_loss, noobj_loss, choice]
  rfl

end Cert.ReferenceIdeal.CellValue

end
-- ==== Proof.RefWindows.lean ====
/-
  The reference program read in six stretches.

  The reference is a straight line of 287 operations, each writing one buffer once. What the buffers hold after the
  line, from any contents, is the left-to-right fold of the operations' results, and the fold over a concatenation is
  the fold over the second part from what the first part leaves (`after_append`). The line is cut where little is
  still needed:
  • the first stretch (operations 0–101) ends with the overlap ratio of the first predicted box; after it only the two
    arguments, the ground-truth box slice and that ratio are read again;
  • the second stretch (102–203) ends with the choice between the two predicted boxes; after it only the two arguments
    and the choice are read again;
  • the third stretch (204–263) ends with the loss of a cell that holds an object; after it only the arguments and that
    loss are read again;
  • the fourth (264–279) computes the loss of a cell without an object and the object test;
  • the fifth is the one selection (280) between the two losses by the test: the cell's loss, the only buffer read after it;
  • the sixth (281–286) ends with the result.
  Each stretch is read from ARBITRARY contents: the buffers it reads from before are given by hypotheses, and each buffer
  it leaves for later is the operations' stage of the argument arrays (the stages of the reading module, one
  definition per operation). A buffer a stretch does not write keeps its contents. Chaining the six gives the result
  buffer after the whole line as the last stage of the arguments' launch contents, and the arguments unchanged.
-/
import proofs.«178040_j67577015435959_2_alg».proof.Proof.RefReadPatched
import Idealize.ShloMosaic.Lib.StableHlo.Run

set_option maxHeartbeats 8000000

noncomputable section

namespace Cert.ReferenceIdeal.Windows

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The contents after two lines run one after the other: the second line's fold from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0–101: the ground-truth box, the first predicted box, their overlap ratio. -/
abbrev w1 : List (HloOp τ sig (Elt F)) :=
  [ unary main_arg1 main_v0 ((extractStridedSlice S4096x28x28x4 ![0, 0, 0, 0] · slices_S4096x28x28x24_S4096x28x28x4_0_0_0_0) : (⟨S4096x28x28x24, .f32⟩ : BufTy).Contents (Elt F) → (⟨S4096x28x28x4, .f32⟩ : BufTy).Contents (Elt F)),
    unary main_arg0 main_v1 ((extractStridedSlice S4096x28x28x4 ![0, 0, 0, 0] · slices_S4096x28x28x30_S4096x28x28x4_0_0_0_0) : (⟨S4096x28x28x30, .f32⟩ : BufTy).Contents (Elt F) → (⟨S4096x28x28x4, .f32⟩ : BufTy).Contents (Elt F)),
    unary main_v0 main_v2 ((extractStridedSlice S4096x28x28x1 ![0, 0, 0, 0] · slices_S4096x28x28x4_S4096x28x28x1_0_0_0_0) : (⟨S4096x28x28x4, .f32⟩ : BufTy).Contents (Elt F) → (⟨S4096x28x28x1, .f32⟩ : BufTy).Contents (Elt F)),
    reshape main_v2 main_v3 rfl shapeCasts_S4096x28x28x1_S4096x28x28,
    unary main_v0 main_v4 ((extractStridedSlice S4096x28x28x1 ![0, 0, 0, 1] · slices_S4096x28x28x4_S4096x28x28x1_0_0_0_1) : (⟨S4096x28x28x4, .f32⟩ : BufTy).Contents (Elt F) → (⟨S4096x28x28x1, .f32⟩ : BufTy).Contents (Elt F)),
    reshape main_v4 main_v5 rfl shapeCasts_S4096x28x28x1_S4096x28x28,
    unary main_v0 main_v6 ((extractStridedSlice S4096x28x28x1 ![0, 0, 0, 2] · slices_S4096x28x28x4_S4096x28x28x1_0_0_0_2) : (⟨S4096x28x28x4, .f32⟩ : BufTy).Contents (Elt F) → (⟨S4096x28x28x1, .f32⟩ : BufTy).Contents (Elt F)),
    reshape main_v6 main_v7 rfl shapeCasts_S4096x28x28x1_S4096x28x28,
    unary main_v0 main_v8 ((extractStridedSlice S4096x28x28x1 ![0, 0, 0, 3] · slices_S4096x28x28x4_S4096x28x28x1_0_0_0_3) : (⟨S4096x28x28x4, .f32⟩ : BufTy).Contents (Elt F) → (⟨S4096x28x28x1, .f32⟩ : BufTy).Contents (Elt F)),
    reshape main_v8 main_v9 rfl shapeCasts_S4096x28x28x1_S4096x28x28,
    nullary main_cst (constant S_ .f32 0x40000000#32),
    unary main_cst main_v10 (broadcastInDim S4096x28x28 ![] bcast_S_S4096x28x28 : (⟨S_, .f32⟩ : BufTy).Contents (Elt F) → (⟨S4096x28x28, .f32⟩ : BufTy).Contents (Elt F)),
    binary main_v7 main_v10 main_v11 (Host.divf : (⟨S4096x28x28, .f32⟩ : BufTy).Contents (Elt F) → (⟨S4096x28x28, .f32⟩ : BufTy).Contents (Elt F) → (⟨S4096x28x28, .f32⟩ : BufTy).Contents (Elt F)),
    binary main_v3 main_v11 main_v12 (subf : (⟨S4096x28x28, .f32⟩ : BufTy).Contents (Elt F) → (⟨S4096x28x28, .f32⟩ : BufTy).Contents (Elt F) → (⟨S4096x28x28, .f32⟩ : BufTy).Contents (Elt F)),
    nullary main_cst_0 (constant S_ .f32 0x40000000#32),
    unary main_cst_0 main_v13 (broadcastInDim S4096x28x28 ![] bcast_S_S4096x28x28 : (⟨S_, .f32⟩ : BufTy).Contents (Elt F) → (⟨S4096x28x28, .f32⟩ : BufTy).Contents (Elt F)),
    binary main_v9 main_v13 main_v14 (Host.divf : (⟨S4096x28x28, .f32⟩ : BufTy).Contents (Elt F) → (⟨S4096x28x28, .f32⟩ : BufTy).Contents (Elt F) → (⟨S4096x28x28, .f32⟩ : BufTy).Contents (Elt F)),
    binary main_v5 main_v14 main_v15 (subf : (⟨S4096x28x28, .f32⟩ : BufTy).Contents (Elt F) → (⟨S4096x28x28, .f32⟩ : BufTy).Contents (Elt F) → (⟨S4096x28x28, .f32⟩ : BufTy).Contents (Elt F)),
    nullary main_cst_1 (constant S_ .f32 0x40000000#32),
    unary main_cst_1 main_v16 (broadcastInDim S4096x28x28 ![] bcast_S_S4096x28x28 : (⟨S_, .f32⟩ : BufTy).Contents (Elt F) → (⟨S4096x28x28, .f32⟩ : BufTy).Contents (Elt F)),
    binary main_v7 main_v16 main_v17 (Host.divf : (⟨S4096x28x28, .f32⟩ : BufTy).Contents (Elt F) → (⟨S4096x28x28, .f32⟩ : BufTy).Contents (Elt F) → (⟨S4096x28x28, .f32⟩ : BufTy).Contents (Elt F)),
    binary main_v3 main_v17 main_v18 (addf : (⟨S4096x28x28, .f32⟩ : BufTy).Contents (Elt F) → (⟨S4096x28x28, .f32⟩ : BufTy).Contents (Elt F) → (⟨S4096x28x28, .f32⟩ : BufTy).Contents (Elt F)),
    nullary main_cst_2 (constant S_ .f32 0x40000000#32),
    unary main_cst_2 main_v19 (broadcastInDim S4096x28x28 ![] bcast_S_S4096x28x28 : (⟨S_, .f32⟩ : BufTy).Contents (Elt F) → (⟨S4096x28x28, .f32⟩ : BufTy).Contents (Elt F)),
    binary main_v9 main_v19 main_v20 (Host.divf : (⟨S4096x28x28, .f32⟩ : BufTy).Contents (Elt F) → (⟨S4096x28x28, .f32⟩ : BufTy).Contents (Elt F) → (⟨S4096x28x28, .f32⟩ : BufTy).Contents (Elt F)),
    binary main_v5 main_v20 main_v21 (addf : (⟨S4096x28x28, .f32⟩ : BufTy).Contents (Elt F) → (⟨S4096x28x28, .f32⟩ : BufTy).Contents (Elt F) → (⟨S4096x28x28, .f32⟩ : BufTy).Contents (Elt F)),
    unary main_v1 main_v22 ((extractStridedSlice S4096x28x28x1 ![0, 0, 0, 0] · slices_S4096x28x28x4_S4096x28x28x1_0_0_0_0) : (⟨S4096x28x28x4, .f32⟩ : BufTy).Contents (Elt F) → (⟨S4096x28x28x1, .f32⟩ : BufTy).Contents (Elt F)),
    reshape main_v22 main_v23 rfl shapeCasts_S4096x28x28x1_S4096x28x28,
    unary main_v1 main_v24 ((extractStridedSlice S4096x28x28x1 ![0, 0, 0, 1] · slices_S4096x28x28x4_S4096x28x28x1_0_0_0_1) : (⟨S4096x28x28x4, .f32⟩ : BufTy).Contents (Elt F) → (⟨S4096x28x28x1, .f32⟩ : BufTy).Contents (Elt F)),
    reshape main_v24 main_v25 rfl shapeCasts_S4096x28x28x1_S4096x28x28,
    unary main_v1 main_v26 ((extractStridedSlice S4096x28x28x1 ![0, 0, 0, 2] · slices_S4096x28x28x4_S4096x28x28x1_0_0_0_2) : (⟨S4096x28x28x4, .f32⟩ : BufTy).Contents (Elt F) → (⟨S4096x28x28x1, .f32⟩ : BufTy).Contents (Elt F)),
    reshape main_v26 main_v27 rfl shapeCasts_S4096x28x28x1_S4096x28x28,
    unary main_v1 main_v28 ((extractStridedSlice S4096x28x28x1 ![0, 0, 0, 3] · slices_S4096x28x28x4_S4096x28x28x1_0_0_0_3) : (⟨S4096x28x28x4, .f32⟩ : BufTy).Contents (Elt F) → (⟨S4096x28x28x1, .f32⟩ : BufTy).Contents (Elt F)),
    reshape main_v28 main_v29 rfl shapeCasts_S4096x28x28x1_S4096x28x28,
    nullary main_cst_3 (constant S_ .f32 0x40000000#32),
    unary main_cst_3 main_v30 (broadcastInDim S4096x28x28 ![] bcast_S_S4096x28x28 : (⟨S_, .f32⟩ : BufTy).Contents (Elt F) → (⟨S4096x28x28, .f32⟩ : BufTy).Contents (Elt F)),
    binary main_v27 main_v30 main_v31 (Host.divf : (⟨S4096x28x28, .f32⟩ : BufTy).Contents (Elt F) → (⟨S4096x28x28, .f32⟩ : BufTy).Contents (Elt F) → (⟨S4096x28x28, .f32⟩ : BufTy).Contents (Elt F)),
    binary main_v23 main_v31 main_v32 (subf : (⟨S4096x28x28, .f32⟩ : BufTy).Contents (Elt F) → (⟨S4096x28x28, .f32⟩ : BufTy).Contents (Elt F) → (⟨S4096x28x28, .f32⟩ : BufTy).Contents (Elt F)),
    nullary main_cst_4 (constant S_ .f32 0x40000000#32),
    unary main_cst_4 main_v33 (broadcastInDim S4096x28x28 ![] bcast_S_S4096x28x28 : (⟨S_, .f32⟩ : BufTy).Contents (Elt F) → (⟨S4096x28x28, .f32⟩ : BufTy).Contents (Elt F)),
    binary main_v29 main_v33 main_v34 (Host.divf : (⟨S4096x28x28, .f32⟩ : BufTy).Contents (Elt F) → (⟨S4096x28x28, .f32⟩ : BufTy).Contents (Elt F) → (⟨S4096x28x28, .f32⟩ : BufTy).Contents (Elt F)),
    binary main_v25 main_v34 main_v35 (subf : (⟨S4096x28x28, .f32⟩ : BufTy).Contents (Elt F) → (⟨S4096x28x28, .f32⟩ : BufTy).Contents (Elt F) → (⟨S4096x28x28, .f32⟩ : BufTy).Contents (Elt F)),
    nullary main_cst_5 (constant S_ .f32 0x40000000#32),
    unary main_cst_5 main_v36 (broadcastInDim S4096x28x28 ![] bcast_S_S4096x28x28 : (⟨S_, .f32⟩ : BufTy).Contents (Elt F) → (⟨S4096x28x28, .f32⟩ : BufTy).Contents (Elt F)),
    binary main_v27 main_v36 main_v37 (Host.divf : (⟨S4096x28x28, .f32⟩ : BufTy).Contents (Elt F) → (⟨S4096x28x28, .f32⟩ : BufTy).Contents (Elt F) → (⟨S4096x28x28, .f32⟩ : BufTy).Contents (Elt F)),
    binary main_v23 main_v37 main_v38 (addf : (⟨S4096x28x28, .f32⟩ : BufTy).Contents (Elt F) → (⟨S4096x28x28, .f32⟩ : BufTy).Contents (Elt F) → (⟨S4096x28x28, .f32⟩ : BufTy).Contents (Elt F)),
    nullary main_cst_6 (constant S_ .f32 0x40000000#32),
    unary main_cst_6 main_v39 (broadcastInDim S4096x28x28 ![] bcast_S_S4096x28x28 : (⟨S_, .f32⟩ : BufTy).Contents (Elt F) → (⟨S4096x28x28, .f32⟩ : BufTy).Contents (Elt F)),
    binary main_v29 main_v39 main_v40 (Host.divf : (⟨S4096x28x28, .f32⟩ : BufTy).Contents (Elt F) → (⟨S4096x28x28, .f32⟩ : BufTy).Contents (Elt F) → (⟨S4096x28x28, .f32⟩ : BufTy).Contents (Elt F)),
    binary main_v25 main_v40 main_v41 (addf : (⟨S4096x28x28, .f32⟩ : BufTy).Contents (Elt F) → (⟨S4096x28x28, .f32⟩ : BufTy).Contents (Elt F) → (⟨S4096x28x28, .f32⟩ : BufTy).Contents (Elt F)),
    binary main_v12 main_v32 main_v42 (maximumf : (⟨S4096x28x28, .f32⟩ : BufTy).Contents (Elt F) → (⟨S4096x28x28, .f32⟩ : BufTy).Contents (Elt F) → (⟨S4096x28x28, .f32⟩ : BufTy).Contents (Elt F)),
    binary main_v15 main_v35 main_v43 (maximumf : (⟨S4096x28x28, .f32⟩ : BufTy).Contents (Elt F) → (⟨S4096x28x28, .f32⟩ : BufTy).Contents (Elt F) → (⟨S4096x28x28, .f32⟩ : BufTy).Contents (Elt F)),
    binary main_v18 main_v38 main_v44 (minimumf : (⟨S4096x28x28, .f32⟩ : BufTy).Contents (Elt F) → (⟨S4096x28x28, .f32⟩ : BufTy).Contents (Elt F) → (⟨S4096x28x28, .f32⟩ : BufTy).Contents (Elt F)),
    binary main_v21 main_v41 main_v45 (minimumf : (⟨S4096x28x28, .f32⟩ : BufTy).Contents (Elt F) → (⟨S4096x28x28, .f32⟩ : BufTy).Contents (Elt F) → (⟨S4096x28x28, .f32⟩ : BufTy).Contents (Elt F)),
    binary main_v44 main_v42 main_v46 (subf : (⟨S4096x28x28, .f32⟩ : BufTy).Contents (Elt F) → (⟨S4096x28x28, .f32⟩ : BufTy).Contents (Elt F) → (⟨S4096x28x28, .f32⟩ : BufTy).Contents (Elt F)),
    binary main_v45 main_v43 main_v47 (subf : (⟨S4096x28x28, .f32⟩ : BufTy).Contents (Elt F) → (⟨S4096x28x28, .f32⟩ : BufTy).Contents (Elt F) → (⟨S4096x28x28, .f32⟩ : BufTy).Contents (Elt F)),
    binary main_v46 main_v47 main_v48 (mulf : (⟨S4096x28x28, .f32⟩ : BufTy).Contents (Elt F) → (⟨S4096x28x28, .f32⟩ : BufTy).Contents (Elt F) → (⟨S4096x28x28, .f32⟩ : BufTy).Contents (Elt F)),
    binary main_v18 main_v12 main_v49 (subf : (⟨S4096x28x28, .f32⟩ : BufTy).Contents (Elt F) → (⟨S4096x28x28, .f32⟩ : BufTy).Contents (Elt F) → (⟨S4096x28x28, .f32⟩ : BufTy).Contents (Elt F)),
    binary main_v21 main_v15 main_v50 (subf : (⟨S4096x28x28, .f32⟩ : BufTy).Contents (Elt F) → (⟨S4096x28x28, .f32⟩ : BufTy).Contents (Elt F) → (⟨S4096x28x28, .f32⟩ : BufTy).Contents (Elt F)),
    binary main_v49 main_v50 main_v51 (mulf : (⟨S4096x28x28, .f32⟩ : BufTy).Contents (Elt F) → (⟨S4096x28x28, .f32⟩ : BufTy).Contents (Elt F) → (⟨S4096x28x28, .f32⟩ : BufTy).Contents (Elt F)),
    unary main_v51 main_v52 (Host.absf : (⟨S4096x28x28, .f32⟩ : BufTy).Contents (Elt F) → (⟨S4096x28x28, .f32⟩ : BufTy).Contents (Elt F)),
    binary main_v38 main_v32 main_v53 (subf : (⟨S4096x28x28, .f32⟩ : BufTy).Contents (Elt F) → (⟨S4096x28x28, .f32⟩ : BufTy).Contents (Elt F) → (⟨S4096x28x28, .f32⟩ : BufTy).Contents (Elt F)),
    binary main_v41 main_v35 main_v54 (subf : (⟨S4096x28x28, .f32⟩ : BufTy).Contents (Elt F) → (⟨S4096x28x28, .f32⟩ : BufTy).Contents (Elt F) → (⟨S4096x28x28, .f32⟩ : BufTy).Contents (Elt F)),
    binary main_v53 main_v54 main_v55 (mulf : (⟨S4096x28x28, .f32⟩ : BufTy).Contents (Elt F) → (⟨S4096x28x28, .f32⟩ : BufTy).Contents (Elt F) → (⟨S4096x28x28, .f32⟩ : BufTy).Contents (Elt F)),
    unary main_v55 main_v56 (Host.absf : (⟨S4096x28x28, .f32⟩ : BufTy).Contents (Elt F) → (⟨S4096x28x28, .f32⟩ : BufTy).Contents (Elt F)),
    binary main_v52 main_v56 main_v57 (addf : (⟨S4096x28x28, .f32⟩ : BufTy).Contents (Elt F) → (⟨S4096x28x28, .f32⟩ : BufTy).Contents (Elt F) → (⟨S4096x28x28, .f32⟩ : BufTy).Contents (Elt F)),
    binary main_v57 main_v48 main_v58 (subf : (⟨S4096x28x28, .f32⟩ : BufTy).Contents (Elt F) → (⟨S4096x28x28, .f32⟩ : BufTy).Contents (Elt F) → (⟨S4096x28x28, .f32⟩ : BufTy).Contents (Elt F)),
    nullary main_cst_7 (constant S_ .f32 0x00000000#32),
    unary main_cst_7 main_v59 (broadcastInDim S4096x28x28 ![] bcast_S_S4096x28x28 : (⟨S_, .f32⟩ : BufTy).Contents (Elt F) → (⟨S4096x28x28, .f32⟩ : BufTy).Contents (Elt F)),
    binary main_v58 main_v59 main_v60 (cmpf .oeq : (⟨S4096x28x28, .f32⟩ : BufTy).Contents (Elt F) → (⟨S4096x28x28, .f32⟩ : BufTy).Contents (Elt F) → (⟨S4096x28x28, .i1⟩ : BufTy).Contents (Elt F)),
    nullary main_cst_8 (constant S_ .f32 0x3F800000#32),
    TRef.unary (TRef.of (T := ⟨S_, .f32⟩) main_cst_8) (TRef.of (T := ⟨S_, .f32⟩) main_call0_v0) id,
    TRef.unary (TRef.of (T := ⟨S_, .f32⟩) main_call0_v0) (TRef.of (T := ⟨S4096x28x28, .f32⟩) main_call0_v1) (broadcastInDim S4096x28x28 ![] bcast_S_S4096x28x28),
    TRef.ternary (TRef.of (T := ⟨S4096x28x28, .i1⟩) main_v60) (TRef.of (T := ⟨S4096x28x28, .f32⟩) main_call0_v1) (TRef.of (T := ⟨S4096x28x28, .f32⟩) main_v58) (TRef.of (T := ⟨S4096x28x28, .f32⟩) main_v61) select,
    nullary main_cst_9 (constant S_ .f32 0x00000000#32),
    unary main_cst_9 main_v62 (broadcastInDim S4096x28x28 ![] bcast_S_S4096x28x28 : (⟨S_, .f32⟩ : BufTy).Contents (Elt F) → (⟨S4096x28x28, .f32⟩ : BufTy).Contents (Elt F)),
    binary main_v48 main_v62 main_v63 (cmpf .oge : (⟨S4096x28x28, .f32⟩ : BufTy).Contents (Elt F) → (⟨S4096x28x28, .f32⟩ : BufTy).Contents (Elt F) → (⟨S4096x28x28, .i1⟩ : BufTy).Contents (Elt F)),
    nullary main_cst_10 (constant S_ .f32 0x00000000#32),
    unary main_cst_10 main_v64 (broadcastInDim S4096x28x28 ![] bcast_S_S4096x28x28 : (⟨S_, .f32⟩ : BufTy).Contents (Elt F) → (⟨S4096x28x28, .f32⟩ : BufTy).Contents (Elt F)),
    binary main_v56 main_v64 main_v65 (cmpf .une : (⟨S4096x28x28, .f32⟩ : BufTy).Contents (Elt F) → (⟨S4096x28x28, .f32⟩ : BufTy).Contents (Elt F) → (⟨S4096x28x28, .i1⟩ : BufTy).Contents (Elt F)),
    binary main_v63 main_v65 main_v66 (andi : (⟨S4096x28x28, .i1⟩ : BufTy).Contents (Elt F) → (⟨S4096x28x28, .i1⟩ : BufTy).Contents (Elt F) → (⟨S4096x28x28, .i1⟩ : BufTy).Contents (Elt F)),
    nullary main_cst_11 (constant S_ .f32 0x00000000#32),
    unary main_cst_11 main_v67 (broadcastInDim S4096x28x28 ![] bcast_S_S4096x28x28 : (⟨S_, .f32⟩ : BufTy).Contents (Elt F) → (⟨S4096x28x28, .f32⟩ : BufTy).Contents (Elt F)),
    binary main_v32 main_v67 main_v68 (cmpf .oge : (⟨S4096x28x28, .f32⟩ : BufTy).Contents (Elt F) → (⟨S4096x28x28, .f32⟩ : BufTy).Contents (Elt F) → (⟨S4096x28x28, .i1⟩ : BufTy).Contents (Elt F)),
    binary main_v66 main_v68 main_v69 (andi : (⟨S4096x28x28, .i1⟩ : BufTy).Contents (Elt F) → (⟨S4096x28x28, .i1⟩ : BufTy).Contents (Elt F) → (⟨S4096x28x28, .i1⟩ : BufTy).Contents (Elt F)),
    nullary main_cst_12 (constant S_ .f32 0x00000000#32),
    unary main_cst_12 main_v70 (broadcastInDim S4096x28x28 ![] bcast_S_S4096x28x28 : (⟨S_, .f32⟩ : BufTy).Contents (Elt F) → (⟨S4096x28x28, .f32⟩ : BufTy).Contents (Elt F)),
    binary main_v35 main_v70 main_v71 (cmpf .oge : (⟨S4096x28x28, .f32⟩ : BufTy).Contents (Elt F) → (⟨S4096x28x28, .f32⟩ : BufTy).Contents (Elt F) → (⟨S4096x28x28, .i1⟩ : BufTy).Contents (Elt F)),
    binary main_v69 main_v71 main_v72 (andi : (⟨S4096x28x28, .i1⟩ : BufTy).Contents (Elt F) → (⟨S4096x28x28, .i1⟩ : BufTy).Contents (Elt F) → (⟨S4096x28x28, .i1⟩ : BufTy).Contents (Elt F)),
    nullary main_cst_13 (constant S_ .f32 0x00000000#32),
    unary main_cst_13 main_v73 (broadcastInDim S4096x28x28 ![] bcast_S_S4096x28x28 : (⟨S_, .f32⟩ : BufTy).Contents (Elt F) → (⟨S4096x28x28, .f32⟩ : BufTy).Contents (Elt F)),
    binary main_v38 main_v73 main_v74 (cmpf .oge : (⟨S4096x28x28, .f32⟩ : BufTy).Contents (Elt F) → (⟨S4096x28x28, .f32⟩ : BufTy).Contents (Elt F) → (⟨S4096x28x28, .i1⟩ : BufTy).Contents (Elt F)),
    binary main_v72 main_v74 main_v75 (andi : (⟨S4096x28x28, .i1⟩ : BufTy).Contents (Elt F) → (⟨S4096x28x28, .i1⟩ : BufTy).Contents (Elt F) → (⟨S4096x28x28, .i1⟩ : BufTy).Contents (Elt F)),
    nullary main_cst_14 (constant S_ .f32 0x00000000#32),
    unary main_cst_14 main_v76 (broadcastInDim S4096x28x28 ![] bcast_S_S4096x28x28 : (⟨S_, .f32⟩ : BufTy).Contents (Elt F) → (⟨S4096x28x28, .f32⟩ : BufTy).Contents (Elt F)),
    binary main_v41 main_v76 main_v77 (cmpf .oge : (⟨S4096x28x28, .f32⟩ : BufTy).Contents (Elt F) → (⟨S4096x28x28, .f32⟩ : BufTy).Contents (Elt F) → (⟨S4096x28x28, .i1⟩ : BufTy).Contents (Elt F)),
    binary main_v75 main_v77 main_v78 (andi : (⟨S4096x28x28, .i1⟩ : BufTy).Contents (Elt F) → (⟨S4096x28x28, .i1⟩ : BufTy).Contents (Elt F) → (⟨S4096x28x28, .i1⟩ : BufTy).Contents (Elt F)),
    binary main_v48 main_v61 main_v79 (Host.divf : (⟨S4096x28x28, .f32⟩ : BufTy).Contents (Elt F) → (⟨S4096x28x28, .f32⟩ : BufTy).Contents (Elt F) → (⟨S4096x28x28, .f32⟩ : BufTy).Contents (Elt F)),
    nullary main_cst_15 (constant S_ .f32 0x00000000#32),
    TRef.unary (TRef.of (T := ⟨S_, .f32⟩) main_cst_15) (TRef.of (T := ⟨S_, .f32⟩) main_call1_v0) id,
    TRef.unary (TRef.of (T := ⟨S_, .f32⟩) main_call1_v0) (TRef.of (T := ⟨S4096x28x28, .f32⟩) main_call1_v1) (broadcastInDim S4096x28x28 ![] bcast_S_S4096x28x28),
    TRef.ternary (TRef.of (T := ⟨S4096x28x28, .i1⟩) main_v78) (TRef.of (T := ⟨S4096x28x28, .f32⟩) main_v79) (TRef.of (T := ⟨S4096x28x28, .f32⟩) main_call1_v1) (TRef.of (T := ⟨S4096x28x28, .f32⟩) main_v80) select ]

/-- Operations 102–203: the second predicted box, its overlap ratio, the choice. -/
abbrev w2 : List (HloOp τ sig (Elt F)) :=
  [ unary main_arg0 main_v81 ((extractStridedSlice S4096x28x28x4 ![0, 0, 0, 5] · slices_S4096x28x28x30_S4096x28x28x4_0_0_0_5) : (⟨S4096x28x28x30, .f32⟩ : BufTy).Contents (Elt F) → (⟨S4096x28x28x4, .f32⟩ : BufTy).Contents (Elt F)),
    unary main_v0 main_v82 ((extractStridedSlice S4096x28x28x1 ![0, 0, 0, 0] · slices_S4096x28x28x4_S4096x28x28x1_0_0_0_0) : (⟨S4096x28x28x4, .f32⟩ : BufTy).Contents (Elt F) → (⟨S4096x28x28x1, .f32⟩ : BufTy).Contents (Elt F)),
    reshape main_v82 main_v83 rfl shapeCasts_S4096x28x28x1_S4096x28x28,
    unary main_v0 main_v84 ((extractStridedSlice S4096x28x28x1 ![0, 0, 0, 1] · slices_S4096x28x28x4_S4096x28x28x1_0_0_0_1) : (⟨S4096x28x28x4, .f32⟩ : BufTy).Contents (Elt F) → (⟨S4096x28x28x1, .f32⟩ : BufTy).Contents (Elt F)),
    reshape main_v84 main_v85 rfl shapeCasts_S4096x28x28x1_S4096x28x28,
    unary main_v0 main_v86 ((extractStridedSlice S4096x28x28x1 ![0, 0, 0, 2] · slices_S4096x28x28x4_S4096x28x28x1_0_0_0_2) : (⟨S4096x28x28x4, .f32⟩ : BufTy).Contents (Elt F) → (⟨S4096x28x28x1, .f32⟩ : BufTy).Contents (Elt F)),
    reshape main_v86 main_v87 rfl shapeCasts_S4096x28x28x1_S4096x28x28,
    unary main_v0 main_v88 ((extractStridedSlice S4096x28x28x1 ![0, 0, 0, 3] · slices_S4096x28x28x4_S4096x28x28x1_0_0_0_3) : (⟨S4096x28x28x4, .f32⟩ : BufTy).Contents (Elt F) → (⟨S4096x28x28x1, .f32⟩ : BufTy).Contents (Elt F)),
    reshape main_v88 main_v89 rfl shapeCasts_S4096x28x28x1_S4096x28x28,
    nullary main_cst_16 (constant S_ .f32 0x40000000#32),
    unary main_cst_16 main_v90 (broadcastInDim S4096x28x28 ![] bcast_S_S4096x28x28 : (⟨S_, .f32⟩ : BufTy).Contents (Elt F) → (⟨S4096x28x28, .f32⟩ : BufTy).Contents (Elt F)),
    binary main_v87 main_v90 main_v91 (Host.divf : (⟨S4096x28x28, .f32⟩ : BufTy).Contents (Elt F) → (⟨S4096x28x28, .f32⟩ : BufTy).Contents (Elt F) → (⟨S4096x28x28, .f32⟩ : BufTy).Contents (Elt F)),
    binary main_v83 main_v91 main_v92 (subf : (⟨S4096x28x28, .f32⟩ : BufTy).Contents (Elt F) → (⟨S4096x28x28, .f32⟩ : BufTy).Contents (Elt F) → (⟨S4096x28x28, .f32⟩ : BufTy).Contents (Elt F)),
    nullary main_cst_17 (constant S_ .f32 0x40000000#32),
    unary main_cst_17 main_v93 (broadcastInDim S4096x28x28 ![] bcast_S_S4096x28x28 : (⟨S_, .f32⟩ : BufTy).Contents (Elt F) → (⟨S4096x28x28, .f32⟩ : BufTy).Contents (Elt F)),
    binary main_v89 main_v93 main_v94 (Host.divf : (⟨S4096x28x28, .f32⟩ : BufTy).Contents (Elt F) → (⟨S4096x28x28, .f32⟩ : BufTy).Contents (Elt F) → (⟨S4096x28x28, .f32⟩ : BufTy).Contents (Elt F)),
    binary main_v85 main_v94 main_v95 (subf : (⟨S4096x28x28, .f32⟩ : BufTy).Contents (Elt F) → (⟨S4096x28x28, .f32⟩ : BufTy).Contents (Elt F) → (⟨S4096x28x28, .f32⟩ : BufTy).Contents (Elt F)),
    nullary main_cst_18 (constant S_ .f32 0x40000000#32),
    unary main_cst_18 main_v96 (broadcastInDim S4096x28x28 ![] bcast_S_S4096x28x28 : (⟨S_, .f32⟩ : BufTy).Contents (Elt F) → (⟨S4096x28x28, .f32⟩ : BufTy).Contents (Elt F)),
    binary main_v87 main_v96 main_v97 (Host.divf : (⟨S4096x28x28, .f32⟩ : BufTy).Contents (Elt F) → (⟨S4096x28x28, .f32⟩ : BufTy).Contents (Elt F) → (⟨S4096x28x28, .f32⟩ : BufTy).Contents (Elt F)),
    binary main_v83 main_v97 main_v98 (addf : (⟨S4096x28x28, .f32⟩ : BufTy).Contents (Elt F) → (⟨S4096x28x28, .f32⟩ : BufTy).Contents (Elt F) → (⟨S4096x28x28, .f32⟩ : BufTy).Contents (Elt F)),
    nullary main_cst_19 (constant S_ .f32 0x40000000#32),
    unary main_cst_19 main_v99 (broadcastInDim S4096x28x28 ![] bcast_S_S4096x28x28 : (⟨S_, .f32⟩ : BufTy).Contents (Elt F) → (⟨S4096x28x28, .f32⟩ : BufTy).Contents (Elt F)),
    binary main_v89 main_v99 main_v100 (Host.divf : (⟨S4096x28x28, .f32⟩ : BufTy).Contents (Elt F) → (⟨S4096x28x28, .f32⟩ : BufTy).Contents (Elt F) → (⟨S4096x28x28, .f32⟩ : BufTy).Contents (Elt F)),
    binary main_v85 main_v100 main_v101 (addf : (⟨S4096x28x28, .f32⟩ : BufTy).Contents (Elt F) → (⟨S4096x28x28, .f32⟩ : BufTy).Contents (Elt F) → (⟨S4096x28x28, .f32⟩ : BufTy).Contents (Elt F)),
    unary main_v81 main_v102 ((extractStridedSlice S4096x28x28x1 ![0, 0, 0, 0] · slices_S4096x28x28x4_S4096x28x28x1_0_0_0_0) : (⟨S4096x28x28x4, .f32⟩ : BufTy).Contents (Elt F) → (⟨S4096x28x28x1, .f32⟩ : BufTy).Contents (Elt F)),
    reshape main_v102 main_v103 rfl shapeCasts_S4096x28x28x1_S4096x28x28,
    unary main_v81 main_v104 ((extractStridedSlice S4096x28x28x1 ![0, 0, 0, 1] · slices_S4096x28x28x4_S4096x28x28x1_0_0_0_1) : (⟨S4096x28x28x4, .f32⟩ : BufTy).Contents (Elt F) → (⟨S4096x28x28x1, .f32⟩ : BufTy).Contents (Elt F)),
    reshape main_v104 main_v105 rfl shapeCasts_S4096x28x28x1_S4096x28x28,
    unary main_v81 main_v106 ((extractStridedSlice S4096x28x28x1 ![0, 0, 0, 2] · slices_S4096x28x28x4_S4096x28x28x1_0_0_0_2) : (⟨S4096x28x28x4, .f32⟩ : BufTy).Contents (Elt F) → (⟨S4096x28x28x1, .f32⟩ : BufTy).Contents (Elt F)),
    reshape main_v106 main_v107 rfl shapeCasts_S4096x28x28x1_S4096x28x28,
    unary main_v81 main_v108 ((extractStridedSlice S4096x28x28x1 ![0, 0, 0, 3] · slices_S4096x28x28x4_S4096x28x28x1_0_0_0_3) : (⟨S4096x28x28x4, .f32⟩ : BufTy).Contents (Elt F) → (⟨S4096x28x28x1, .f32⟩ : BufTy).Contents (Elt F)),
    reshape main_v108 main_v109 rfl shapeCasts_S4096x28x28x1_S4096x28x28,
    nullary main_cst_20 (constant S_ .f32 0x40000000#32),
    unary main_cst_20 main_v110 (broadcastInDim S4096x28x28 ![] bcast_S_S4096x28x28 : (⟨S_, .f32⟩ : BufTy).Contents (Elt F) → (⟨S4096x28x28, .f32⟩ : BufTy).Contents (Elt F)),
    binary main_v107 main_v110 main_v111 (Host.divf : (⟨S4096x28x28, .f32⟩ : BufTy).Contents (Elt F) → (⟨S4096x28x28, .f32⟩ : BufTy).Contents (Elt F) → (⟨S4096x28x28, .f32⟩ : BufTy).Contents (Elt F)),
    binary main_v103 main_v111 main_v112 (subf : (⟨S4096x28x28, .f32⟩ : BufTy).Contents (Elt F) → (⟨S4096x28x28, .f32⟩ : BufTy).Contents (Elt F) → (⟨S4096x28x28, .f32⟩ : BufTy).Contents (Elt F)),
    nullary main_cst_21 (constant S_ .f32 0x40000000#32),
    unary main_cst_21 main_v113 (broadcastInDim S4096x28x28 ![] bcast_S_S4096x28x28 : (⟨S_, .f32⟩ : BufTy).Contents (Elt F) → (⟨S4096x28x28, .f32⟩ : BufTy).Contents (Elt F)),
    binary main_v109 main_v113 main_v114 (Host.divf : (⟨S4096x28x28, .f32⟩ : BufTy).Contents (Elt F) → (⟨S4096x28x28, .f32⟩ : BufTy).Contents (Elt F) → (⟨S4096x28x28, .f32⟩ : BufTy).Contents (Elt F)),
    binary main_v105 main_v114 main_v115 (subf : (⟨S4096x28x28, .f32⟩ : BufTy).Contents (Elt F) → (⟨S4096x28x28, .f32⟩ : BufTy).Contents (Elt F) → (⟨S4096x28x28, .f32⟩ : BufTy).Contents (Elt F)),
    nullary main_cst_22 (constant S_ .f32 0x40000000#32),
    unary main_cst_22 main_v116 (broadcastInDim S4096x28x28 ![] bcast_S_S4096x28x28 : (⟨S_, .f32⟩ : BufTy).Contents (Elt F) → (⟨S4096x28x28, .f32⟩ : BufTy).Contents (Elt F)),
    binary main_v107 main_v116 main_v117 (Host.divf : (⟨S4096x28x28, .f32⟩ : BufTy).Contents (Elt F) → (⟨S4096x28x28, .f32⟩ : BufTy).Contents (Elt F) → (⟨S4096x28x28, .f32⟩ : BufTy).Contents (Elt F)),
    binary main_v103 main_v117 main_v118 (addf : (⟨S4096x28x28, .f32⟩ : BufTy).Contents (Elt F) → (⟨S4096x28x28, .f32⟩ : BufTy).Contents (Elt F) → (⟨S4096x28x28, .f32⟩ : BufTy).Contents (Elt F)),
    nullary main_cst_23 (constant S_ .f32 0x40000000#32),
    unary main_cst_23 main_v119 (broadcastInDim S4096x28x28 ![] bcast_S_S4096x28x28 : (⟨S_, .f32⟩ : BufTy).Contents (Elt F) → (⟨S4096x28x28, .f32⟩ : BufTy).Contents (Elt F)),
    binary main_v109 main_v119 main_v120 (Host.divf : (⟨S4096x28x28, .f32⟩ : BufTy).Contents (Elt F) → (⟨S4096x28x28, .f32⟩ : BufTy).Contents (Elt F) → (⟨S4096x28x28, .f32⟩ : BufTy).Contents (Elt F)),
    binary main_v105 main_v120 main_v121 (addf : (⟨S4096x28x28, .f32⟩ : BufTy).Contents (Elt F) → (⟨S4096x28x28, .f32⟩ : BufTy).Contents (Elt F) → (⟨S4096x28x28, .f32⟩ : BufTy).Contents (Elt F)),
    binary main_v92 main_v112 main_v122 (maximumf : (⟨S4096x28x28, .f32⟩ : BufTy).Contents (Elt F) → (⟨S4096x28x28, .f32⟩ : BufTy).Contents (Elt F) → (⟨S4096x28x28, .f32⟩ : BufTy).Contents (Elt F)),
    binary main_v95 main_v115 main_v123 (maximumf : (⟨S4096x28x28, .f32⟩ : BufTy).Contents (Elt F) → (⟨S4096x28x28, .f32⟩ : BufTy).Contents (Elt F) → (⟨S4096x28x28, .f32⟩ : BufTy).Contents (Elt F)),
    binary main_v98 main_v118 main_v124 (minimumf : (⟨S4096x28x28, .f32⟩ : BufTy).Contents (Elt F) → (⟨S4096x28x28, .f32⟩ : BufTy).Contents (Elt F) → (⟨S4096x28x28, .f32⟩ : BufTy).Contents (Elt F)),
    binary main_v101 main_v121 main_v125 (minimumf : (⟨S4096x28x28, .f32⟩ : BufTy).Contents (Elt F) → (⟨S4096x28x28, .f32⟩ : BufTy).Contents (Elt F) → (⟨S4096x28x28, .f32⟩ : BufTy).Contents (Elt F)),
    binary main_v124 main_v122 main_v126 (subf : (⟨S4096x28x28, .f32⟩ : BufTy).Contents (Elt F) → (⟨S4096x28x28, .f32⟩ : BufTy).Contents (Elt F) → (⟨S4096x28x28, .f32⟩ : BufTy).Contents (Elt F)),
    binary main_v125 main_v123 main_v127 (subf : (⟨S4096x28x28, .f32⟩ : BufTy).Contents (Elt F) → (⟨S4096x28x28, .f32⟩ : BufTy).Contents (Elt F) → (⟨S4096x28x28, .f32⟩ : BufTy).Contents (Elt F)),
    binary main_v126 main_v127 main_v128 (mulf : (⟨S4096x28x28, .f32⟩ : BufTy).Contents (Elt F) → (⟨S4096x28x28, .f32⟩ : BufTy).Contents (Elt F) → (⟨S4096x28x28, .f32⟩ : BufTy).Contents (Elt F)),
    binary main_v98 main_v92 main_v129 (subf : (⟨S4096x28x28, .f32⟩ : BufTy).Contents (Elt F) → (⟨S4096x28x28, .f32⟩ : BufTy).Contents (Elt F) → (⟨S4096x28x28, .f32⟩ : BufTy).Contents (Elt F)),
    binary main_v101 main_v95 main_v130 (subf : (⟨S4096x28x28, .f32⟩ : BufTy).Contents (Elt F) → (⟨S4096x28x28, .f32⟩ : BufTy).Contents (Elt F) → (⟨S4096x28x28, .f32⟩ : BufTy).Contents (Elt F)),
    binary main_v129 main_v130 main_v131 (mulf : (⟨S4096x28x28, .f32⟩ : BufTy).Contents (Elt F) → (⟨S4096x28x28, .f32⟩ : BufTy).Contents (Elt F) → (⟨S4096x28x28, .f32⟩ : BufTy).Contents (Elt F)),
    unary main_v131 main_v132 (Host.absf : (⟨S4096x28x28, .f32⟩ : BufTy).Contents (Elt F) → (⟨S4096x28x28, .f32⟩ : BufTy).Contents (Elt F)),
    binary main_v118 main_v112 main_v133 (subf : (⟨S4096x28x28, .f32⟩ : BufTy).Contents (Elt F) → (⟨S4096x28x28, .f32⟩ : BufTy).Contents (Elt F) → (⟨S4096x28x28, .f32⟩ : BufTy).Contents (Elt F)),
    binary main_v121 main_v115 main_v134 (subf : (⟨S4096x28x28, .f32⟩ : BufTy).Contents (Elt F) → (⟨S4096x28x28, .f32⟩ : BufTy).Contents (Elt F) → (⟨S4096x28x28, .f32⟩ : BufTy).Contents (Elt F)),
    binary main_v133 main_v134 main_v135 (mulf : (⟨S4096x28x28, .f32⟩ : BufTy).Contents (Elt F) → (⟨S4096x28x28, .f32⟩ : BufTy).Contents (Elt F) → (⟨S4096x28x28, .f32⟩ : BufTy).Contents (Elt F)),
    unary main_v135 main_v136 (Host.absf : (⟨S4096x28x28, .f32⟩ : BufTy).Contents (Elt F) → (⟨S4096x28x28, .f32⟩ : BufTy).Contents (Elt F)),
    binary main_v132 main_v136 main_v137 (addf : (⟨S4096x28x28, .f32⟩ : BufTy).Contents (Elt F) → (⟨S4096x28x28, .f32⟩ : BufTy).Contents (Elt F) → (⟨S4096x28x28, .f32⟩ : BufTy).Contents (Elt F)),
    binary main_v137 main_v128 main_v138 (subf : (⟨S4096x28x28, .f32⟩ : BufTy).Contents (Elt F) → (⟨S4096x28x28, .f32⟩ : BufTy).Contents (Elt F) → (⟨S4096x28x28, .f32⟩ : BufTy).Contents (Elt F)),
    nullary main_cst_24 (constant S_ .f32 0x00000000#32),
    unary main_cst_24 main_v139 (broadcastInDim S4096x28x28 ![] bcast_S_S4096x28x28 : (⟨S_, .f32⟩ : BufTy).Contents (Elt F) → (⟨S4096x28x28, .f32⟩ : BufTy).Contents (Elt F)),
    binary main_v138 main_v139 main_v140 (cmpf .oeq : (⟨S4096x28x28, .f32⟩ : BufTy).Contents (Elt F) → (⟨S4096x28x28, .f32⟩ : BufTy).Contents (Elt F) → (⟨S4096x28x28, .i1⟩ : BufTy).Contents (Elt F)),
    nullary main_cst_25 (constant S_ .f32 0x3F800000#32),
    TRef.unary (TRef.of (T := ⟨S_, .f32⟩) main_cst_25) (TRef.of (T := ⟨S_, .f32⟩) main_call2_v0) id,
    TRef.unary (TRef.of (T := ⟨S_, .f32⟩) main_call2_v0) (TRef.of (T := ⟨S4096x28x28, .f32⟩) main_call2_v1) (broadcastInDim S4096x28x28 ![] bcast_S_S4096x28x28),
    TRef.ternary (TRef.of (T := ⟨S4096x28x28, .i1⟩) main_v140) (TRef.of (T := ⟨S4096x28x28, .f32⟩) main_call2_v1) (TRef.of (T := ⟨S4096x28x28, .f32⟩) main_v138) (TRef.of (T := ⟨S4096x28x28, .f32⟩) main_v141) select,
    nullary main_cst_26 (constant S_ .f32 0x00000000#32),
    unary main_cst_26 main_v142 (broadcastInDim S4096x28x28 ![] bcast_S_S4096x28x28 : (⟨S_, .f32⟩ : BufTy).Contents (Elt F) → (⟨S4096x28x28, .f32⟩ : BufTy).Contents (Elt F)),
    binary main_v128 main_v142 main_v143 (cmpf .oge : (⟨S4096x28x28, .f32⟩ : BufTy).Contents (Elt F) → (⟨S4096x28x28, .f32⟩ : BufTy).Contents (Elt F) → (⟨S4096x28x28, .i1⟩ : BufTy).Contents (Elt F)),
    nullary main_cst_27 (constant S_ .f32 0x00000000#32),
    unary main_cst_27 main_v144 (broadcastInDim S4096x28x28 ![] bcast_S_S4096x28x28 : (⟨S_, .f32⟩ : BufTy).Contents (Elt F) → (⟨S4096x28x28, .f32⟩ : BufTy).Contents (Elt F)),
    binary main_v136 main_v144 main_v145 (cmpf .une : (⟨S4096x28x28, .f32⟩ : BufTy).Contents (Elt F) → (⟨S4096x28x28, .f32⟩ : BufTy).Contents (Elt F) → (⟨S4096x28x28, .i1⟩ : BufTy).Contents (Elt F)),
    binary main_v143 main_v145 main_v146 (andi : (⟨S4096x28x28, .i1⟩ : BufTy).Contents (Elt F) → (⟨S4096x28x28, .i1⟩ : BufTy).Contents (Elt F) → (⟨S4096x28x28, .i1⟩ : BufTy).Contents (Elt F)),
    nullary main_cst_28 (constant S_ .f32 0x00000000#32),
    unary main_cst_28 main_v147 (broadcastInDim S4096x28x28 ![] bcast_S_S4096x28x28 : (⟨S_, .f32⟩ : BufTy).Contents (Elt F) → (⟨S4096x28x28, .f32⟩ : BufTy).Contents (Elt F)),
    binary main_v112 main_v147 main_v148 (cmpf .oge : (⟨S4096x28x28, .f32⟩ : BufTy).Contents (Elt F) → (⟨S4096x28x28, .f32⟩ : BufTy).Contents (Elt F) → (⟨S4096x28x28, .i1⟩ : BufTy).Contents (Elt F)),
    binary main_v146 main_v148 main_v149 (andi : (⟨S4096x28x28, .i1⟩ : BufTy).Contents (Elt F) → (⟨S4096x28x28, .i1⟩ : BufTy).Contents (Elt F) → (⟨S4096x28x28, .i1⟩ : BufTy).Contents (Elt F)),
    nullary main_cst_29 (constant S_ .f32 0x00000000#32),
    unary main_cst_29 main_v150 (broadcastInDim S4096x28x28 ![] bcast_S_S4096x28x28 : (⟨S_, .f32⟩ : BufTy).Contents (Elt F) → (⟨S4096x28x28, .f32⟩ : BufTy).Contents (Elt F)),
    binary main_v115 main_v150 main_v151 (cmpf .oge : (⟨S4096x28x28, .f32⟩ : BufTy).Contents (Elt F) → (⟨S4096x28x28, .f32⟩ : BufTy).Contents (Elt F) → (⟨S4096x28x28, .i1⟩ : BufTy).Contents (Elt F)),
    binary main_v149 main_v151 main_v152 (andi : (⟨S4096x28x28, .i1⟩ : BufTy).Contents (Elt F) → (⟨S4096x28x28, .i1⟩ : BufTy).Contents (Elt F) → (⟨S4096x28x28, .i1⟩ : BufTy).Contents (Elt F)),
    nullary main_cst_30 (constant S_ .f32 0x00000000#32),
    unary main_cst_30 main_v153 (broadcastInDim S4096x28x28 ![] bcast_S_S4096x28x28 : (⟨S_, .f32⟩ : BufTy).Contents (Elt F) → (⟨S4096x28x28, .f32⟩ : BufTy).Contents (Elt F)),
    binary main_v118 main_v153 main_v154 (cmpf .oge : (⟨S4096x28x28, .f32⟩ : BufTy).Contents (Elt F) → (⟨S4096x28x28, .f32⟩ : BufTy).Contents (Elt F) → (⟨S4096x28x28, .i1⟩ : BufTy).Contents (Elt F)),
    binary main_v152 main_v154 main_v155 (andi : (⟨S4096x28x28, .i1⟩ : BufTy).Contents (Elt F) → (⟨S4096x28x28, .i1⟩ : BufTy).Contents (Elt F) → (⟨S4096x28x28, .i1⟩ : BufTy).Contents (Elt F)),
    nullary main_cst_31 (constant S_ .f32 0x00000000#32),
    unary main_cst_31 main_v156 (broadcastInDim S4096x28x28 ![] bcast_S_S4096x28x28 : (⟨S_, .f32⟩ : BufTy).Contents (Elt F) → (⟨S4096x28x28, .f32⟩ : BufTy).Contents (Elt F)),
    binary main_v121 main_v156 main_v157 (cmpf .oge : (⟨S4096x28x28, .f32⟩ : BufTy).Contents (Elt F) → (⟨S4096x28x28, .f32⟩ : BufTy).Contents (Elt F) → (⟨S4096x28x28, .i1⟩ : BufTy).Contents (Elt F)),
    binary main_v155 main_v157 main_v158 (andi : (⟨S4096x28x28, .i1⟩ : BufTy).Contents (Elt F) → (⟨S4096x28x28, .i1⟩ : BufTy).Contents (Elt F) → (⟨S4096x28x28, .i1⟩ : BufTy).Contents (Elt F)),
    binary main_v128 main_v141 main_v159 (Host.divf : (⟨S4096x28x28, .f32⟩ : BufTy).Contents (Elt F) → (⟨S4096x28x28, .f32⟩ : BufTy).Contents (Elt F) → (⟨S4096x28x28, .f32⟩ : BufTy).Contents (Elt F)),
    nullary main_cst_32 (constant S_ .f32 0x00000000#32),
    TRef.unary (TRef.of (T := ⟨S_, .f32⟩) main_cst_32) (TRef.of (T := ⟨S_, .f32⟩) main_call3_v0) id,
    TRef.unary (TRef.of (T := ⟨S_, .f32⟩) main_call3_v0) (TRef.of (T := ⟨S4096x28x28, .f32⟩) main_call3_v1) (broadcastInDim S4096x28x28 ![] bcast_S_S4096x28x28),
    TRef.ternary (TRef.of (T := ⟨S4096x28x28, .i1⟩) main_v158) (TRef.of (T := ⟨S4096x28x28, .f32⟩) main_v159) (TRef.of (T := ⟨S4096x28x28, .f32⟩) main_call3_v1) (TRef.of (T := ⟨S4096x28x28, .f32⟩) main_v160) select,
    binary main_v80 main_v160 main_v161 (cmpf .oge : (⟨S4096x28x28, .f32⟩ : BufTy).Contents (Elt F) → (⟨S4096x28x28, .f32⟩ : BufTy).Contents (Elt F) → (⟨S4096x28x28, .i1⟩ : BufTy).Contents (Elt F)) ]

/-- Operations 204–263: the responsible box and the loss of a cell that holds an object. -/
abbrev w3 : List (HloOp τ sig (Elt F)) :=
  [ unary main_v161 main_v162 (broadcastInDim S4096x28x28x1 ![0, 1, 2] bcast_S4096x28x28_S4096x28x28x1_0_1_2 : (⟨S4096x28x28, .i1⟩ : BufTy).Contents (Elt F) → (⟨S4096x28x28x1, .i1⟩ : BufTy).Contents (Elt F)),
    unary main_arg0 main_v163 ((extractStridedSlice S4096x28x28x5 ![0, 0, 0, 0] · slices_S4096x28x28x30_S4096x28x28x5_0_0_0_0) : (⟨S4096x28x28x30, .f32⟩ : BufTy).Contents (Elt F) → (⟨S4096x28x28x5, .f32⟩ : BufTy).Contents (Elt F)),
    unary main_arg0 main_v164 ((extractStridedSlice S4096x28x28x5 ![0, 0, 0, 5] · slices_S4096x28x28x30_S4096x28x28x5_0_0_0_5) : (⟨S4096x28x28x30, .f32⟩ : BufTy).Contents (Elt F) → (⟨S4096x28x28x5, .f32⟩ : BufTy).Contents (Elt F)),
    TRef.unary (TRef.of (T := ⟨S4096x28x28x1, .i1⟩) main_v162) (TRef.of (T := ⟨S4096x28x28x5, .i1⟩) main_call4_v0) (broadcastInDim S4096x28x28x5 ![0, 1, 2, 3] bcast_S4096x28x28x1_S4096x28x28x5_0_1_2_3),
    TRef.ternary (TRef.of (T := ⟨S4096x28x28x5, .i1⟩) main_call4_v0) (TRef.of (T := ⟨S4096x28x28x5, .f32⟩) main_v163) (TRef.of (T := ⟨S4096x28x28x5, .f32⟩) main_v164) (TRef.of (T := ⟨S4096x28x28x5, .f32⟩) main_v165) select,
    unary main_arg0 main_v166 ((extractStridedSlice S4096x28x28x20 ![0, 0, 0, 10] · slices_S4096x28x28x30_S4096x28x28x20_0_0_0_10) : (⟨S4096x28x28x30, .f32⟩ : BufTy).Contents (Elt F) → (⟨S4096x28x28x20, .f32⟩ : BufTy).Contents (Elt F)),
    unary main_arg1 main_v167 ((extractStridedSlice S4096x28x28x1 ![0, 0, 0, 0] · slices_S4096x28x28x24_S4096x28x28x1_0_0_0_0) : (⟨S4096x28x28x24, .f32⟩ : BufTy).Contents (Elt F) → (⟨S4096x28x28x1, .f32⟩ : BufTy).Contents (Elt F)),
    reshape main_v167 main_v168 rfl shapeCasts_S4096x28x28x1_S4096x28x28,
    unary main_v165 main_v169 ((extractStridedSlice S4096x28x28x1 ![0, 0, 0, 0] · slices_S4096x28x28x5_S4096x28x28x1_0_0_0_0) : (⟨S4096x28x28x5, .f32⟩ : BufTy).Contents (Elt F) → (⟨S4096x28x28x1, .f32⟩ : BufTy).Contents (Elt F)),
    reshape main_v169 main_v170 rfl shapeCasts_S4096x28x28x1_S4096x28x28,
    binary main_v168 main_v170 main_v171 (subf : (⟨S4096x28x28, .f32⟩ : BufTy).Contents (Elt F) → (⟨S4096x28x28, .f32⟩ : BufTy).Contents (Elt F) → (⟨S4096x28x28, .f32⟩ : BufTy).Contents (Elt F)),
    binary main_v171 main_v171 main_v172 (mulf : (⟨S4096x28x28, .f32⟩ : BufTy).Contents (Elt F) → (⟨S4096x28x28, .f32⟩ : BufTy).Contents (Elt F) → (⟨S4096x28x28, .f32⟩ : BufTy).Contents (Elt F)),
    unary main_arg1 main_v173 ((extractStridedSlice S4096x28x28x1 ![0, 0, 0, 1] · slices_S4096x28x28x24_S4096x28x28x1_0_0_0_1) : (⟨S4096x28x28x24, .f32⟩ : BufTy).Contents (Elt F) → (⟨S4096x28x28x1, .f32⟩ : BufTy).Contents (Elt F)),
    reshape main_v173 main_v174 rfl shapeCasts_S4096x28x28x1_S4096x28x28,
    unary main_v165 main_v175 ((extractStridedSlice S4096x28x28x1 ![0, 0, 0, 1] · slices_S4096x28x28x5_S4096x28x28x1_0_0_0_1) : (⟨S4096x28x28x5, .f32⟩ : BufTy).Contents (Elt F) → (⟨S4096x28x28x1, .f32⟩ : BufTy).Contents (Elt F)),
    reshape main_v175 main_v176 rfl shapeCasts_S4096x28x28x1_S4096x28x28,
    binary main_v174 main_v176 main_v177 (subf : (⟨S4096x28x28, .f32⟩ : BufTy).Contents (Elt F) → (⟨S4096x28x28, .f32⟩ : BufTy).Contents (Elt F) → (⟨S4096x28x28, .f32⟩ : BufTy).Contents (Elt F)),
    binary main_v177 main_v177 main_v178 (mulf : (⟨S4096x28x28, .f32⟩ : BufTy).Contents (Elt F) → (⟨S4096x28x28, .f32⟩ : BufTy).Contents (Elt F) → (⟨S4096x28x28, .f32⟩ : BufTy).Contents (Elt F)),
    binary main_v172 main_v178 main_v179 (addf : (⟨S4096x28x28, .f32⟩ : BufTy).Contents (Elt F) → (⟨S4096x28x28, .f32⟩ : BufTy).Contents (Elt F) → (⟨S4096x28x28, .f32⟩ : BufTy).Contents (Elt F)),
    nullary main_cst_33 (constant S_ .f32 0x40A00000#32),
    unary main_cst_33 main_v180 (broadcastInDim S4096x28x28 ![] bcast_S_S4096x28x28 : (⟨S_, .f32⟩ : BufTy).Contents (Elt F) → (⟨S4096x28x28, .f32⟩ : BufTy).Contents (Elt F)),
    binary main_v180 main_v179 main_v181 (mulf : (⟨S4096x28x28, .f32⟩ : BufTy).Contents (Elt F) → (⟨S4096x28x28, .f32⟩ : BufTy).Contents (Elt F) → (⟨S4096x28x28, .f32⟩ : BufTy).Contents (Elt F)),
    unary main_arg1 main_v182 ((extractStridedSlice S4096x28x28x1 ![0, 0, 0, 2] · slices_S4096x28x28x24_S4096x28x28x1_0_0_0_2) : (⟨S4096x28x28x24, .f32⟩ : BufTy).Contents (Elt F) → (⟨S4096x28x28x1, .f32⟩ : BufTy).Contents (Elt F)),
    reshape main_v182 main_v183 rfl shapeCasts_S4096x28x28x1_S4096x28x28,
    unary main_v183 main_v184 (Host.sqrt : (⟨S4096x28x28, .f32⟩ : BufTy).Contents (Elt F) → (⟨S4096x28x28, .f32⟩ : BufTy).Contents (Elt F)),
    unary main_v165 main_v185 ((extractStridedSlice S4096x28x28x1 ![0, 0, 0, 2] · slices_S4096x28x28x5_S4096x28x28x1_0_0_0_2) : (⟨S4096x28x28x5, .f32⟩ : BufTy).Contents (Elt F) → (⟨S4096x28x28x1, .f32⟩ : BufTy).Contents (Elt F)),
    reshape main_v185 main_v186 rfl shapeCasts_S4096x28x28x1_S4096x28x28,
    unary main_v186 main_v187 (Host.sqrt : (⟨S4096x28x28, .f32⟩ : BufTy).Contents (Elt F) → (⟨S4096x28x28, .f32⟩ : BufTy).Contents (Elt F)),
    binary main_v184 main_v187 main_v188 (subf : (⟨S4096x28x28, .f32⟩ : BufTy).Contents (Elt F) → (⟨S4096x28x28, .f32⟩ : BufTy).Contents (Elt F) → (⟨S4096x28x28, .f32⟩ : BufTy).Contents (Elt F)),
    binary main_v188 main_v188 main_v189 (mulf : (⟨S4096x28x28, .f32⟩ : BufTy).Contents (Elt F) → (⟨S4096x28x28, .f32⟩ : BufTy).Contents (Elt F) → (⟨S4096x28x28, .f32⟩ : BufTy).Contents (Elt F)),
    unary main_arg1 main_v190 ((extractStridedSlice S4096x28x28x1 ![0, 0, 0, 3] · slices_S4096x28x28x24_S4096x28x28x1_0_0_0_3) : (⟨S4096x28x28x24, .f32⟩ : BufTy).Contents (Elt F) → (⟨S4096x28x28x1, .f32⟩ : BufTy).Contents (Elt F)),
    reshape main_v190 main_v191 rfl shapeCasts_S4096x28x28x1_S4096x28x28,
    unary main_v191 main_v192 (Host.sqrt : (⟨S4096x28x28, .f32⟩ : BufTy).Contents (Elt F) → (⟨S4096x28x28, .f32⟩ : BufTy).Contents (Elt F)),
    unary main_v165 main_v193 ((extractStridedSlice S4096x28x28x1 ![0, 0, 0, 3] · slices_S4096x28x28x5_S4096x28x28x1_0_0_0_3) : (⟨S4096x28x28x5, .f32⟩ : BufTy).Contents (Elt F) → (⟨S4096x28x28x1, .f32⟩ : BufTy).Contents (Elt F)),
    reshape main_v193 main_v194 rfl shapeCasts_S4096x28x28x1_S4096x28x28,
    unary main_v194 main_v195 (Host.sqrt : (⟨S4096x28x28, .f32⟩ : BufTy).Contents (Elt F) → (⟨S4096x28x28, .f32⟩ : BufTy).Contents (Elt F)),
    binary main_v192 main_v195 main_v196 (subf : (⟨S4096x28x28, .f32⟩ : BufTy).Contents (Elt F) → (⟨S4096x28x28, .f32⟩ : BufTy).Contents (Elt F) → (⟨S4096x28x28, .f32⟩ : BufTy).Contents (Elt F)),
    binary main_v196 main_v196 main_v197 (mulf : (⟨S4096x28x28, .f32⟩ : BufTy).Contents (Elt F) → (⟨S4096x28x28, .f32⟩ : BufTy).Contents (Elt F) → (⟨S4096x28x28, .f32⟩ : BufTy).Contents (Elt F)),
    binary main_v189 main_v197 main_v198 (addf : (⟨S4096x28x28, .f32⟩ : BufTy).Contents (Elt F) → (⟨S4096x28x28, .f32⟩ : BufTy).Contents (Elt F) → (⟨S4096x28x28, .f32⟩ : BufTy).Contents (Elt F)),
    nullary main_cst_34 (constant S_ .f32 0x40A00000#32),
    unary main_cst_34 main_v199 (broadcastInDim S4096x28x28 ![] bcast_S_S4096x28x28 : (⟨S_, .f32⟩ : BufTy).Contents (Elt F) → (⟨S4096x28x28, .f32⟩ : BufTy).Contents (Elt F)),
    binary main_v199 main_v198 main_v200 (mulf : (⟨S4096x28x28, .f32⟩ : BufTy).Contents (Elt F) → (⟨S4096x28x28, .f32⟩ : BufTy).Contents (Elt F) → (⟨S4096x28x28, .f32⟩ : BufTy).Contents (Elt F)),
    binary main_v181 main_v200 main_v201 (addf : (⟨S4096x28x28, .f32⟩ : BufTy).Contents (Elt F) → (⟨S4096x28x28, .f32⟩ : BufTy).Contents (Elt F) → (⟨S4096x28x28, .f32⟩ : BufTy).Contents (Elt F)),
    unary main_v165 main_v202 ((extractStridedSlice S4096x28x28x1 ![0, 0, 0, 4] · slices_S4096x28x28x5_S4096x28x28x1_0_0_0_4) : (⟨S4096x28x28x5, .f32⟩ : BufTy).Contents (Elt F) → (⟨S4096x28x28x1, .f32⟩ : BufTy).Contents (Elt F)),
    reshape main_v202 main_v203 rfl shapeCasts_S4096x28x28x1_S4096x28x28,
    nullary main_cst_35 (constant S_ .f32 0x3F800000#32),
    unary main_cst_35 main_v204 (broadcastInDim S4096x28x28 ![] bcast_S_S4096x28x28 : (⟨S_, .f32⟩ : BufTy).Contents (Elt F) → (⟨S4096x28x28, .f32⟩ : BufTy).Contents (Elt F)),
    binary main_v204 main_v203 main_v205 (subf : (⟨S4096x28x28, .f32⟩ : BufTy).Contents (Elt F) → (⟨S4096x28x28, .f32⟩ : BufTy).Contents (Elt F) → (⟨S4096x28x28, .f32⟩ : BufTy).Contents (Elt F)),
    binary main_v205 main_v205 main_v206 (mulf : (⟨S4096x28x28, .f32⟩ : BufTy).Contents (Elt F) → (⟨S4096x28x28, .f32⟩ : BufTy).Contents (Elt F) → (⟨S4096x28x28, .f32⟩ : BufTy).Contents (Elt F)),
    binary main_v201 main_v206 main_v207 (addf : (⟨S4096x28x28, .f32⟩ : BufTy).Contents (Elt F) → (⟨S4096x28x28, .f32⟩ : BufTy).Contents (Elt F) → (⟨S4096x28x28, .f32⟩ : BufTy).Contents (Elt F)),
    unary main_arg1 main_v208 ((extractStridedSlice S4096x28x28x20 ![0, 0, 0, 4] · slices_S4096x28x28x24_S4096x28x28x20_0_0_0_4) : (⟨S4096x28x28x24, .f32⟩ : BufTy).Contents (Elt F) → (⟨S4096x28x28x20, .f32⟩ : BufTy).Contents (Elt F)),
    nullary main_cst_36 (constant S_ .f32 0x3F800000#32),
    unary main_cst_36 main_v209 (broadcastInDim S4096x28x28x20 ![] bcast_S_S4096x28x28x20 : (⟨S_, .f32⟩ : BufTy).Contents (Elt F) → (⟨S4096x28x28x20, .f32⟩ : BufTy).Contents (Elt F)),
    binary main_v208 main_v209 main_v210 (cmpf .oeq : (⟨S4096x28x28x20, .f32⟩ : BufTy).Contents (Elt F) → (⟨S4096x28x28x20, .f32⟩ : BufTy).Contents (Elt F) → (⟨S4096x28x28x20, .i1⟩ : BufTy).Contents (Elt F)),
    unary main_v210 main_v211 (uitofp .f32 : (⟨S4096x28x28x20, .i1⟩ : BufTy).Contents (Elt F) → (⟨S4096x28x28x20, .f32⟩ : BufTy).Contents (Elt F)),
    binary main_v211 main_v166 main_v212 (subf : (⟨S4096x28x28x20, .f32⟩ : BufTy).Contents (Elt F) → (⟨S4096x28x28x20, .f32⟩ : BufTy).Contents (Elt F) → (⟨S4096x28x28x20, .f32⟩ : BufTy).Contents (Elt F)),
    binary main_v212 main_v212 main_v213 (mulf : (⟨S4096x28x28x20, .f32⟩ : BufTy).Contents (Elt F) → (⟨S4096x28x28x20, .f32⟩ : BufTy).Contents (Elt F) → (⟨S4096x28x28x20, .f32⟩ : BufTy).Contents (Elt F)),
    nullary main_cst_37 (constant S_ .f32 0x00000000#32),
    binary main_v213 main_cst_37 main_v214 ((fun x v => Host.reduceAdd x v reducesTo_S4096x28x28x20_S4096x28x28_d3 h_S_) : (⟨S4096x28x28x20, .f32⟩ : BufTy).Contents (Elt F) → (⟨S_, .f32⟩ : BufTy).Contents (Elt F) → (⟨S4096x28x28, .f32⟩ : BufTy).Contents (Elt F)),
    binary main_v207 main_v214 main_v215 (addf : (⟨S4096x28x28, .f32⟩ : BufTy).Contents (Elt F) → (⟨S4096x28x28, .f32⟩ : BufTy).Contents (Elt F) → (⟨S4096x28x28, .f32⟩ : BufTy).Contents (Elt F)) ]

/-- Operations 264–279: the loss of a cell without an object, and the object test. -/
abbrev w4 : List (HloOp τ sig (Elt F)) :=
  [ unary main_arg0 main_v216 ((extractStridedSlice S4096x28x28x1 ![0, 0, 0, 4] · slices_S4096x28x28x30_S4096x28x28x1_0_0_0_4) : (⟨S4096x28x28x30, .f32⟩ : BufTy).Contents (Elt F) → (⟨S4096x28x28x1, .f32⟩ : BufTy).Contents (Elt F)),
    reshape main_v216 main_v217 rfl shapeCasts_S4096x28x28x1_S4096x28x28,
    binary main_v217 main_v217 main_v218 (mulf : (⟨S4096x28x28, .f32⟩ : BufTy).Contents (Elt F) → (⟨S4096x28x28, .f32⟩ : BufTy).Contents (Elt F) → (⟨S4096x28x28, .f32⟩ : BufTy).Contents (Elt F)),
    unary main_arg0 main_v219 ((extractStridedSlice S4096x28x28x1 ![0, 0, 0, 9] · slices_S4096x28x28x30_S4096x28x28x1_0_0_0_9) : (⟨S4096x28x28x30, .f32⟩ : BufTy).Contents (Elt F) → (⟨S4096x28x28x1, .f32⟩ : BufTy).Contents (Elt F)),
    reshape main_v219 main_v220 rfl shapeCasts_S4096x28x28x1_S4096x28x28,
    binary main_v220 main_v220 main_v221 (mulf : (⟨S4096x28x28, .f32⟩ : BufTy).Contents (Elt F) → (⟨S4096x28x28, .f32⟩ : BufTy).Contents (Elt F) → (⟨S4096x28x28, .f32⟩ : BufTy).Contents (Elt F)),
    binary main_v218 main_v221 main_v222 (addf : (⟨S4096x28x28, .f32⟩ : BufTy).Contents (Elt F) → (⟨S4096x28x28, .f32⟩ : BufTy).Contents (Elt F) → (⟨S4096x28x28, .f32⟩ : BufTy).Contents (Elt F)),
    nullary main_cst_38 (constant S_ .f32 0x3F000000#32),
    unary main_cst_38 main_v223 (broadcastInDim S4096x28x28 ![] bcast_S_S4096x28x28 : (⟨S_, .f32⟩ : BufTy).Contents (Elt F) → (⟨S4096x28x28, .f32⟩ : BufTy).Contents (Elt F)),
    binary main_v223 main_v222 main_v224 (mulf : (⟨S4096x28x28, .f32⟩ : BufTy).Contents (Elt F) → (⟨S4096x28x28, .f32⟩ : BufTy).Contents (Elt F) → (⟨S4096x28x28, .f32⟩ : BufTy).Contents (Elt F)),
    unary main_arg1 main_v225 ((extractStridedSlice S4096x28x28x20 ![0, 0, 0, 4] · slices_S4096x28x28x24_S4096x28x28x20_0_0_0_4) : (⟨S4096x28x28x24, .f32⟩ : BufTy).Contents (Elt F) → (⟨S4096x28x28x20, .f32⟩ : BufTy).Contents (Elt F)),
    nullary main_cst_39 (constant S_ .f32 0x00000000#32),
    unary main_cst_39 main_v226 (broadcastInDim S4096x28x28x20 ![] bcast_S_S4096x28x28x20 : (⟨S_, .f32⟩ : BufTy).Contents (Elt F) → (⟨S4096x28x28x20, .f32⟩ : BufTy).Contents (Elt F)),
    binary main_v225 main_v226 main_v227 (cmpf .une : (⟨S4096x28x28x20, .f32⟩ : BufTy).Contents (Elt F) → (⟨S4096x28x28x20, .f32⟩ : BufTy).Contents (Elt F) → (⟨S4096x28x28x20, .i1⟩ : BufTy).Contents (Elt F)),
    nullary main_c (constantI S_ 1 0#1),
    binary main_v227 main_c main_v228 ((fun x v => Host.reduce IntOp.ori x v reducesTo_S4096x28x28x20_S4096x28x28_d3 h_S_) : (⟨S4096x28x28x20, .i1⟩ : BufTy).Contents (Elt F) → (⟨S_, .i1⟩ : BufTy).Contents (Elt F) → (⟨S4096x28x28, .i1⟩ : BufTy).Contents (Elt F)) ]

/-- Operation 280: the cell's loss, chosen by the object test between the two losses. -/
abbrev w5 : List (HloOp τ sig (Elt F)) :=
  [ TRef.ternary (TRef.of (T := ⟨S4096x28x28, .i1⟩) main_v228) (TRef.of (T := ⟨S4096x28x28, .f32⟩) main_v215) (TRef.of (T := ⟨S4096x28x28, .f32⟩) main_v224) (TRef.of (T := ⟨S4096x28x28, .f32⟩) main_v229) select ]

/-- Operations 281–286: the sum over an image's cells, the sum over the images, the division by their number. -/
abbrev w6 : List (HloOp τ sig (Elt F)) :=
  [ nullary main_cst_40 (constant S_ .f32 0x00000000#32),
    binary main_v229 main_cst_40 main_v230 ((fun x v => Host.reduceAdd x v reducesTo_S4096x28x28_S4096_d1_2 h_S_) : (⟨S4096x28x28, .f32⟩ : BufTy).Contents (Elt F) → (⟨S_, .f32⟩ : BufTy).Contents (Elt F) → (⟨S4096, .f32⟩ : BufTy).Contents (Elt F)),
    nullary main_cst_41 (constant S_ .f32 0x00000000#32),
    binary main_v230 main_cst_41 main_v231 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_42 (constant S_ .f32 0x45800000#32),
    binary main_v231 main_cst_42 main_v232 (Host.divf : (⟨S_, .f32⟩ : BufTy).Contents (Elt F) → (⟨S_, .f32⟩ : BufTy).Contents (Elt F) → (⟨S_, .f32⟩ : BufTy).Contents (Elt F)) ]

/-! ## The first stretch, from any contents -/

theorem w1_arg0 (V : Valuation τ sig (Elt F)) : after w1 V (Proc.devRef .tc main_arg0) = V (Proc.devRef .tc main_arg0) := by
  after_results_simp <;> rfl
theorem w1_arg1 (V : Valuation τ sig (Elt F)) : after w1 V (Proc.devRef .tc main_arg1) = V (Proc.devRef .tc main_arg1) := by
  after_results_simp <;> rfl
/-- The ground-truth box slice after the first stretch. -/
theorem w1_v0 (V : Valuation τ sig (Elt F)) :
    after w1 V (Proc.devRef .tc main_v0) = val_main_v0 (F := F) (V (Proc.devRef .tc main_arg1)) := by
  after_results_simp <;> rfl
/-- The first overlap ratio after the first stretch. -/
theorem w1_v80 (V : Valuation τ sig (Elt F)) :
    after w1 V (Proc.devRef .tc main_v80) = val_main_v80 (F := F) (V (Proc.devRef .tc main_arg0)) (V (Proc.devRef .tc main_arg1)) := by
  after_results_simp <;> rfl

/-! ## The second stretch -/

theorem w2_arg0 (U : Valuation τ sig (Elt F)) : after w2 U (Proc.devRef .tc main_arg0) = U (Proc.devRef .tc main_arg0) := by
  after_results_simp <;> rfl
theorem w2_arg1 (U : Valuation τ sig (Elt F)) : after w2 U (Proc.devRef .tc main_arg1) = U (Proc.devRef .tc main_arg1) := by
  after_results_simp <;> rfl
/-- The choice after the second stretch, from contents that hold the arguments, the box slice and the first ratio. -/
theorem w2_v161 (U : Valuation τ sig (Elt F)) (X0 : (⟨S4096x28x28x30, .f32⟩ : BufTy).Contents (Elt F)) (X1 : (⟨S4096x28x28x24, .f32⟩ : BufTy).Contents (Elt F))
    (h0 : U (Proc.devRef .tc main_arg0) = X0) (h1 : U (Proc.devRef .tc main_arg1) = X1)
    (hv0 : U (Proc.devRef .tc main_v0) = val_main_v0 (F := F) X1) (hv80 : U (Proc.devRef .tc main_v80) = val_main_v80 (F := F) X0 X1) :
    after w2 U (Proc.devRef .tc main_v161) = val_main_v161 (F := F) X0 X1 := by
  after_results_simp
  simp only [h0, h1, hv0, hv80]
  rfl

/-! ## The third stretch -/

theorem w3_arg0 (W : Valuation τ sig (Elt F)) : after w3 W (Proc.devRef .tc main_arg0) = W (Proc.devRef .tc main_arg0) := by
  after_results_simp <;> rfl
theorem w3_arg1 (W : Valuation τ sig (Elt F)) : after w3 W (Proc.devRef .tc main_arg1) = W (Proc.devRef .tc main_arg1) := by
  after_results_simp <;> rfl
/-- The object loss after the third stretch, from contents that hold the arguments and the choice. -/
theorem w3_v215 (W : Valuation τ sig (Elt F)) (X0 : (⟨S4096x28x28x30, .f32⟩ : BufTy).Contents (Elt F)) (X1 : (⟨S4096x28x28x24, .f32⟩ : BufTy).Contents (Elt F))
    (h0 : W (Proc.devRef .tc main_arg0) = X0) (h1 : W (Proc.devRef .tc main_arg1) = X1)
    (h161 : W (Proc.devRef .tc main_v161) = val_main_v161 (F := F) X0 X1) :
    after w3 W (Proc.devRef .tc main_v215) = val_main_v215 (F := F) X0 X1 := by
  after_results_simp
  simp only [h0, h1, h161]
  rfl

/-! ## The fourth stretch -/

theorem w4_arg0 (W : Valuation τ sig (Elt F)) : after w4 W (Proc.devRef .tc main_arg0) = W (Proc.devRef .tc main_arg0) := by
  after_results_simp <;> rfl
theorem w4_arg1 (W : Valuation τ sig (Elt F)) : after w4 W (Proc.devRef .tc main_arg1) = W (Proc.devRef .tc main_arg1) := by
  after_results_simp <;> rfl
/-- The fourth stretch does not write the object loss. -/
theorem w4_v215 (W : Valuation τ sig (Elt F)) : after w4 W (Proc.devRef .tc main_v215) = W (Proc.devRef .tc main_v215) := by
  after_results_simp <;> rfl
/-- The loss of a cell without an object after the fourth stretch. -/
theorem w4_v224 (W : Valuation τ sig (Elt F)) (X0 : (⟨S4096x28x28x30, .f32⟩ : BufTy).Contents (Elt F)) (h0 : W (Proc.devRef .tc main_arg0) = X0) :
    after w4 W (Proc.devRef .tc main_v224) = val_main_v224 (F := F) X0 := by
  after_results_simp
  simp only [h0]
  rfl
/-- The object test after the fourth stretch. -/
theorem w4_v228 (W : Valuation τ sig (Elt F)) (X1 : (⟨S4096x28x28x24, .f32⟩ : BufTy).Contents (Elt F)) (h1 : W (Proc.devRef .tc main_arg1) = X1) :
    after w4 W (Proc.devRef .tc main_v228) = val_main_v228 (F := F) X1 := by
  after_results_simp
  simp only [h1]
  rfl

/-! ## The fifth stretch: the one selection -/

theorem w5_arg0 (W : Valuation τ sig (Elt F)) : after w5 W (Proc.devRef .tc main_arg0) = W (Proc.devRef .tc main_arg0) := by
  after_results_simp <;> rfl
theorem w5_arg1 (W : Valuation τ sig (Elt F)) : after w5 W (Proc.devRef .tc main_arg1) = W (Proc.devRef .tc main_arg1) := by
  after_results_simp <;> rfl
/-- The selection, from contents that hold the test and the two losses: the test's choice between them. -/
theorem w5_sel (W : Valuation τ sig (Elt F)) (A : (⟨S4096x28x28, .i1⟩ : BufTy).Contents (Elt F)) (Y B : (⟨S4096x28x28, .f32⟩ : BufTy).Contents (Elt F))
    (hA : W (Proc.devRef .tc main_v228) = A) (hY : W (Proc.devRef .tc main_v215) = Y) (hB : W (Proc.devRef .tc main_v224) = B) :
    after w5 W (Proc.devRef .tc main_v229) = select A Y B := by
  after_results_simp
  simp only [hA, hY, hB]
  rfl
/-- The cell losses after the fifth stretch, from contents that hold the test and the two losses at their stages. -/
theorem w5_v229 (W : Valuation τ sig (Elt F)) (X0 : (⟨S4096x28x28x30, .f32⟩ : BufTy).Contents (Elt F)) (X1 : (⟨S4096x28x28x24, .f32⟩ : BufTy).Contents (Elt F))
    (h228 : W (Proc.devRef .tc main_v228) = val_main_v228 (F := F) X1) (h215 : W (Proc.devRef .tc main_v215) = val_main_v215 (F := F) X0 X1)
    (h224 : W (Proc.devRef .tc main_v224) = val_main_v224 (F := F) X0) :
    after w5 W (Proc.devRef .tc main_v229) = val_main_v229 (F := F) X0 X1 := by
  unfold val_main_v229
  exact w5_sel W _ _ _ h228 h215 h224

/-! ## The sixth stretch -/

theorem w6_arg0 (W : Valuation τ sig (Elt F)) : after w6 W (Proc.devRef .tc main_arg0) = W (Proc.devRef .tc main_arg0) := by
  after_results_simp <;> rfl
theorem w6_arg1 (W : Valuation τ sig (Elt F)) : after w6 W (Proc.devRef .tc main_arg1) = W (Proc.devRef .tc main_arg1) := by
  after_results_simp <;> rfl
/-- The result after the sixth stretch, from contents that hold the cell losses. -/
theorem w6_v232 (W : Valuation τ sig (Elt F)) (X0 : (⟨S4096x28x28x30, .f32⟩ : BufTy).Contents (Elt F)) (X1 : (⟨S4096x28x28x24, .f32⟩ : BufTy).Contents (Elt F))
    (h229 : W (Proc.devRef .tc main_v229) = val_main_v229 (F := F) X0 X1) :
    after w6 W (Proc.devRef .tc main_v232) = val_main_v232 (F := F) X0 X1 := by
  after_results_simp
  simp only [h229]
  rfl

/-! ## The whole line -/

/-- The contents after the first k stretches, from `V`. -/
abbrev c1 (V : Valuation τ sig (Elt F)) : Valuation τ sig (Elt F) := after w1 V
abbrev c2 (V : Valuation τ sig (Elt F)) : Valuation τ sig (Elt F) := after w2 (c1 V)
abbrev c3 (V : Valuation τ sig (Elt F)) : Valuation τ sig (Elt F) := after w3 (c2 V)
abbrev c4 (V : Valuation τ sig (Elt F)) : Valuation τ sig (Elt F) := after w4 (c3 V)
abbrev c5 (V : Valuation τ sig (Elt F)) : Valuation τ sig (Elt F) := after w5 (c4 V)

theorem c2_arg0 (V : Valuation τ sig (Elt F)) : c2 V (Proc.devRef .tc main_arg0) = V (Proc.devRef .tc main_arg0) := (w2_arg0 _).trans (w1_arg0 V)
theorem c2_arg1 (V : Valuation τ sig (Elt F)) : c2 V (Proc.devRef .tc main_arg1) = V (Proc.devRef .tc main_arg1) := (w2_arg1 _).trans (w1_arg1 V)
theorem c3_arg0 (V : Valuation τ sig (Elt F)) : c3 V (Proc.devRef .tc main_arg0) = V (Proc.devRef .tc main_arg0) := (w3_arg0 _).trans (c2_arg0 V)
theorem c3_arg1 (V : Valuation τ sig (Elt F)) : c3 V (Proc.devRef .tc main_arg1) = V (Proc.devRef .tc main_arg1) := (w3_arg1 _).trans (c2_arg1 V)
theorem c4_arg0 (V : Valuation τ sig (Elt F)) : c4 V (Proc.devRef .tc main_arg0) = V (Proc.devRef .tc main_arg0) := (w4_arg0 _).trans (c3_arg0 V)
theorem c4_arg1 (V : Valuation τ sig (Elt F)) : c4 V (Proc.devRef .tc main_arg1) = V (Proc.devRef .tc main_arg1) := (w4_arg1 _).trans (c3_arg1 V)
theorem c5_arg0 (V : Valuation τ sig (Elt F)) : c5 V (Proc.devRef .tc main_arg0) = V (Proc.devRef .tc main_arg0) := (w5_arg0 _).trans (c4_arg0 V)
theorem c5_arg1 (V : Valuation τ sig (Elt F)) : c5 V (Proc.devRef .tc main_arg1) = V (Proc.devRef .tc main_arg1) := (w5_arg1 _).trans (c4_arg1 V)

/-- The object loss after the third stretch. -/
theorem c3_v215 (V : Valuation τ sig (Elt F)) :
    c3 V (Proc.devRef .tc main_v215) = val_main_v215 (F := F) (V (Proc.devRef .tc main_arg0)) (V (Proc.devRef .tc main_arg1)) :=
  w3_v215 _ _ _ (c2_arg0 V) (c2_arg1 V) (w2_v161 _ _ _ (w1_arg0 V) (w1_arg1 V) (w1_v0 V) (w1_v80 V))

/-- The cell losses after the fifth stretch. -/
theorem c5_v229 (V : Valuation τ sig (Elt F)) :
    c5 V (Proc.devRef .tc main_v229) = val_main_v229 (F := F) (V (Proc.devRef .tc main_arg0)) (V (Proc.devRef .tc main_arg1)) :=
  w5_v229 _ _ _ (w4_v228 _ _ (c3_arg1 V)) ((w4_v215 _).trans (c3_v215 V)) (w4_v224 _ _ (c3_arg0 V))

/-- The six stretches one after the other. -/
abbrev line : List (HloOp τ sig (Elt F)) := w1 ++ (w2 ++ (w3 ++ (w4 ++ (w5 ++ w6))))

theorem after_line (V : Valuation τ sig (Elt F)) : after line V = after w6 (c5 V) := by
  simp only [line, after_append]

/-- The result buffer after the six stretches: the last stage of the arguments' contents. -/
theorem eval_v232 (V : Valuation τ sig (Elt F)) :
    after line V (Proc.devRef .tc main_v232) = val_main_v232 (F := F) (V (Proc.devRef .tc main_arg0)) (V (Proc.devRef .tc main_arg1)) := by
  rw [after_line]
  exact w6_v232 _ _ _ (c5_v229 V)

/-- The arguments after the six stretches: unchanged. -/
theorem eval_arg0 (V : Valuation τ sig (Elt F)) : after line V (Proc.devRef .tc main_arg0) = V (Proc.devRef .tc main_arg0) := by
  rw [after_line]; exact (w6_arg0 _).trans (c5_arg0 V)
theorem eval_arg1 (V : Valuation τ sig (Elt F)) : after line V (Proc.devRef .tc main_arg1) = V (Proc.devRef .tc main_arg1) := by
  rw [after_line]; exact (w6_arg1 _).trans (c5_arg1 V)

end Cert.ReferenceIdeal.Windows

end
-- ==== Proof.RefRun.lean ====
/-
  The reference's run.

  The reference's @main is the straight line of its 287 operations, and that list is the six stretches of
  `RefWindows` one after the other (`ops_eq`). Every weakly fair execution of a straight line terminates with each
  buffer at the fold of the operations' results over its launch contents; read stretch by stretch, the result buffer
  ends at the last stage of the two argument arrays and the argument arrays end as they were (`run`).
-/
import proofs.«178040_j67577015435959_2_alg».proof.Proof.RefRunPatched
import proofs.«178040_j67577015435959_2_alg».proof.Proof.RefWindows

set_option maxHeartbeats 8000000

noncomputable section

namespace Cert.ReferenceIdeal.Windows

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

/-- The operation list is the six stretches in order. -/
theorem ops_eq : (ops : List (HloOp τ sig (Elt F))) = line := rfl

/-- On every device, from any memory with zero counters: every weakly fair execution of the reference terminates with
    the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v232)
        = val_main_v232 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v232).trans ((congrArg (fun l => after l (launchContents m c) (Proc.devRef .tc main_v232)) ops_eq).trans
        (eval_v232 (launchContents m c))),
     (h c main_arg0).trans ((congrArg (fun l => after l (launchContents m c) (Proc.devRef .tc main_arg0)) ops_eq).trans
        (eval_arg0 (launchContents m c))),
     (h c main_arg1).trans ((congrArg (fun l => after l (launchContents m c) (Proc.devRef .tc main_arg1)) ops_eq).trans
        (eval_arg1 (launchContents m c)))⟩)
    (run_seq scopedRefs_eq scopedSems_eq defs main (fun _ => ops) main_eq (fun _ => ops_sub) m ρ)

end Cert.ReferenceIdeal.Windows

end
-- ==== Proof.RefMean.lean ====
/-
  What the reference's run leaves in its result: the mean of the image losses.

  The reference keeps one loss per cell in an array of 4096 × 28 × 28 numbers (`RefCell`: its entry at (n, i, j) is the
  cell's loss of the arguments' entries there), adds an image's 28 × 28 entries up from zero — the indices that reduce
  to image n are exactly the (n, i, j), so the sum is the double sum over i and j (`LibSumSplit`), that is the image's
  loss (`images_eq`) — and takes the mean of the 4096 image sums as their sum from zero divided by 4096 (`result_eq`). The run (`RefRun`) leaves
  the last stage of the arguments in the result buffer, hence that mean (`run`).
-/
import proofs.«178040_j67577015435959_2_alg».proof.Proof.RefReadPatched
import proofs.«178040_j67577015435959_2_alg».proof.Proof.RefCell
import proofs.«178040_j67577015435959_2_alg».proof.Proof.RefRun
import proofs.«178040_j67577015435959_2_alg».proof.Proof.MeanLoss

noncomputable section

open Idealize.ShloMosaic Idealize.ShloMosaic.TcCoe Idealize.SL.Sem Idealize.ShloMosaic.ValueIdx

namespace Cert.ReferenceIdeal.MeanValue

open Cert.ReferenceIdeal Cert.ReferenceIdeal.Gen Cert.ReferenceIdeal.Read Cert.YoloCell Cert.PointDist

/-- The reference's vector of image sums is the vector of image losses. -/
theorem images_eq (X0 : (⟨S4096x28x28x30, .f32⟩ : BufTy).Contents (Elt Ideal)) (X1 : (⟨S4096x28x28x24, .f32⟩ : BufTy).Contents (Elt Ideal)) :
    val_main_v230 (F := Ideal) X0 X1 = imageLoss X0 X1 := by
  funext n
  obtain ⟨a, rfl⟩ : ∃ a : Fin 4096, n = ix1 a := ⟨n 0, eq_ix1 n⟩
  unfold val_main_v230
  show Ideal.hostReduceAdd reducesTo_S4096x28x28_S4096_d1_2 (val_main_v229 (F := Ideal) X0 X1)
    ((val_main_cst_40 (F := Ideal)) (Shape.Idx.first h_S_)) (ix1 a) = _
  rw [hostReduceAdd_last_two]
  have hz : (val_main_cst_40 (F := Ideal)) (Shape.Idx.first h_S_) = 0 := Ideal.ofBits_zero_f32
  rw [hz, zero_add]
  unfold imageLoss
  refine Finset.sum_congr rfl fun i _ => Finset.sum_congr rfl fun j _ => ?_
  exact Cert.ReferenceIdeal.CellValue.ref_cell X0 X1 a i j

/-- The reference's result is the mean of the image losses. -/
theorem result_eq (X0 : (⟨S4096x28x28x30, .f32⟩ : BufTy).Contents (Elt Ideal)) (X1 : (⟨S4096x28x28x24, .f32⟩ : BufTy).Contents (Elt Ideal)) :
    val_main_v232 (F := Ideal) X0 X1 = meanOf reducesTo_S4096_S_d0 h_S_ (imageLoss X0 X1) := by
  unfold val_main_v232 val_main_v231
  rw [images_eq]
  rfl

/-- The reference's run, read: the result buffer at the mean of the image losses, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v232)
        = meanOf reducesTo_S4096_S_d0 h_S_ (imageLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _), (h c).2⟩)
    (Cert.ReferenceIdeal.Windows.run (F := Ideal) m ρ)

end Cert.ReferenceIdeal.MeanValue

end
-- ==== Proof.lean ====
/-
  The certificate of the per-cell detection loss kernel against its reference.

  Both programs compute, for 4096 images of 28 × 28 cells, the mean over the images of the sum over an image's cells
  of one cell's loss, a function of the cell's 30 predicted and 24 ground-truth numbers (`Proof/CellLoss.lean`:
  `cell`; `Proof/MeanLoss.lean`: `imageLoss`, `meanOf`). The kernel lays an image's cells on one axis of 784, takes
  16 images per grid point and leaves one sum per image, which the lines after the region add up and divide
  (`Proof/KernelRow.lean`, `Proof/KernelArray.lean`); the reference keeps the cells on two axes of 28 and sums over
  both (`Proof/RefCell.lean`, `Proof/RefMean.lean`; its run is read in six stretches, `Proof/RefWindows.lean`, `Proof/RefRun.lean`). Over the extended reals the two differ only by exact identities:
  a half as a product with 1/2 or a quotient by 2, the class errors added one by one or as one sum, the object test
  or-ed one by one or as one reduction, a 0/1 test read as a signed or an unsigned integer, and the order in which a
  sum's terms are added. No property of the inputs is needed. The kernel's two frames are the generated ones, the reference's frame is its run with the result
  dropped, and the kernel's idealization rewrote nothing.
-/
import proofs.«178040_j67577015435959_2_alg».proof.Defs
import proofs.«178040_j67577015435959_2_alg».proof.Proof.Gen.Kernel
import proofs.«178040_j67577015435959_2_alg».proof.Proof.Gen.Kernel.Skeleton
import proofs.«178040_j67577015435959_2_alg».proof.Proof.Gen.Kernel.Launch
import proofs.«178040_j67577015435959_2_alg».proof.Proof.Gen.Kernel.Points
import proofs.«178040_j67577015435959_2_alg».proof.Proof.Gen.Kernel.Frame
import proofs.«178040_j67577015435959_2_alg».proof.Proof.Gen.KernelIdeal
import proofs.«178040_j67577015435959_2_alg».proof.Proof.Gen.KernelIdeal.Skeleton
import proofs.«178040_j67577015435959_2_alg».proof.Proof.Gen.KernelIdeal.Launch
import proofs.«178040_j67577015435959_2_alg».proof.Proof.Gen.KernelIdeal.Points
import proofs.«178040_j67577015435959_2_alg».proof.Proof.Gen.KernelIdeal.Frame
import proofs.«178040_j67577015435959_2_alg».proof.Proof.Gen.ReferenceIdeal
import proofs.«178040_j67577015435959_2_alg».proof.Proof.Gen.Pre_finite_inputs
import proofs.«178040_j67577015435959_2_alg».proof.Proof.KernelArray
import proofs.«178040_j67577015435959_2_alg».proof.Proof.RefMean
import Idealize.ShloMosaic.Adequacy
import Idealize.ShloMosaic.Init

noncomputable section

namespace Cert.Proof

open Idealize.ShloMosaic Idealize.SL.Sem

/-- The word-level kernel runs and leaves its arguments as they were: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Windows.run (F := Ideal) m ρ)

/-- The idealization rewrote no operation. -/
theorem preserves : Cert.preserves_Kernel_KernelIdeal := trivial

/-- From memories that agree on the arguments both runs end with the mean of the image losses of the same arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.MeanValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
